-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x96x96x96 : Shape := ⟨5, ![2, 32, 96, 96, 96]⟩
abbrev S_ : Shape := ⟨0, ![]⟩

class Facts : Prop where
  bcast_S_S2x32x96x96x96 : S_.BroadcastsInDim S2x32x96x96x96 (![] : Fin 0 → Fin S2x32x96x96x96.rank)
  reducesTo_S2x32x96x96x96_S_d0_1_2_3_4 : S2x32x96x96x96.ReducesTo [0, 1, 2, 3, 4] S_
  h_S_ : 0 < S_.numel

variable [Facts]

def fn {F : FTy → Type} [FloatOps F] (main_arg0 : FVec F S2x32x96x96x96 .f32) (main_arg1 : FVec F S2x32x96x96x96 .f32) : IVec S_ 1 :=
  let main_v0 : FVec F S2x32x96x96x96 .f32 := Host.absf main_arg0
  let main_cst : FVec F S_ .f32 := constant S_ .f32 0x7F800000#32
  let main_v1 : FVec F S2x32x96x96x96 .f32 := broadcastInDim S2x32x96x96x96 ![] bcast_S_S2x32x96x96x96 main_cst
  let main_v2 : IVec S2x32x96x96x96 1 := cmpf .olt main_v0 main_v1
  let main_c : IVec S_ 1 := constantI S_ 1 1#1
  let main_v3 : IVec S_ 1 := (fun x v => Host.reduce IntOp.andi x v reducesTo_S2x32x96x96x96_S_d0_1_2_3_4 h_S_) main_v2 main_c
  let main_v4 : FVec F S2x32x96x96x96 .f32 := Host.absf main_arg1
  let main_cst_0 : FVec F S_ .f32 := constant S_ .f32 0x7F800000#32
  let main_v5 : FVec F S2x32x96x96x96 .f32 := broadcastInDim S2x32x96x96x96 ![] bcast_S_S2x32x96x96x96 main_cst_0
  let main_v6 : IVec S2x32x96x96x96 1 := cmpf .olt main_v4 main_v5
  let main_c_1 : IVec S_ 1 := constantI S_ 1 1#1
  let main_v7 : IVec S_ 1 := (fun x v => Host.reduce IntOp.andi x v reducesTo_S2x32x96x96x96_S_d0_1_2_3_4 h_S_) main_v6 main_c_1
  let main_v8 : IVec S_ 1 := andi main_v3 main_v7
  main_v8
-- ==== Kernel.lean ====
abbrev S2x32x96x96x96 : Shape := ⟨5, ![2, 32, 96, 96, 96]⟩
abbrev S64x96x96x96 : Shape := ⟨4, ![64, 96, 96, 96]⟩
abbrev S64x3x3x3 : Shape := ⟨4, ![64, 3, 3, 3]⟩
abbrev S1x96x96x96 : Shape := ⟨4, ![1, 96, 96, 96]⟩
abbrev S1x3x3x3 : Shape := ⟨4, ![1, 3, 3, 3]⟩
abbrev S1x32x32x32 : Shape := ⟨4, ![1, 32, 32, 32]⟩
abbrev S32x32x32 : Shape := ⟨3, ![32, 32, 32]⟩
abbrev S32x32 : Shape := ⟨2, ![32, 32]⟩
abbrev S32x32x1 : Shape := ⟨3, ![32, 32, 1]⟩
abbrev S32x1 : Shape := ⟨2, ![32, 1]⟩
abbrev S32x1x1 : Shape := ⟨3, ![32, 1, 1]⟩
abbrev S1x1 : Shape := ⟨2, ![1, 1]⟩
abbrev S1x1x1 : Shape := ⟨3, ![1, 1, 1]⟩
abbrev S1 : Shape := ⟨1, ![1]⟩
abbrev S3 : Shape := ⟨1, ![3]⟩
abbrev S1x3 : Shape := ⟨2, ![1, 3]⟩
abbrev S3x3 : Shape := ⟨2, ![3, 3]⟩
abbrev S1x3x3 : Shape := ⟨3, ![1, 3, 3]⟩
abbrev S3x3x3 : Shape := ⟨3, ![3, 3, 3]⟩
abbrev S2x32x3x3x3 : Shape := ⟨5, ![2, 32, 3, 3, 3]⟩
abbrev S_ : Shape := ⟨0, ![]⟩
abbrev S2x32 : Shape := ⟨2, ![2, 32]⟩
abbrev S2x32x1x1x1 : Shape := ⟨5, ![2, 32, 1, 1, 1]⟩
abbrev S2x32x1 : Shape := ⟨3, ![2, 32, 1]⟩
abbrev S2x1x32 : Shape := ⟨3, ![2, 1, 32]⟩
abbrev S32x2 : Shape := ⟨2, ![32, 2]⟩
abbrev S2x2 : Shape := ⟨2, ![2, 2]⟩
abbrev S2 : Shape := ⟨1, ![2]⟩
abbrev S2x1 : Shape := ⟨2, ![2, 1]⟩
abbrev S1x2 : Shape := ⟨2, ![1, 2]⟩
abbrev S2x32x27 : Shape := ⟨3, ![2, 32, 27]⟩
abbrev S2x27x32 : Shape := ⟨3, ![2, 27, 32]⟩
abbrev S54x32 : Shape := ⟨2, ![54, 32]⟩
abbrev S32x54 : Shape := ⟨2, ![32, 54]⟩
abbrev S54x54 : Shape := ⟨2, ![54, 54]⟩
abbrev S54 : Shape := ⟨1, ![54]⟩
abbrev S54x1 : Shape := ⟨2, ![54, 1]⟩
abbrev S1x54 : Shape := ⟨2, ![1, 54]⟩

abbrev nBuf : Space → Nat
  | .hbm => 150
  | .vmem => 8
  | .smem => 0
  | _ => 0

abbrev hbmTy0_0 (i : Nat) : BufTy := match i % 128 with
  | 0 => ⟨S2x32x96x96x96, .f32⟩
  | 1 => ⟨S2x32x96x96x96, .f32⟩
  | 2 => ⟨S64x96x96x96, .f32⟩
  | 3 => ⟨S64x96x96x96, .f32⟩
  | 4 => ⟨S64x3x3x3, .f32⟩
  | 5 => ⟨S64x3x3x3, .f32⟩
  | 6 => ⟨S2x32x3x3x3, .f32⟩
  | 7 => ⟨S2x32x3x3x3, .f32⟩
  | 8 => ⟨S_, .f32⟩
  | 9 => ⟨S2x32, .f32⟩
  | 10 => ⟨S2x32x1x1x1, .f32⟩
  | 11 => ⟨S_, .f32⟩
  | 12 => ⟨S2x32x1x1x1, .f32⟩
  | 13 => ⟨S2x32x1x1x1, .f32⟩
  | 14 => ⟨S_, .f32⟩
  | 15 => ⟨S2x32, .f32⟩
  | 16 => ⟨S2x32x1x1x1, .f32⟩
  | 17 => ⟨S_, .f32⟩
  | 18 => ⟨S2x32x1x1x1, .f32⟩
  | 19 => ⟨S2x32x1x1x1, .f32⟩
  | 20 => ⟨S2x32x1, .f32⟩
  | 21 => ⟨S2x1x32, .f32⟩
  | 22 => ⟨S2x32, .f32⟩
  | 23 => ⟨S32x2, .f32⟩
  | 24 => ⟨S2x2, .f32⟩
  | 25 => ⟨S2x32, .f32⟩
  | 26 => ⟨S_, .f32⟩
  | 27 => ⟨S2, .f32⟩
  | 28 => ⟨S2, .f32⟩
  | 29 => ⟨S2x1, .f32⟩
  | 30 => ⟨S1x2, .f32⟩
  | 31 => ⟨S2x2, .f32⟩
  | 32 => ⟨S2x2, .f32⟩
  | 33 => ⟨S2x2, .f32⟩
  | 34 => ⟨S_, .f32⟩
  | 35 => ⟨S2x2, .f32⟩
  | 36 => ⟨S2x2, .f32⟩
  | 37 => ⟨S2x2, .f32⟩
  | 38 => ⟨S2x32x1, .f32⟩
  | 39 => ⟨S2x1x32, .f32⟩
  | 40 => ⟨S2x32, .f32⟩
  | 41 => ⟨S32x2, .f32⟩
  | 42 => ⟨S2x2, .f32⟩
  | 43 => ⟨S2x32, .f32⟩
  | 44 => ⟨S_, .f32⟩
  | 45 => ⟨S2, .f32⟩
  | 46 => ⟨S2, .f32⟩
  | 47 => ⟨S2x1, .f32⟩
  | 48 => ⟨S1x2, .f32⟩
  | 49 => ⟨S2x2, .f32⟩
  | 50 => ⟨S2x2, .f32⟩
  | 51 => ⟨S2x2, .f32⟩
  | 52 => ⟨S_, .f32⟩
  | 53 => ⟨S2x2, .f32⟩
  | 54 => ⟨S2x2, .f32⟩
  | 55 => ⟨S2x2, .f32⟩
  | 56 => ⟨S2x2, .f32⟩
  | 57 => ⟨S2x2, .f32⟩
  | 58 => ⟨S_, .f32⟩
  | 59 => ⟨S_, .f32⟩
  | 60 => ⟨S_, .f32⟩
  | 61 => ⟨S_, .f32⟩
  | 62 => ⟨S2x32x27, .f32⟩
  | 63 => ⟨S2x27x32, .f32⟩
  | 64 => ⟨S54x32, .f32⟩
  | 65 => ⟨S32x54, .f32⟩
  | 66 => ⟨S54x54, .f32⟩
  | 67 => ⟨S54x32, .f32⟩
  | 68 => ⟨S_, .f32⟩
  | 69 => ⟨S54, .f32⟩
  | 70 => ⟨S54, .f32⟩
  | 71 => ⟨S54x1, .f32⟩
  | 72 => ⟨S1x54, .f32⟩
  | 73 => ⟨S54x54, .f32⟩
  | 74 => ⟨S54x54, .f32⟩
  | 75 => ⟨S54x54, .f32⟩
  | 76 => ⟨S_, .f32⟩
  | 77 => ⟨S54x54, .f32⟩
  | 78 => ⟨S54x54, .f32⟩
  | 79 => ⟨S54x54, .f32⟩
  | 80 => ⟨S2x32x27, .f32⟩
  | 81 => ⟨S2x27x32, .f32⟩
  | 82 => ⟨S54x32, .f32⟩
  | 83 => ⟨S32x54, .f32⟩
  | 84 => ⟨S54x54, .f32⟩
  | 85 => ⟨S54x32, .f32⟩
  | 86 => ⟨S_, .f32⟩
  | 87 => ⟨S54, .f32⟩
  | 88 => ⟨S54, .f32⟩
  | 89 => ⟨S54x1, .f32⟩
  | 90 => ⟨S1x54, .f32⟩
  | 91 => ⟨S54x54, .f32⟩
  | 92 => ⟨S54x54, .f32⟩
  | 93 => ⟨S54x54, .f32⟩
  | 94 => ⟨S_, .f32⟩
  | 95 => ⟨S54x54, .f32⟩
  | 96 => ⟨S54x54, .f32⟩
  | 97 => ⟨S54x54, .f32⟩
  | 98 => ⟨S54x54, .f32⟩
  | 99 => ⟨S54x54, .f32⟩
  | 100 => ⟨S_, .f32⟩
  | 101 => ⟨S_, .f32⟩
  | 102 => ⟨S_, .f32⟩
  | 103 => ⟨S_, .f32⟩
  | 104 => ⟨S2x32x27, .f32⟩
  | 105 => ⟨S2x27x32, .f32⟩
  | 106 => ⟨S54x32, .f32⟩
  | 107 => ⟨S32x54, .f32⟩
  | 108 => ⟨S54x54, .f32⟩
  | 109 => ⟨S54x32, .f32⟩
  | 110 => ⟨S_, .f32⟩
  | 111 => ⟨S54, .f32⟩
  | 112 => ⟨S54, .f32⟩
  | 113 => ⟨S54x1, .f32⟩
  | 114 => ⟨S1x54, .f32⟩
  | 115 => ⟨S54x54, .f32⟩
  | 116 => ⟨S54x54, .f32⟩
  | 117 => ⟨S54x54, .f32⟩
  | 118 => ⟨S_, .f32⟩
  | 119 => ⟨S54x54, .f32⟩
  | 120 => ⟨S54x54, .f32⟩
  | 121 => ⟨S54x54, .f32⟩
  | 122 => ⟨S2x32x27, .f32⟩
  | 123 => ⟨S2x27x32, .f32⟩
  | 124 => ⟨S54x32, .f32⟩
  | 125 => ⟨S32x54, .f32⟩
  | 126 => ⟨S54x54, .f32⟩
  | 127 => ⟨S54x32, .f32⟩
  | _ => ⟨S2x32x96x96x96, .f32⟩

abbrev hbmTy0_1 (i : Nat) : BufTy := match i % 128 with
  | 0 => ⟨S_, .f32⟩
  | 1 => ⟨S54, .f32⟩
  | 2 => ⟨S54, .f32⟩
  | 3 => ⟨S54x1, .f32⟩
  | 4 => ⟨S1x54, .f32⟩
  | 5 => ⟨S54x54, .f32⟩
  | 6 => ⟨S54x54, .f32⟩
  | 7 => ⟨S54x54, .f32⟩
  | 8 => ⟨S_, .f32⟩
  | 9 => ⟨S54x54, .f32⟩
  | 10 => ⟨S54x54, .f32⟩
  | 11 => ⟨S54x54, .f32⟩
  | 12 => ⟨S54x54, .f32⟩
  | 13 => ⟨S54x54, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S2x32x96x96x96, .f32⟩

abbrev hbmTy (i : Nat) : BufTy := match i / 128 with
  | 0 => hbmTy0_0 i
  | 1 => hbmTy0_1 i
  | _ => ⟨S2x32x96x96x96, .f32⟩

abbrev bufTy : (tb : Table) → Fin (tcTables nBuf tb) → BufTy
  | .hbm, ⟨i, _⟩ => hbmTy i
  | .local _ .vmem, ⟨0, _⟩ => ⟨S1x96x96x96, .f32⟩
  | .local _ .vmem, ⟨1, _⟩ => ⟨S1x96x96x96, .f32⟩
  | .local _ .vmem, ⟨2, _⟩ => ⟨S1x96x96x96, .f32⟩
  | .local _ .vmem, ⟨3, _⟩ => ⟨S1x96x96x96, .f32⟩
  | .local _ .vmem, ⟨4, _⟩ => ⟨S1x3x3x3, .f32⟩
  | .local _ .vmem, ⟨5, _⟩ => ⟨S1x3x3x3, .f32⟩
  | .local _ .vmem, ⟨6, _⟩ => ⟨S1x3x3x3, .f32⟩
  | .local _ .vmem, ⟨7, _⟩ => ⟨S1x3x3x3, .f32⟩
  | _, _ => ⟨S2x32x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call2_v0 : Ref sig .tc := ⟨.hbm, 67, rfl⟩
abbrev main_call2_cst : Ref sig .tc := ⟨.hbm, 68, rfl⟩
abbrev main_call2_v1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call3_v0 : Ref sig .tc := ⟨.hbm, 85, rfl⟩
abbrev main_call3_cst : Ref sig .tc := ⟨.hbm, 86, rfl⟩
abbrev main_call3_v1 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_9 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_call4_v0 : Ref sig .tc := ⟨.hbm, 109, rfl⟩
abbrev main_call4_cst : Ref sig .tc := ⟨.hbm, 110, rfl⟩
abbrev main_call4_v1 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_11 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_call5_v0 : Ref sig .tc := ⟨.hbm, 127, rfl⟩
abbrev main_call5_cst : Ref sig .tc := ⟨.hbm, 128, rfl⟩
abbrev main_call5_v1 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_12 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_13 : Ref sig .tc := ⟨.hbm, 142, rfl⟩
abbrev main_v107 : Ref sig .tc := ⟨.hbm, 143, rfl⟩
abbrev main_cst_14 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_15 : Ref sig .tc := ⟨.hbm, 148, rfl⟩
abbrev main_v111 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x96x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x3x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x32x96x96x96_S64x96x96x96 : S2x32x96x96x96.ShapeCasts S64x96x96x96
  inb_S1x96x96x96_S1x32x32x32_0_0_0_0 : ∀ a, (![0, 0, 0, 0] : Fin 4 → Nat) a + S1x32x32x32.size a ≤ S1x96x96x96.size a
  h_S1x32x32x32 : 0 < S1x32x32x32.numel
  shapeCasts_S1x32x32x32_S32x32x32 : S1x32x32x32.ShapeCasts S32x32x32
  reduces_S32x32x32_S32x32 : S32x32x32.Reduces [2] S32x32
  shapeCasts_S32x32_S32x32x1 : S32x32.ShapeCasts S32x32x1
  reduces_S32x32x1_S32x1 : S32x32x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  inpos_S1x1x1_p0_0_0 : ∀ a, (![0, 0, 0] : Fin 3 → Nat) a < S1x1x1.size a
  inb_S1x96x96x96_S1x32x32x32_0_0_0_32 : ∀ a, (![0, 0, 0, 32] : Fin 4 → Nat) a + S1x32x32x32.size a ≤ S1x96x96x96.size a
  inb_S1x96x96x96_S1x32x32x32_0_0_0_64 : ∀ a, (![0, 0, 0, 64] : Fin 4 → Nat) a + S1x32x32x32.size a ≤ S1x96x96x96.size a
  concatenates_S1_S1_S1_S3_d0 : Shape.Concatenates [S1, S1, S1] S3 0
  inb_S1x96x96x96_S1x32x32x32_0_0_32_0 : ∀ a, (![0, 0, 32, 0] : Fin 4 → Nat) a + S1x32x32x32.size a ≤ S1x96x96x96.size a
  inb_S1x96x96x96_S1x32x32x32_0_0_32_32 : ∀ a, (![0, 0, 32, 32] : Fin 4 → Nat) a + S1x32x32x32.size a ≤ S1x96x96x96.size a
  inb_S1x96x96x96_S1x32x32x32_0_0_32_64 : ∀ a, (![0, 0, 32, 64] : Fin 4 → Nat) a + S1x32x32x32.size a ≤ S1x96x96x96.size a
  inb_S1x96x96x96_S1x32x32x32_0_0_64_0 : ∀ a, (![0, 0, 64, 0] : Fin 4 → Nat) a + S1x32x32x32.size a ≤ S1x96x96x96.size a
  inb_S1x96x96x96_S1x32x32x32_0_0_64_32 : ∀ a, (![0, 0, 64, 32] : Fin 4 → Nat) a + S1x32x32x32.size a ≤ S1x96x96x96.size a
  inb_S1x96x96x96_S1x32x32x32_0_0_64_64 : ∀ a, (![0, 0, 64, 64] : Fin 4 → Nat) a + S1x32x32x32.size a ≤ S1x96x96x96.size a
  shapeCasts_S3_S1x3 : S3.ShapeCasts S1x3
  concatenates_S1x3_S1x3_S1x3_S3x3_d0 : Shape.Concatenates [S1x3, S1x3, S1x3] S3x3 0
  inb_S1x96x96x96_S1x32x32x32_0_32_0_0 : ∀ a, (![0, 32, 0, 0] : Fin 4 → Nat) a + S1x32x32x32.size a ≤ S1x96x96x96.size a
  inb_S1x96x96x96_S1x32x32x32_0_32_0_32 : ∀ a, (![0, 32, 0, 32] : Fin 4 → Nat) a + S1x32x32x32.size a ≤ S1x96x96x96.size a
  inb_S1x96x96x96_S1x32x32x32_0_32_0_64 : ∀ a, (![0, 32, 0, 64] : Fin 4 → Nat) a + S1x32x32x32.size a ≤ S1x96x96x96.size a
  inb_S1x96x96x96_S1x32x32x32_0_32_32_0 : ∀ a, (![0, 32, 32, 0] : Fin 4 → Nat) a + S1x32x32x32.size a ≤ S1x96x96x96.size a
  inb_S1x96x96x96_S1x32x32x32_0_32_32_32 : ∀ a, (![0, 32, 32, 32] : Fin 4 → Nat) a + S1x32x32x32.size a ≤ S1x96x96x96.size a
  inb_S1x96x96x96_S1x32x32x32_0_32_32_64 : ∀ a, (![0, 32, 32, 64] : Fin 4 → Nat) a + S1x32x32x32.size a ≤ S1x96x96x96.size a
  inb_S1x96x96x96_S1x32x32x32_0_32_64_0 : ∀ a, (![0, 32, 64, 0] : Fin 4 → Nat) a + S1x32x32x32.size a ≤ S1x96x96x96.size a
  inb_S1x96x96x96_S1x32x32x32_0_32_64_32 : ∀ a, (![0, 32, 64, 32] : Fin 4 → Nat) a + S1x32x32x32.size a ≤ S1x96x96x96.size a
  inb_S1x96x96x96_S1x32x32x32_0_32_64_64 : ∀ a, (![0, 32, 64, 64] : Fin 4 → Nat) a + S1x32x32x32.size a ≤ S1x96x96x96.size a
  inb_S1x96x96x96_S1x32x32x32_0_64_0_0 : ∀ a, (![0, 64, 0, 0] : Fin 4 → Nat) a + S1x32x32x32.size a ≤ S1x96x96x96.size a
  inb_S1x96x96x96_S1x32x32x32_0_64_0_32 : ∀ a, (![0, 64, 0, 32] : Fin 4 → Nat) a + S1x32x32x32.size a ≤ S1x96x96x96.size a
  inb_S1x96x96x96_S1x32x32x32_0_64_0_64 : ∀ a, (![0, 64, 0, 64] : Fin 4 → Nat) a + S1x32x32x32.size a ≤ S1x96x96x96.size a
  inb_S1x96x96x96_S1x32x32x32_0_64_32_0 : ∀ a, (![0, 64, 32, 0] : Fin 4 → Nat) a + S1x32x32x32.size a ≤ S1x96x96x96.size a
  inb_S1x96x96x96_S1x32x32x32_0_64_32_32 : ∀ a, (![0, 64, 32, 32] : Fin 4 → Nat) a + S1x32x32x32.size a ≤ S1x96x96x96.size a
  inb_S1x96x96x96_S1x32x32x32_0_64_32_64 : ∀ a, (![0, 64, 32, 64] : Fin 4 → Nat) a + S1x32x32x32.size a ≤ S1x96x96x96.size a
  inb_S1x96x96x96_S1x32x32x32_0_64_64_0 : ∀ a, (![0, 64, 64, 0] : Fin 4 → Nat) a + S1x32x32x32.size a ≤ S1x96x96x96.size a
  inb_S1x96x96x96_S1x32x32x32_0_64_64_32 : ∀ a, (![0, 64, 64, 32] : Fin 4 → Nat) a + S1x32x32x32.size a ≤ S1x96x96x96.size a
  inb_S1x96x96x96_S1x32x32x32_0_64_64_64 : ∀ a, (![0, 64, 64, 64] : Fin 4 → Nat) a + S1x32x32x32.size a ≤ S1x96x96x96.size a
  shapeCasts_S3x3_S1x3x3 : S3x3.ShapeCasts S1x3x3
  concatenates_S1x3x3_S1x3x3_S1x3x3_S3x3x3_d0 : Shape.Concatenates [S1x3x3, S1x3x3, S1x3x3] S3x3x3 0
  inb_S1x3x3x3_S1x3x3x3_0_0_0_0 : ∀ a, (![0, 0, 0, 0] : Fin 4 → Nat) a + S1x3x3x3.size a ≤ S1x3x3x3.size a
  h_S1x3x3x3 : 0 < S1x3x3x3.numel
  shapeCasts_S1x3x3x3_S3x3x3 : S1x3x3x3.ShapeCasts S3x3x3
  shapeCasts_S3x3x3_S1x3x3x3 : S3x3x3.ShapeCasts S1x3x3x3
  shapeCasts_S64x3x3x3_S2x32x3x3x3 : S64x3x3x3.ShapeCasts S2x32x3x3x3
  reducesTo_S2x32x3x3x3_S2x32_d2_3_4 : S2x32x3x3x3.ReducesTo [2, 3, 4] S2x32
  h_S_ : 0 < S_.numel
  bcast_S2x32_S2x32x1x1x1_0_1 : S2x32.BroadcastsInDim S2x32x1x1x1 (![0, 1] : Fin 2 → Fin S2x32x1x1x1.rank)
  bcast_S_S2x32x1x1x1 : S_.BroadcastsInDim S2x32x1x1x1 (![] : Fin 0 → Fin S2x32x1x1x1.rank)
  shapeCasts_S2x32x1x1x1_S2x32x1 : S2x32x1x1x1.ShapeCasts S2x32x1
  transposes_S2x32x1_S2x1x32_0_2_1 : S2x32x1.Transposes [0, 2, 1] S2x1x32
  shapeCasts_S2x1x32_S2x32 : S2x1x32.ShapeCasts S2x32
  transposes_S2x32_S32x2_1_0 : S2x32.Transposes [1, 0] S32x2
  reducesTo_S2x32_S2_d1 : S2x32.ReducesTo [1] S2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  reducesTo_S2x2_S_d0_1 : S2x2.ReducesTo [0, 1] S_
  shapeCasts_S2x32x3x3x3_S2x32x27 : S2x32x3x3x3.ShapeCasts S2x32x27
  transposes_S2x32x27_S2x27x32_0_2_1 : S2x32x27.Transposes [0, 2, 1] S2x27x32
  shapeCasts_S2x27x32_S54x32 : S2x27x32.ShapeCasts S54x32
  transposes_S54x32_S32x54_1_0 : S54x32.Transposes [1, 0] S32x54
  reducesTo_S54x32_S54_d1 : S54x32.ReducesTo [1] S54
  bcast_S54_S54x1_0 : S54.BroadcastsInDim S54x1 (![0] : Fin 1 → Fin S54x1.rank)
  bcast_S54_S1x54_1 : S54.BroadcastsInDim S1x54 (![1] : Fin 1 → Fin S1x54.rank)
  bcast_S54x1_S54x54_0_1 : S54x1.BroadcastsInDim S54x54 (![0, 1] : Fin 2 → Fin S54x54.rank)
  bcast_S1x54_S54x54_0_1 : S1x54.BroadcastsInDim S54x54 (![0, 1] : Fin 2 → Fin S54x54.rank)
  bcast_S_S54x54 : S_.BroadcastsInDim S54x54 (![] : Fin 0 → Fin S54x54.rank)
  reducesTo_S54x54_S_d0_1 : S54x54.ReducesTo [0, 1] S_
  dot_S2x32_S32x2_S2x2_1_0_0_1_n_n_wf : DotDims.WF S2x32 S32x2 S2x2 [1] [0] [0] [1] [] []
  dot_S54x32_S32x54_S54x54_1_0_0_1_n_n_wf : DotDims.WF S54x32 S32x54 S54x54 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x96x96.size a ≤ S64x96x96x96.size a
  hwx0_0 : ∀ i : grid0.Coords, EltTy.bits .f32 = 32 ∨ (Rect.block (s := S64x96x96x96) S1x96x96x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x96x96.size a ≤ S64x96x96x96.size a
  hwx0_1 : ∀ i : grid0.Coords, EltTy.bits .f32 = 32 ∨ (Rect.block (s := S64x96x96x96) S1x96x96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x3x3.size a ≤ S64x3x3x3.size a
  hwx0_2 : ∀ i : grid0.Coords, EltTy.bits .f32 = 32 ∨ (Rect.block (s := S64x3x3x3) S1x3x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x3x3.size a ≤ S64x3x3x3.size a
  hwx0_3 : ∀ i : grid0.Coords, EltTy.bits .f32 = 32 ∨ (Rect.block (s := S64x3x3x3) S1x3x3x3.size (cc0_transform_3 i) (hinb0_3 i)).WholeWords (EltTy.packing .f32)

variable [Facts₀]

def dot_S2x32_S32x2_S2x2_1_0_0_1_n_n : DotDims S2x32 S32x2 S2x2 where
  lhsContracting := [1]
  rhsContracting := [0]
  lhsNonContracting := [0]
  rhsNonContracting := [1]
  lhsBatch := []
  rhsBatch := []
  wf := dot_S2x32_S32x2_S2x2_1_0_0_1_n_n_wf
def dot_S54x32_S32x54_S54x54_1_0_0_1_n_n : DotDims S54x32 S32x54 S54x54 where
  lhsContracting := [1]
  rhsContracting := [0]
  lhsNonContracting := [0]
  rhsNonContracting := [1]
  lhsBatch := []
  rhsBatch := []
  wf := dot_S54x32_S32x54_S54x54_1_0_0_1_n_n_wf

abbrev win0_0 : Pipeline.Window sig grid0 :=
  Pipeline.Window.ofSpec (Memref.whole main_v0) S1x96x96x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x96x96x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x3x3x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x3x3x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32x96x96x96 : Shape := ⟨5, ![2, 32, 96, 96, 96]⟩
abbrev S2x32x1x96x1x96x1x96 : Shape := ⟨8, ![2, 32, 1, 96, 1, 96, 1, 96]⟩
abbrev S_ : Shape := ⟨0, ![]⟩
abbrev S2x32x1x1x1 : Shape := ⟨5, ![2, 32, 1, 1, 1]⟩
abbrev S2x32x3x32x3x32x3x32 : Shape := ⟨8, ![2, 32, 3, 32, 3, 32, 3, 32]⟩
abbrev S2x32x3x3x3 : Shape := ⟨5, ![2, 32, 3, 3, 3]⟩
abbrev S2x32x1 : Shape := ⟨3, ![2, 32, 1]⟩
abbrev S2x1x32 : Shape := ⟨3, ![2, 1, 32]⟩
abbrev S2x32 : Shape := ⟨2, ![2, 32]⟩
abbrev S32x2 : Shape := ⟨2, ![32, 2]⟩
abbrev S2x2 : Shape := ⟨2, ![2, 2]⟩
abbrev S2 : Shape := ⟨1, ![2]⟩
abbrev S2x1 : Shape := ⟨2, ![2, 1]⟩
abbrev S1x2 : Shape := ⟨2, ![1, 2]⟩
abbrev S2x32x27 : Shape := ⟨3, ![2, 32, 27]⟩
abbrev S2x27x32 : Shape := ⟨3, ![2, 27, 32]⟩
abbrev S54x32 : Shape := ⟨2, ![54, 32]⟩
abbrev S32x54 : Shape := ⟨2, ![32, 54]⟩
abbrev S54x54 : Shape := ⟨2, ![54, 54]⟩
abbrev S54 : Shape := ⟨1, ![54]⟩
abbrev S54x1 : Shape := ⟨2, ![54, 1]⟩
abbrev S1x54 : Shape := ⟨2, ![1, 54]⟩

abbrev nBuf : Space → Nat
  | .hbm => 156
  | .vmem => 0
  | .smem => 0
  | _ => 0

abbrev hbmTy0_0 (i : Nat) : BufTy := match i % 128 with
  | 0 => ⟨S2x32x96x96x96, .f32⟩
  | 1 => ⟨S2x32x96x96x96, .f32⟩
  | 2 => ⟨S2x32x1x96x1x96x1x96, .f32⟩
  | 3 => ⟨S_, .f32⟩
  | 4 => ⟨S2x32x1x1x1, .f32⟩
  | 5 => ⟨S_, .f32⟩
  | 6 => ⟨S2x32x1x1x1, .f32⟩
  | 7 => ⟨S2x32x1x1x1, .f32⟩
  | 8 => ⟨S2x32x1x96x1x96x1x96, .f32⟩
  | 9 => ⟨S_, .f32⟩
  | 10 => ⟨S2x32x1x1x1, .f32⟩
  | 11 => ⟨S_, .f32⟩
  | 12 => ⟨S2x32x1x1x1, .f32⟩
  | 13 => ⟨S2x32x1x1x1, .f32⟩
  | 14 => ⟨S2x32x3x32x3x32x3x32, .f32⟩
  | 15 => ⟨S_, .f32⟩
  | 16 => ⟨S2x32x3x3x3, .f32⟩
  | 17 => ⟨S_, .f32⟩
  | 18 => ⟨S2x32x3x3x3, .f32⟩
  | 19 => ⟨S2x32x3x3x3, .f32⟩
  | 20 => ⟨S2x32x3x32x3x32x3x32, .f32⟩
  | 21 => ⟨S_, .f32⟩
  | 22 => ⟨S2x32x3x3x3, .f32⟩
  | 23 => ⟨S_, .f32⟩
  | 24 => ⟨S2x32x3x3x3, .f32⟩
  | 25 => ⟨S2x32x3x3x3, .f32⟩
  | 26 => ⟨S2x32x1, .f32⟩
  | 27 => ⟨S2x1x32, .f32⟩
  | 28 => ⟨S2x32, .f32⟩
  | 29 => ⟨S32x2, .f32⟩
  | 30 => ⟨S2x2, .f32⟩
  | 31 => ⟨S2x32, .f32⟩
  | 32 => ⟨S_, .f32⟩
  | 33 => ⟨S2, .f32⟩
  | 34 => ⟨S2, .f32⟩
  | 35 => ⟨S2x1, .f32⟩
  | 36 => ⟨S1x2, .f32⟩
  | 37 => ⟨S2x2, .f32⟩
  | 38 => ⟨S2x2, .f32⟩
  | 39 => ⟨S2x2, .f32⟩
  | 40 => ⟨S_, .f32⟩
  | 41 => ⟨S2x2, .f32⟩
  | 42 => ⟨S2x2, .f32⟩
  | 43 => ⟨S2x2, .f32⟩
  | 44 => ⟨S2x32x1, .f32⟩
  | 45 => ⟨S2x1x32, .f32⟩
  | 46 => ⟨S2x32, .f32⟩
  | 47 => ⟨S32x2, .f32⟩
  | 48 => ⟨S2x2, .f32⟩
  | 49 => ⟨S2x32, .f32⟩
  | 50 => ⟨S_, .f32⟩
  | 51 => ⟨S2, .f32⟩
  | 52 => ⟨S2, .f32⟩
  | 53 => ⟨S2x1, .f32⟩
  | 54 => ⟨S1x2, .f32⟩
  | 55 => ⟨S2x2, .f32⟩
  | 56 => ⟨S2x2, .f32⟩
  | 57 => ⟨S2x2, .f32⟩
  | 58 => ⟨S_, .f32⟩
  | 59 => ⟨S2x2, .f32⟩
  | 60 => ⟨S2x2, .f32⟩
  | 61 => ⟨S2x2, .f32⟩
  | 62 => ⟨S2x2, .f32⟩
  | 63 => ⟨S2x2, .f32⟩
  | 64 => ⟨S_, .f32⟩
  | 65 => ⟨S_, .f32⟩
  | 66 => ⟨S_, .f32⟩
  | 67 => ⟨S_, .f32⟩
  | 68 => ⟨S2x32x27, .f32⟩
  | 69 => ⟨S2x27x32, .f32⟩
  | 70 => ⟨S54x32, .f32⟩
  | 71 => ⟨S32x54, .f32⟩
  | 72 => ⟨S54x54, .f32⟩
  | 73 => ⟨S54x32, .f32⟩
  | 74 => ⟨S_, .f32⟩
  | 75 => ⟨S54, .f32⟩
  | 76 => ⟨S54, .f32⟩
  | 77 => ⟨S54x1, .f32⟩
  | 78 => ⟨S1x54, .f32⟩
  | 79 => ⟨S54x54, .f32⟩
  | 80 => ⟨S54x54, .f32⟩
  | 81 => ⟨S54x54, .f32⟩
  | 82 => ⟨S_, .f32⟩
  | 83 => ⟨S54x54, .f32⟩
  | 84 => ⟨S54x54, .f32⟩
  | 85 => ⟨S54x54, .f32⟩
  | 86 => ⟨S2x32x27, .f32⟩
  | 87 => ⟨S2x27x32, .f32⟩
  | 88 => ⟨S54x32, .f32⟩
  | 89 => ⟨S32x54, .f32⟩
  | 90 => ⟨S54x54, .f32⟩
  | 91 => ⟨S54x32, .f32⟩
  | 92 => ⟨S_, .f32⟩
  | 93 => ⟨S54, .f32⟩
  | 94 => ⟨S54, .f32⟩
  | 95 => ⟨S54x1, .f32⟩
  | 96 => ⟨S1x54, .f32⟩
  | 97 => ⟨S54x54, .f32⟩
  | 98 => ⟨S54x54, .f32⟩
  | 99 => ⟨S54x54, .f32⟩
  | 100 => ⟨S_, .f32⟩
  | 101 => ⟨S54x54, .f32⟩
  | 102 => ⟨S54x54, .f32⟩
  | 103 => ⟨S54x54, .f32⟩
  | 104 => ⟨S54x54, .f32⟩
  | 105 => ⟨S54x54, .f32⟩
  | 106 => ⟨S_, .f32⟩
  | 107 => ⟨S_, .f32⟩
  | 108 => ⟨S_, .f32⟩
  | 109 => ⟨S_, .f32⟩
  | 110 => ⟨S2x32x27, .f32⟩
  | 111 => ⟨S2x27x32, .f32⟩
  | 112 => ⟨S54x32, .f32⟩
  | 113 => ⟨S32x54, .f32⟩
  | 114 => ⟨S54x54, .f32⟩
  | 115 => ⟨S54x32, .f32⟩
  | 116 => ⟨S_, .f32⟩
  | 117 => ⟨S54, .f32⟩
  | 118 => ⟨S54, .f32⟩
  | 119 => ⟨S54x1, .f32⟩
  | 120 => ⟨S1x54, .f32⟩
  | 121 => ⟨S54x54, .f32⟩
  | 122 => ⟨S54x54, .f32⟩
  | 123 => ⟨S54x54, .f32⟩
  | 124 => ⟨S_, .f32⟩
  | 125 => ⟨S54x54, .f32⟩
  | 126 => ⟨S54x54, .f32⟩
  | 127 => ⟨S54x54, .f32⟩
  | _ => ⟨S2x32x96x96x96, .f32⟩

abbrev hbmTy0_1 (i : Nat) : BufTy := match i % 128 with
  | 0 => ⟨S2x32x27, .f32⟩
  | 1 => ⟨S2x27x32, .f32⟩
  | 2 => ⟨S54x32, .f32⟩
  | 3 => ⟨S32x54, .f32⟩
  | 4 => ⟨S54x54, .f32⟩
  | 5 => ⟨S54x32, .f32⟩
  | 6 => ⟨S_, .f32⟩
  | 7 => ⟨S54, .f32⟩
  | 8 => ⟨S54, .f32⟩
  | 9 => ⟨S54x1, .f32⟩
  | 10 => ⟨S1x54, .f32⟩
  | 11 => ⟨S54x54, .f32⟩
  | 12 => ⟨S54x54, .f32⟩
  | 13 => ⟨S54x54, .f32⟩
  | 14 => ⟨S_, .f32⟩
  | 15 => ⟨S54x54, .f32⟩
  | 16 => ⟨S54x54, .f32⟩
  | 17 => ⟨S54x54, .f32⟩
  | 18 => ⟨S54x54, .f32⟩
  | 19 => ⟨S54x54, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S2x32x96x96x96, .f32⟩

abbrev hbmTy (i : Nat) : BufTy := match i / 128 with
  | 0 => hbmTy0_0 i
  | 1 => hbmTy0_1 i
  | _ => ⟨S2x32x96x96x96, .f32⟩

abbrev bufTy : (tb : Table) → Fin (tcTables nBuf tb) → BufTy
  | .hbm, ⟨i, _⟩ => hbmTy i
  | _, _ => ⟨S2x32x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call2_v0 : Ref sig .tc := ⟨.hbm, 73, rfl⟩
abbrev main_call2_cst : Ref sig .tc := ⟨.hbm, 74, rfl⟩
abbrev main_call2_v1 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call3_v0 : Ref sig .tc := ⟨.hbm, 91, rfl⟩
abbrev main_call3_cst : Ref sig .tc := ⟨.hbm, 92, rfl⟩
abbrev main_call3_v1 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call4_v0 : Ref sig .tc := ⟨.hbm, 115, rfl⟩
abbrev main_call4_cst : Ref sig .tc := ⟨.hbm, 116, rfl⟩
abbrev main_call4_v1 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call5_v0 : Ref sig .tc := ⟨.hbm, 133, rfl⟩
abbrev main_call5_cst : Ref sig .tc := ⟨.hbm, 134, rfl⟩
abbrev main_call5_v1 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_16 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_17 : Ref sig .tc := ⟨.hbm, 148, rfl⟩
abbrev main_v110 : Ref sig .tc := ⟨.hbm, 149, rfl⟩
abbrev main_cst_18 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_19 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  shapeCasts_S2x32x96x96x96_S2x32x1x96x1x96x1x96 : S2x32x96x96x96.ShapeCasts S2x32x1x96x1x96x1x96
  reducesTo_S2x32x1x96x1x96x1x96_S2x32x1x1x1_d3_5_7 : S2x32x1x96x1x96x1x96.ReducesTo [3, 5, 7] S2x32x1x1x1
  h_S_ : 0 < S_.numel
  bcast_S_S2x32x1x1x1 : S_.BroadcastsInDim S2x32x1x1x1 (![] : Fin 0 → Fin S2x32x1x1x1.rank)
  shapeCasts_S2x32x96x96x96_S2x32x3x32x3x32x3x32 : S2x32x96x96x96.ShapeCasts S2x32x3x32x3x32x3x32
  reducesTo_S2x32x3x32x3x32x3x32_S2x32x3x3x3_d3_5_7 : S2x32x3x32x3x32x3x32.ReducesTo [3, 5, 7] S2x32x3x3x3
  bcast_S_S2x32x3x3x3 : S_.BroadcastsInDim S2x32x3x3x3 (![] : Fin 0 → Fin S2x32x3x3x3.rank)
  shapeCasts_S2x32x1x1x1_S2x32x1 : S2x32x1x1x1.ShapeCasts S2x32x1
  transposes_S2x32x1_S2x1x32_0_2_1 : S2x32x1.Transposes [0, 2, 1] S2x1x32
  shapeCasts_S2x1x32_S2x32 : S2x1x32.ShapeCasts S2x32
  transposes_S2x32_S32x2_1_0 : S2x32.Transposes [1, 0] S32x2
  reducesTo_S2x32_S2_d1 : S2x32.ReducesTo [1] S2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  reducesTo_S2x2_S_d0_1 : S2x2.ReducesTo [0, 1] S_
  shapeCasts_S2x32x3x3x3_S2x32x27 : S2x32x3x3x3.ShapeCasts S2x32x27
  transposes_S2x32x27_S2x27x32_0_2_1 : S2x32x27.Transposes [0, 2, 1] S2x27x32
  shapeCasts_S2x27x32_S54x32 : S2x27x32.ShapeCasts S54x32
  transposes_S54x32_S32x54_1_0 : S54x32.Transposes [1, 0] S32x54
  reducesTo_S54x32_S54_d1 : S54x32.ReducesTo [1] S54
  bcast_S54_S54x1_0 : S54.BroadcastsInDim S54x1 (![0] : Fin 1 → Fin S54x1.rank)
  bcast_S54_S1x54_1 : S54.BroadcastsInDim S1x54 (![1] : Fin 1 → Fin S1x54.rank)
  bcast_S54x1_S54x54_0_1 : S54x1.BroadcastsInDim S54x54 (![0, 1] : Fin 2 → Fin S54x54.rank)
  bcast_S1x54_S54x54_0_1 : S1x54.BroadcastsInDim S54x54 (![0, 1] : Fin 2 → Fin S54x54.rank)
  bcast_S_S54x54 : S_.BroadcastsInDim S54x54 (![] : Fin 0 → Fin S54x54.rank)
  reducesTo_S54x54_S_d0_1 : S54x54.ReducesTo [0, 1] S_
  dot_S2x32_S32x2_S2x2_1_0_0_1_n_n_wf : DotDims.WF S2x32 S32x2 S2x2 [1] [0] [0] [1] [] []
  dot_S54x32_S32x54_S54x54_1_0_0_1_n_n_wf : DotDims.WF S54x32 S32x54 S54x54 [1] [0] [0] [1] [] []

variable [Facts₀]

def dot_S2x32_S32x2_S2x2_1_0_0_1_n_n : DotDims S2x32 S32x2 S2x2 where
  lhsContracting := [1]
  rhsContracting := [0]
  lhsNonContracting := [0]
  rhsNonContracting := [1]
  lhsBatch := []
  rhsBatch := []
  wf := dot_S2x32_S32x2_S2x2_1_0_0_1_n_n_wf
def dot_S54x32_S32x54_S54x54_1_0_0_1_n_n : DotDims S54x32 S32x54 S54x54 where
  lhsContracting := [1]
  rhsContracting := [0]
  lhsNonContracting := [0]
  rhsNonContracting := [1]
  lhsBatch := []
  rhsBatch := []
  wf := dot_S54x32_S32x54_S54x54_1_0_0_1_n_n_wf

class Facts : Prop extends Facts₀ where

variable [Facts]
-- ==== Proof.BodyK.lean ====
/-
  What the kernel body stores into each of its two output blocks, as a pure function of the input block it reads:
  the body's loads, each a 32 x 32 x 32 corner cut out of the 96 x 96 x 96 block at a literal offset, fed through the
  body's arithmetic in the order the body performs it.
-/
import proofs.«152811_j61263413510186_2_alg».proof.Proof.Gen.Kernel.Skeleton
import Idealize.ShloMosaic.Lib.Pipeline.FrameBody

noncomputable section

namespace Cert.Kernel.Body

open Cert.Kernel Cert.Kernel.Gen Idealize.ShloMosaic Idealize.ShloMosaic.TcCoe

variable {F : FTy → Type} [FloatOps F]

/-- The 27 corners the body loads, by their offsets in the block, and the whole output block. -/
abbrev r0_0_0_0 : Rect S1x96x96x96 := Rect.unit (s := S1x96x96x96) ![0, 0, 0, 0] S1x32x32x32.size inb_S1x96x96x96_S1x32x32x32_0_0_0_0
abbrev r0_0_0_32 : Rect S1x96x96x96 := Rect.unit (s := S1x96x96x96) ![0, 0, 0, 32] S1x32x32x32.size inb_S1x96x96x96_S1x32x32x32_0_0_0_32
abbrev r0_0_0_64 : Rect S1x96x96x96 := Rect.unit (s := S1x96x96x96) ![0, 0, 0, 64] S1x32x32x32.size inb_S1x96x96x96_S1x32x32x32_0_0_0_64
abbrev r0_0_32_0 : Rect S1x96x96x96 := Rect.unit (s := S1x96x96x96) ![0, 0, 32, 0] S1x32x32x32.size inb_S1x96x96x96_S1x32x32x32_0_0_32_0
abbrev r0_0_32_32 : Rect S1x96x96x96 := Rect.unit (s := S1x96x96x96) ![0, 0, 32, 32] S1x32x32x32.size inb_S1x96x96x96_S1x32x32x32_0_0_32_32
abbrev r0_0_32_64 : Rect S1x96x96x96 := Rect.unit (s := S1x96x96x96) ![0, 0, 32, 64] S1x32x32x32.size inb_S1x96x96x96_S1x32x32x32_0_0_32_64
abbrev r0_0_64_0 : Rect S1x96x96x96 := Rect.unit (s := S1x96x96x96) ![0, 0, 64, 0] S1x32x32x32.size inb_S1x96x96x96_S1x32x32x32_0_0_64_0
abbrev r0_0_64_32 : Rect S1x96x96x96 := Rect.unit (s := S1x96x96x96) ![0, 0, 64, 32] S1x32x32x32.size inb_S1x96x96x96_S1x32x32x32_0_0_64_32
abbrev r0_0_64_64 : Rect S1x96x96x96 := Rect.unit (s := S1x96x96x96) ![0, 0, 64, 64] S1x32x32x32.size inb_S1x96x96x96_S1x32x32x32_0_0_64_64
abbrev r0_32_0_0 : Rect S1x96x96x96 := Rect.unit (s := S1x96x96x96) ![0, 32, 0, 0] S1x32x32x32.size inb_S1x96x96x96_S1x32x32x32_0_32_0_0
abbrev r0_32_0_32 : Rect S1x96x96x96 := Rect.unit (s := S1x96x96x96) ![0, 32, 0, 32] S1x32x32x32.size inb_S1x96x96x96_S1x32x32x32_0_32_0_32
abbrev r0_32_0_64 : Rect S1x96x96x96 := Rect.unit (s := S1x96x96x96) ![0, 32, 0, 64] S1x32x32x32.size inb_S1x96x96x96_S1x32x32x32_0_32_0_64
abbrev r0_32_32_0 : Rect S1x96x96x96 := Rect.unit (s := S1x96x96x96) ![0, 32, 32, 0] S1x32x32x32.size inb_S1x96x96x96_S1x32x32x32_0_32_32_0
abbrev r0_32_32_32 : Rect S1x96x96x96 := Rect.unit (s := S1x96x96x96) ![0, 32, 32, 32] S1x32x32x32.size inb_S1x96x96x96_S1x32x32x32_0_32_32_32
abbrev r0_32_32_64 : Rect S1x96x96x96 := Rect.unit (s := S1x96x96x96) ![0, 32, 32, 64] S1x32x32x32.size inb_S1x96x96x96_S1x32x32x32_0_32_32_64
abbrev r0_32_64_0 : Rect S1x96x96x96 := Rect.unit (s := S1x96x96x96) ![0, 32, 64, 0] S1x32x32x32.size inb_S1x96x96x96_S1x32x32x32_0_32_64_0
abbrev r0_32_64_32 : Rect S1x96x96x96 := Rect.unit (s := S1x96x96x96) ![0, 32, 64, 32] S1x32x32x32.size inb_S1x96x96x96_S1x32x32x32_0_32_64_32
abbrev r0_32_64_64 : Rect S1x96x96x96 := Rect.unit (s := S1x96x96x96) ![0, 32, 64, 64] S1x32x32x32.size inb_S1x96x96x96_S1x32x32x32_0_32_64_64
abbrev r0_64_0_0 : Rect S1x96x96x96 := Rect.unit (s := S1x96x96x96) ![0, 64, 0, 0] S1x32x32x32.size inb_S1x96x96x96_S1x32x32x32_0_64_0_0
abbrev r0_64_0_32 : Rect S1x96x96x96 := Rect.unit (s := S1x96x96x96) ![0, 64, 0, 32] S1x32x32x32.size inb_S1x96x96x96_S1x32x32x32_0_64_0_32
abbrev r0_64_0_64 : Rect S1x96x96x96 := Rect.unit (s := S1x96x96x96) ![0, 64, 0, 64] S1x32x32x32.size inb_S1x96x96x96_S1x32x32x32_0_64_0_64
abbrev r0_64_32_0 : Rect S1x96x96x96 := Rect.unit (s := S1x96x96x96) ![0, 64, 32, 0] S1x32x32x32.size inb_S1x96x96x96_S1x32x32x32_0_64_32_0
abbrev r0_64_32_32 : Rect S1x96x96x96 := Rect.unit (s := S1x96x96x96) ![0, 64, 32, 32] S1x32x32x32.size inb_S1x96x96x96_S1x32x32x32_0_64_32_32
abbrev r0_64_32_64 : Rect S1x96x96x96 := Rect.unit (s := S1x96x96x96) ![0, 64, 32, 64] S1x32x32x32.size inb_S1x96x96x96_S1x32x32x32_0_64_32_64
abbrev r0_64_64_0 : Rect S1x96x96x96 := Rect.unit (s := S1x96x96x96) ![0, 64, 64, 0] S1x32x32x32.size inb_S1x96x96x96_S1x32x32x32_0_64_64_0
abbrev r0_64_64_32 : Rect S1x96x96x96 := Rect.unit (s := S1x96x96x96) ![0, 64, 64, 32] S1x32x32x32.size inb_S1x96x96x96_S1x32x32x32_0_64_64_32
abbrev r0_64_64_64 : Rect S1x96x96x96 := Rect.unit (s := S1x96x96x96) ![0, 64, 64, 64] S1x32x32x32.size inb_S1x96x96x96_S1x32x32x32_0_64_64_64
abbrev rOut : Rect S1x3x3x3 := Rect.unit (s := S1x3x3x3) ![0, 0, 0, 0] S1x3x3x3.size inb_S1x3x3x3_S1x3x3x3_0_0_0_0

/-- The value stored into the first output block, from the first input block. -/
def body2 (x0 : Vec F S1x96x96x96 .f32) : FVec F S1x3x3x3 .f32 :=
  let v0 : Vec F S1x32x32x32 .f32 := View.ld x0 r0_0_0_0
  let v15 : Vec F S1x32x32x32 .f32 := View.ld x0 r0_0_0_32
  let v30 : Vec F S1x32x32x32 .f32 := View.ld x0 r0_0_0_64
  let v14 := k0_pay2 v0
  let v29 := k0_pay3 v15
  let v33 := k0_pay4 v30
  let v49 : Vec F S1x32x32x32 .f32 := View.ld x0 r0_0_32_0
  let v64 : Vec F S1x32x32x32 .f32 := View.ld x0 r0_0_32_32
  let v48 := k0_pay5 v14 v29 v33
  let v63 := k0_pay6 v49
  let v71 := k0_pay7 v64
  let v79 : Vec F S1x32x32x32 .f32 := View.ld x0 r0_0_32_64
  let v98 : Vec F S1x32x32x32 .f32 := View.ld x0 r0_0_64_0
  let v97 := k0_pay8 v63 v71 v79
  let v109 := k0_pay9 v98
  let v113 : Vec F S1x32x32x32 .f32 := View.ld x0 r0_0_64_32
  let v128 : Vec F S1x32x32x32 .f32 := View.ld x0 r0_0_64_64
  let v146 := k0_pay10 v109 v113 v128
  let v147 := k0_pay11 v48
  let v148 := k0_pay12 v97
  let v151 : Vec F S1x32x32x32 .f32 := View.ld x0 r0_32_0_0
  let v166 : Vec F S1x32x32x32 .f32 := View.ld x0 r0_32_0_32
  let v181 : Vec F S1x32x32x32 .f32 := View.ld x0 r0_32_0_64
  let v150 := k0_pay13 v146 v147 v148
  let v165 := k0_pay14 v151
  let v180 := k0_pay15 v166
  let v183 := k0_pay16 v181
  let v200 : Vec F S1x32x32x32 .f32 := View.ld x0 r0_32_32_0
  let v215 : Vec F S1x32x32x32 .f32 := View.ld x0 r0_32_32_32
  let v199 := k0_pay17 v165 v180 v183
  let v214 := k0_pay18 v200
  let v221 := k0_pay19 v215
  let v230 : Vec F S1x32x32x32 .f32 := View.ld x0 r0_32_32_64
  let v249 : Vec F S1x32x32x32 .f32 := View.ld x0 r0_32_64_0
  let v248 := k0_pay20 v214 v221 v230
  let v259 := k0_pay21 v249
  let v264 : Vec F S1x32x32x32 .f32 := View.ld x0 r0_32_64_32
  let v279 : Vec F S1x32x32x32 .f32 := View.ld x0 r0_32_64_64
  let v297 := k0_pay22 v259 v264 v279
  let v298 := k0_pay23 v199
  let v302 : Vec F S1x32x32x32 .f32 := View.ld x0 r0_64_0_0
  let v317 : Vec F S1x32x32x32 .f32 := View.ld x0 r0_64_0_32
  let v332 : Vec F S1x32x32x32 .f32 := View.ld x0 r0_64_0_64
  let v301 := k0_pay24 v248 v297 v298
  let v316 := k0_pay25 v302
  let v331 := k0_pay26 v317
  let v333 := k0_pay27 v332
  let v351 : Vec F S1x32x32x32 .f32 := View.ld x0 r0_64_32_0
  let v366 : Vec F S1x32x32x32 .f32 := View.ld x0 r0_64_32_32
  let v350 := k0_pay28 v316 v331 v333
  let v365 := k0_pay29 v351
  let v371 := k0_pay30 v366
  let v381 : Vec F S1x32x32x32 .f32 := View.ld x0 r0_64_32_64
  let v400 : Vec F S1x32x32x32 .f32 := View.ld x0 r0_64_64_0
  let v399 := k0_pay31 v365 v371 v381
  let v409 := k0_pay32 v400
  let v415 : Vec F S1x32x32x32 .f32 := View.ld x0 r0_64_64_32
  let v430 : Vec F S1x32x32x32 .f32 := View.ld x0 r0_64_64_64
  let v448 := k0_pay33 v409 v415 v430
  k0_pay34 v150 v301 v350 v399 v448

/-- The value stored into the second output block, from the second input block. -/
def body3 (x1 : Vec F S1x96x96x96 .f32) : FVec F S1x3x3x3 .f32 :=
  let v460 : Vec F S1x32x32x32 .f32 := View.ld x1 r0_0_0_0
  let v475 : Vec F S1x32x32x32 .f32 := View.ld x1 r0_0_0_32
  let v474 := k0_pay35 v460
  let v484 := k0_pay36 v475
  let v490 : Vec F S1x32x32x32 .f32 := View.ld x1 r0_0_0_64
  let v509 : Vec F S1x32x32x32 .f32 := View.ld x1 r0_0_32_0
  let v508 := k0_pay37 v474 v484 v490
  let v523 := k0_pay38 v509
  let v524 : Vec F S1x32x32x32 .f32 := View.ld x1 r0_0_32_32
  let v539 : Vec F S1x32x32x32 .f32 := View.ld x1 r0_0_32_64
  let v558 : Vec F S1x32x32x32 .f32 := View.ld x1 r0_0_64_0
  let v557 := k0_pay39 v523 v524 v539
  let v559 := k0_pay40 v558
  let v573 : Vec F S1x32x32x32 .f32 := View.ld x1 r0_0_64_32
  let v588 : Vec F S1x32x32x32 .f32 := View.ld x1 r0_0_64_64
  let cst_357 : F .f32 := Scalar.ofBits .f32 0x42000000#32
  let v572 := k0_pay41 v559
  let v587 := k0_pay42 v573
  let v595 := k0_pay43 v588
  let v611 : Vec F S1x32x32x32 .f32 := View.ld x1 r0_32_0_0
  let v626 : Vec F S1x32x32x32 .f32 := View.ld x1 r0_32_0_32
  let v610 := k0_pay44 v508 v557 v572 v587 v595 cst_357
  let v625 := k0_pay45 v611
  let v635 := k0_pay46 v626
  let v641 : Vec F S1x32x32x32 .f32 := View.ld x1 r0_32_0_64
  let v660 : Vec F S1x32x32x32 .f32 := View.ld x1 r0_32_32_0
  let v659 := k0_pay47 v625 v635 v641
  let v673 := k0_pay48 v660
  let v675 : Vec F S1x32x32x32 .f32 := View.ld x1 r0_32_32_32
  let v690 : Vec F S1x32x32x32 .f32 := View.ld x1 r0_32_32_64
  let v709 : Vec F S1x32x32x32 .f32 := View.ld x1 r0_32_64_0
  let v708 := k0_pay49 v673 v675 v690
  let v724 : Vec F S1x32x32x32 .f32 := View.ld x1 r0_32_64_32
  let v739 : Vec F S1x32x32x32 .f32 := View.ld x1 r0_32_64_64
  let v723 := k0_pay50 v709
  let v738 := k0_pay51 v724
  let v746 := k0_pay52 v739
  let v762 : Vec F S1x32x32x32 .f32 := View.ld x1 r0_64_0_0
  let v777 : Vec F S1x32x32x32 .f32 := View.ld x1 r0_64_0_32
  let v761 := k0_pay53 v659 v708 v723 v738 v746
  let v776 := k0_pay54 v762
  let v784 := k0_pay55 v777
  let v785 := k0_pay56 (F := F)
  let v792 : Vec F S1x32x32x32 .f32 := View.ld x1 r0_64_0_64
  let v811 : Vec F S1x32x32x32 .f32 := View.ld x1 r0_64_32_0
  let v810 := k0_pay57 v776 v784 v785 v792
  let v822 := k0_pay58 v811
  let v823 := k0_pay59 (F := F)
  let v826 : Vec F S1x32x32x32 .f32 := View.ld x1 r0_64_32_32
  let v841 : Vec F S1x32x32x32 .f32 := View.ld x1 r0_64_32_64
  let v859 := k0_pay60 v822 v823 v826 v841
  let v860 : Vec F S1x32x32x32 .f32 := View.ld x1 r0_64_64_0
  let v875 : Vec F S1x32x32x32 .f32 := View.ld x1 r0_64_64_32
  let v890 : Vec F S1x32x32x32 .f32 := View.ld x1 r0_64_64_64
  let v874 := k0_pay61 v860
  let v889 := k0_pay62 v875
  let v896 := k0_pay63 v890
  k0_pay1 v610 v761 v810 v859 v874 v889 v896

end Cert.Kernel.Body

end
-- ==== Proof.FrameK.lean ====
/-
  The frame of the program: it runs to its end, faults nowhere, and leaves its two argument arrays as they were.

  @main is two reshapes, one region over a grid of 64 points, and 144 later host lines. At a point the region's body
  reads the point's two input blocks (a whole 96 x 96 x 96 volume each) and overwrites the point's two output blocks
  (3 x 3 x 3 each) with a function of the inputs alone; it keeps nothing between points. So after the body each
  input's staging buffer holds its block, each output's the body's value of the input block, and the class's
  invariant passes through untouched. The later host lines write only their own result buffers, none of which is an
  array of the region or an argument.
-/
import proofs.«152811_j61263413510186_2_alg».proof.Proof.Gen.Kernel.Launch
import proofs.«152811_j61263413510186_2_alg».proof.Proof.Gen.Kernel.Skeleton
import proofs.«152811_j61263413510186_2_alg».proof.Proof.Gen.Kernel.Points
import proofs.«152811_j61263413510186_2_alg».proof.Proof.BodyK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOpss : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- @main is the reshapes, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- Every later line touches unscoped TensorCore buffers only. -/
theorem tail_sub_all : (tailOpss (F := F)).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩
theorem tail_fresh_all : (tailOpss (F := F)).Forall fun ops => ops.Forall fun op => op.fresh = ∅ := by
  simp only [List.Forall]
  exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩

theorem sfx_sub : ∀ ops ∈ (tailOpss (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub_all) ops hops)) op hop)
theorem sfx_fresh : ∀ ops ∈ (tailOpss (F := F)), ∀ op ∈ ops, op.fresh = ∅ := by
  intro ops hops op hop
  exact (List.forall_iff_forall_mem.mp ((List.forall_iff_forall_mem.mp tail_fresh_all) ops hops)) op hop

/-- No later line writes a buffer numbered below six: the arguments and the region's four arrays are the first six. -/
theorem hostOps1_keeps (b : Ref sig .tc) (hb : b = main_arg0 ∨ b = main_arg1 ∨ b = main_v0 ∨ b = main_v1 ∨ b = main_v2_0 ∨ b = main_v2_1) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_1_keeps (b : Ref sig .tc) (hb : b = main_arg0 ∨ b = main_arg1 ∨ b = main_v0 ∨ b = main_v1 ∨ b = main_v2_0 ∨ b = main_v2_1) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_2_keeps (b : Ref sig .tc) (hb : b = main_arg0 ∨ b = main_arg1 ∨ b = main_v0 ∨ b = main_v1 ∨ b = main_v2_0 ∨ b = main_v2_1) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_3_keeps (b : Ref sig .tc) (hb : b = main_arg0 ∨ b = main_arg1 ∨ b = main_v0 ∨ b = main_v1 ∨ b = main_v2_0 ∨ b = main_v2_1) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_4_keeps (b : Ref sig .tc) (hb : b = main_arg0 ∨ b = main_arg1 ∨ b = main_v0 ∨ b = main_v1 ∨ b = main_v2_0 ∨ b = main_v2_1) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_5_keeps (b : Ref sig .tc) (hb : b = main_arg0 ∨ b = main_arg1 ∨ b = main_v0 ∨ b = main_v1 ∨ b = main_v2_0 ∨ b = main_v2_1) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_6_keeps (b : Ref sig .tc) (hb : b = main_arg0 ∨ b = main_arg1 ∨ b = main_v0 ∨ b = main_v1 ∨ b = main_v2_0 ∨ b = main_v2_1) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_7_keeps (b : Ref sig .tc) (hb : b = main_arg0 ∨ b = main_arg1 ∨ b = main_v0 ∨ b = main_v1 ∨ b = main_v2_0 ∨ b = main_v2_1) :
    (hostOps1_7 : List (HloOp τ sig (Elt F))).Forall fun op => Proc.devRef .tc b ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_8_keeps (b : Ref sig .tc) (hb : b = main_arg0 ∨ b = main_arg1 ∨ b = main_v0 ∨ b = main_v1 ∨ b = main_v2_0 ∨ b = main_v2_1) :
    (hostOps1_8 : List (HloOp τ sig (Elt F))).Forall fun op => Proc.devRef .tc b ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_9_keeps (b : Ref sig .tc) (hb : b = main_arg0 ∨ b = main_arg1 ∨ b = main_v0 ∨ b = main_v1 ∨ b = main_v2_0 ∨ b = main_v2_1) :
    (hostOps1_9 : List (HloOp τ sig (Elt F))).Forall fun op => Proc.devRef .tc b ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_10_keeps (b : Ref sig .tc) (hb : b = main_arg0 ∨ b = main_arg1 ∨ b = main_v0 ∨ b = main_v1 ∨ b = main_v2_0 ∨ b = main_v2_1) :
    (hostOps1_10 : List (HloOp τ sig (Elt F))).Forall fun op => Proc.devRef .tc b ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_11_keeps (b : Ref sig .tc) (hb : b = main_arg0 ∨ b = main_arg1 ∨ b = main_v0 ∨ b = main_v1 ∨ b = main_v2_0 ∨ b = main_v2_1) :
    (hostOps1_11 : List (HloOp τ sig (Elt F))).Forall fun op => Proc.devRef .tc b ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_12_keeps (b : Ref sig .tc) (hb : b = main_arg0 ∨ b = main_arg1 ∨ b = main_v0 ∨ b = main_v1 ∨ b = main_v2_0 ∨ b = main_v2_1) :
    (hostOps1_12 : List (HloOp τ sig (Elt F))).Forall fun op => Proc.devRef .tc b ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)

theorem tail_keeps_all (b : Ref sig .tc) (hb : b = main_arg0 ∨ b = main_arg1 ∨ b = main_v0 ∨ b = main_v1 ∨ b = main_v2_0 ∨ b = main_v2_1) :
    (tailOpss (F := F)).Forall fun ops => ops.Forall fun op => Proc.devRef .tc b ∉ op.writes := by
  simp only [List.Forall]
  exact ⟨hostOps1_keeps b hb, hostOps1_1_keeps b hb, hostOps1_2_keeps b hb, hostOps1_3_keeps b hb, hostOps1_4_keeps b hb, hostOps1_5_keeps b hb, hostOps1_6_keeps b hb, hostOps1_7_keeps b hb, hostOps1_8_keeps b hb, hostOps1_9_keeps b hb, hostOps1_10_keeps b hb, hostOps1_11_keeps b hb, hostOps1_12_keeps b hb⟩

theorem sfx_keeps : ∀ ops ∈ (tailOpss (F := F)), ∀ op ∈ ops,
    ∀ w, Proc.devRef .tc (Pipeline.arrRef spec0 w) ∉ op.writes := by
  intro ops hops op hop w
  refine (List.forall_iff_forall_mem.mp ((List.forall_iff_forall_mem.mp (tail_keeps_all (Pipeline.arrRef spec0 w) ?_)) ops hops)) op hop
  fin_cases w
  · exact Or.inr (Or.inr (Or.inl rfl))
  · exact Or.inr (Or.inr (Or.inr (Or.inl rfl)))
  · exact Or.inr (Or.inr (Or.inr (Or.inr (Or.inl rfl))))
  · exact Or.inr (Or.inr (Or.inr (Or.inr (Or.inr rfl))))

/-- The flattened tail writes no such buffer either. -/
theorem tail_flat_keeps (b : Ref sig .tc) (hb : b = main_arg0 ∨ b = main_arg1 ∨ b = main_v0 ∨ b = main_v1 ∨ b = main_v2_0 ∨ b = main_v2_1) :
    ∀ op ∈ (tailOpss (F := F)).flatten, Proc.devRef .tc b ∉ op.writes := by
  intro op hop
  obtain ⟨ops, hops, hop'⟩ := List.mem_flatten.mp hop
  exact (List.forall_iff_forall_mem.mp ((List.forall_iff_forall_mem.mp (tail_keeps_all b hb)) ops hops)) op hop'

/-- The reshapes before the region write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the later lines: each argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ (tail_flat_keeps main_arg0 (Or.inl rfl)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (tail_flat_keeps main_arg1 (Or.inr (Or.inl rfl))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run that ends with every array of the region as the proof data compute and every
    other unscoped buffer as the later lines leave it: the arguments are among the latter. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## What the body leaves in each output block's buffer -/

/-- An output's staging buffer after the body: the body's one store of the whole block. -/
def out0_2 (x0 : Vec F S1x96x96x96 .f32) : Vec F S1x3x3x3 .f32 := View.canon [⟨rOut, body2 x0⟩]
def out0_3 (x1 : Vec F S1x96x96x96 .f32) : Vec F S1x3x3x3 .f32 := View.canon [⟨rOut, body3 x1⟩]

/-- The one store covers the block. -/
theorem cover_out (p0 : Vec F S1x3x3x3 .f32) (y : S1x3x3x3.Idx) :
    ∃ pc ∈ ([⟨rOut, p0⟩] : List (View.Piece (Elt F) S1x3x3x3 .f32)), y ∈ pc.1.set :=
  View.cover_of_tiled [⟨rOut, p0⟩] S1x3x3x3.size (by rfl) y

/-! ## The body's triple -/

set_option maxHeartbeats 4000000 in
/-- From the four staging memrefs held whole — the inputs' at `x0`, `x1`, the outputs' at anything — the body runs to
    its return with the inputs' as they were and each output's at the body's value of its input. -/
theorem sound_kernel (c : Dev nD) (E : Set ℕ) (i : grid0.Coords)
    (arg1 : Memref sig .tc .vmem S1x96x96x96 .f32) (harg1 : arg1.IsWhole) (arg2 : Memref sig .tc .vmem S1x96x96x96 .f32) (harg2 : arg2.IsWhole)
    (arg3 : Memref sig .tc .vmem S1x3x3x3 .f32) (harg3 : arg3.IsWhole) (arg4 : Memref sig .tc .vmem S1x3x3x3 .f32) (harg4 : arg4.IsWhole)
    (x0 x1 : Vec F S1x96x96x96 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__pool_kernel i arg1 harg1 arg2 harg2 arg3 harg3 arg4 harg4) K := by
  unfold owns
  iintro ⟨⟨%f0, %hf0, H0⟩, ⟨%f1, %hf1, H1⟩, ⟨%d2, %f2, -, H2⟩, ⟨%d3, %f3, -, H3⟩, Hk⟩
  subst hf0
  subst hf1
  sl_exec_parts!
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  iexists _; isplitr
  swap; · iexact H3
  ipureintro
  exact View.read_writes_eq_canon _ _ _ (cover_out _)

/-! ## The pipeline's proof data -/

/-- The proof data on core `c`: the arrays as the region finds them; after the body at point `t` each input's buffer at
    its block and each output's at the body's value of the matching input block; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    proof data compute and every other unscoped buffer as the later lines leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.HF

end
-- ==== Proof.BodyI.lean ====
/-
  What the kernel body stores into each of its two output blocks, as a pure function of the input block it reads:
  the body's loads, each a 32 x 32 x 32 corner cut out of the 96 x 96 x 96 block at a literal offset, fed through the
  body's arithmetic in the order the body performs it.
-/
import proofs.«152811_j61263413510186_2_alg».proof.Proof.Gen.KernelIdeal.Skeleton
import Idealize.ShloMosaic.Lib.Pipeline.FrameBody

noncomputable section

namespace Cert.KernelIdeal.Body

open Cert.KernelIdeal Cert.KernelIdeal.Gen Idealize.ShloMosaic Idealize.ShloMosaic.TcCoe

variable {F : FTy → Type} [FloatOps F]

/-- The 27 corners the body loads, by their offsets in the block, and the whole output block. -/
abbrev r0_0_0_0 : Rect S1x96x96x96 := Rect.unit (s := S1x96x96x96) ![0, 0, 0, 0] S1x32x32x32.size inb_S1x96x96x96_S1x32x32x32_0_0_0_0
abbrev r0_0_0_32 : Rect S1x96x96x96 := Rect.unit (s := S1x96x96x96) ![0, 0, 0, 32] S1x32x32x32.size inb_S1x96x96x96_S1x32x32x32_0_0_0_32
abbrev r0_0_0_64 : Rect S1x96x96x96 := Rect.unit (s := S1x96x96x96) ![0, 0, 0, 64] S1x32x32x32.size inb_S1x96x96x96_S1x32x32x32_0_0_0_64
abbrev r0_0_32_0 : Rect S1x96x96x96 := Rect.unit (s := S1x96x96x96) ![0, 0, 32, 0] S1x32x32x32.size inb_S1x96x96x96_S1x32x32x32_0_0_32_0
abbrev r0_0_32_32 : Rect S1x96x96x96 := Rect.unit (s := S1x96x96x96) ![0, 0, 32, 32] S1x32x32x32.size inb_S1x96x96x96_S1x32x32x32_0_0_32_32
abbrev r0_0_32_64 : Rect S1x96x96x96 := Rect.unit (s := S1x96x96x96) ![0, 0, 32, 64] S1x32x32x32.size inb_S1x96x96x96_S1x32x32x32_0_0_32_64
abbrev r0_0_64_0 : Rect S1x96x96x96 := Rect.unit (s := S1x96x96x96) ![0, 0, 64, 0] S1x32x32x32.size inb_S1x96x96x96_S1x32x32x32_0_0_64_0
abbrev r0_0_64_32 : Rect S1x96x96x96 := Rect.unit (s := S1x96x96x96) ![0, 0, 64, 32] S1x32x32x32.size inb_S1x96x96x96_S1x32x32x32_0_0_64_32
abbrev r0_0_64_64 : Rect S1x96x96x96 := Rect.unit (s := S1x96x96x96) ![0, 0, 64, 64] S1x32x32x32.size inb_S1x96x96x96_S1x32x32x32_0_0_64_64
abbrev r0_32_0_0 : Rect S1x96x96x96 := Rect.unit (s := S1x96x96x96) ![0, 32, 0, 0] S1x32x32x32.size inb_S1x96x96x96_S1x32x32x32_0_32_0_0
abbrev r0_32_0_32 : Rect S1x96x96x96 := Rect.unit (s := S1x96x96x96) ![0, 32, 0, 32] S1x32x32x32.size inb_S1x96x96x96_S1x32x32x32_0_32_0_32
abbrev r0_32_0_64 : Rect S1x96x96x96 := Rect.unit (s := S1x96x96x96) ![0, 32, 0, 64] S1x32x32x32.size inb_S1x96x96x96_S1x32x32x32_0_32_0_64
abbrev r0_32_32_0 : Rect S1x96x96x96 := Rect.unit (s := S1x96x96x96) ![0, 32, 32, 0] S1x32x32x32.size inb_S1x96x96x96_S1x32x32x32_0_32_32_0
abbrev r0_32_32_32 : Rect S1x96x96x96 := Rect.unit (s := S1x96x96x96) ![0, 32, 32, 32] S1x32x32x32.size inb_S1x96x96x96_S1x32x32x32_0_32_32_32
abbrev r0_32_32_64 : Rect S1x96x96x96 := Rect.unit (s := S1x96x96x96) ![0, 32, 32, 64] S1x32x32x32.size inb_S1x96x96x96_S1x32x32x32_0_32_32_64
abbrev r0_32_64_0 : Rect S1x96x96x96 := Rect.unit (s := S1x96x96x96) ![0, 32, 64, 0] S1x32x32x32.size inb_S1x96x96x96_S1x32x32x32_0_32_64_0
abbrev r0_32_64_32 : Rect S1x96x96x96 := Rect.unit (s := S1x96x96x96) ![0, 32, 64, 32] S1x32x32x32.size inb_S1x96x96x96_S1x32x32x32_0_32_64_32
abbrev r0_32_64_64 : Rect S1x96x96x96 := Rect.unit (s := S1x96x96x96) ![0, 32, 64, 64] S1x32x32x32.size inb_S1x96x96x96_S1x32x32x32_0_32_64_64
abbrev r0_64_0_0 : Rect S1x96x96x96 := Rect.unit (s := S1x96x96x96) ![0, 64, 0, 0] S1x32x32x32.size inb_S1x96x96x96_S1x32x32x32_0_64_0_0
abbrev r0_64_0_32 : Rect S1x96x96x96 := Rect.unit (s := S1x96x96x96) ![0, 64, 0, 32] S1x32x32x32.size inb_S1x96x96x96_S1x32x32x32_0_64_0_32
abbrev r0_64_0_64 : Rect S1x96x96x96 := Rect.unit (s := S1x96x96x96) ![0, 64, 0, 64] S1x32x32x32.size inb_S1x96x96x96_S1x32x32x32_0_64_0_64
abbrev r0_64_32_0 : Rect S1x96x96x96 := Rect.unit (s := S1x96x96x96) ![0, 64, 32, 0] S1x32x32x32.size inb_S1x96x96x96_S1x32x32x32_0_64_32_0
abbrev r0_64_32_32 : Rect S1x96x96x96 := Rect.unit (s := S1x96x96x96) ![0, 64, 32, 32] S1x32x32x32.size inb_S1x96x96x96_S1x32x32x32_0_64_32_32
abbrev r0_64_32_64 : Rect S1x96x96x96 := Rect.unit (s := S1x96x96x96) ![0, 64, 32, 64] S1x32x32x32.size inb_S1x96x96x96_S1x32x32x32_0_64_32_64
abbrev r0_64_64_0 : Rect S1x96x96x96 := Rect.unit (s := S1x96x96x96) ![0, 64, 64, 0] S1x32x32x32.size inb_S1x96x96x96_S1x32x32x32_0_64_64_0
abbrev r0_64_64_32 : Rect S1x96x96x96 := Rect.unit (s := S1x96x96x96) ![0, 64, 64, 32] S1x32x32x32.size inb_S1x96x96x96_S1x32x32x32_0_64_64_32
abbrev r0_64_64_64 : Rect S1x96x96x96 := Rect.unit (s := S1x96x96x96) ![0, 64, 64, 64] S1x32x32x32.size inb_S1x96x96x96_S1x32x32x32_0_64_64_64
abbrev rOut : Rect S1x3x3x3 := Rect.unit (s := S1x3x3x3) ![0, 0, 0, 0] S1x3x3x3.size inb_S1x3x3x3_S1x3x3x3_0_0_0_0

/-- The value stored into the first output block, from the first input block. -/
def body2 (x0 : Vec F S1x96x96x96 .f32) : FVec F S1x3x3x3 .f32 :=
  let v0 : Vec F S1x32x32x32 .f32 := View.ld x0 r0_0_0_0
  let v15 : Vec F S1x32x32x32 .f32 := View.ld x0 r0_0_0_32
  let v30 : Vec F S1x32x32x32 .f32 := View.ld x0 r0_0_0_64
  let v14 := k0_pay2 v0
  let v29 := k0_pay3 v15
  let v33 := k0_pay4 v30
  let v49 : Vec F S1x32x32x32 .f32 := View.ld x0 r0_0_32_0
  let v64 : Vec F S1x32x32x32 .f32 := View.ld x0 r0_0_32_32
  let v48 := k0_pay5 v14 v29 v33
  let v63 := k0_pay6 v49
  let v71 := k0_pay7 v64
  let v79 : Vec F S1x32x32x32 .f32 := View.ld x0 r0_0_32_64
  let v98 : Vec F S1x32x32x32 .f32 := View.ld x0 r0_0_64_0
  let v97 := k0_pay8 v63 v71 v79
  let v109 := k0_pay9 v98
  let v113 : Vec F S1x32x32x32 .f32 := View.ld x0 r0_0_64_32
  let v128 : Vec F S1x32x32x32 .f32 := View.ld x0 r0_0_64_64
  let v146 := k0_pay10 v109 v113 v128
  let v147 := k0_pay11 v48
  let v148 := k0_pay12 v97
  let v151 : Vec F S1x32x32x32 .f32 := View.ld x0 r0_32_0_0
  let v166 : Vec F S1x32x32x32 .f32 := View.ld x0 r0_32_0_32
  let v181 : Vec F S1x32x32x32 .f32 := View.ld x0 r0_32_0_64
  let v150 := k0_pay13 v146 v147 v148
  let v165 := k0_pay14 v151
  let v180 := k0_pay15 v166
  let v183 := k0_pay16 v181
  let v200 : Vec F S1x32x32x32 .f32 := View.ld x0 r0_32_32_0
  let v215 : Vec F S1x32x32x32 .f32 := View.ld x0 r0_32_32_32
  let v199 := k0_pay17 v165 v180 v183
  let v214 := k0_pay18 v200
  let v221 := k0_pay19 v215
  let v230 : Vec F S1x32x32x32 .f32 := View.ld x0 r0_32_32_64
  let v249 : Vec F S1x32x32x32 .f32 := View.ld x0 r0_32_64_0
  let v248 := k0_pay20 v214 v221 v230
  let v259 := k0_pay21 v249
  let v264 : Vec F S1x32x32x32 .f32 := View.ld x0 r0_32_64_32
  let v279 : Vec F S1x32x32x32 .f32 := View.ld x0 r0_32_64_64
  let v297 := k0_pay22 v259 v264 v279
  let v298 := k0_pay23 v199
  let v302 : Vec F S1x32x32x32 .f32 := View.ld x0 r0_64_0_0
  let v317 : Vec F S1x32x32x32 .f32 := View.ld x0 r0_64_0_32
  let v332 : Vec F S1x32x32x32 .f32 := View.ld x0 r0_64_0_64
  let v301 := k0_pay24 v248 v297 v298
  let v316 := k0_pay25 v302
  let v331 := k0_pay26 v317
  let v333 := k0_pay27 v332
  let v351 : Vec F S1x32x32x32 .f32 := View.ld x0 r0_64_32_0
  let v366 : Vec F S1x32x32x32 .f32 := View.ld x0 r0_64_32_32
  let v350 := k0_pay28 v316 v331 v333
  let v365 := k0_pay29 v351
  let v371 := k0_pay30 v366
  let v381 : Vec F S1x32x32x32 .f32 := View.ld x0 r0_64_32_64
  let v400 : Vec F S1x32x32x32 .f32 := View.ld x0 r0_64_64_0
  let v399 := k0_pay31 v365 v371 v381
  let v409 := k0_pay32 v400
  let v415 : Vec F S1x32x32x32 .f32 := View.ld x0 r0_64_64_32
  let v430 : Vec F S1x32x32x32 .f32 := View.ld x0 r0_64_64_64
  let v448 := k0_pay33 v409 v415 v430
  k0_pay34 v150 v301 v350 v399 v448

/-- The value stored into the second output block, from the second input block. -/
def body3 (x1 : Vec F S1x96x96x96 .f32) : FVec F S1x3x3x3 .f32 :=
  let v460 : Vec F S1x32x32x32 .f32 := View.ld x1 r0_0_0_0
  let v475 : Vec F S1x32x32x32 .f32 := View.ld x1 r0_0_0_32
  let v474 := k0_pay35 v460
  let v484 := k0_pay36 v475
  let v490 : Vec F S1x32x32x32 .f32 := View.ld x1 r0_0_0_64
  let v509 : Vec F S1x32x32x32 .f32 := View.ld x1 r0_0_32_0
  let v508 := k0_pay37 v474 v484 v490
  let v523 := k0_pay38 v509
  let v524 : Vec F S1x32x32x32 .f32 := View.ld x1 r0_0_32_32
  let v539 : Vec F S1x32x32x32 .f32 := View.ld x1 r0_0_32_64
  let v558 : Vec F S1x32x32x32 .f32 := View.ld x1 r0_0_64_0
  let v557 := k0_pay39 v523 v524 v539
  let v559 := k0_pay40 v558
  let v573 : Vec F S1x32x32x32 .f32 := View.ld x1 r0_0_64_32
  let v588 : Vec F S1x32x32x32 .f32 := View.ld x1 r0_0_64_64
  let cst_357 : F .f32 := Scalar.ofBits .f32 0x42000000#32
  let v572 := k0_pay41 v559
  let v587 := k0_pay42 v573
  let v595 := k0_pay43 v588
  let v611 : Vec F S1x32x32x32 .f32 := View.ld x1 r0_32_0_0
  let v626 : Vec F S1x32x32x32 .f32 := View.ld x1 r0_32_0_32
  let v610 := k0_pay44 v508 v557 v572 v587 v595 cst_357
  let v625 := k0_pay45 v611
  let v635 := k0_pay46 v626
  let v641 : Vec F S1x32x32x32 .f32 := View.ld x1 r0_32_0_64
  let v660 : Vec F S1x32x32x32 .f32 := View.ld x1 r0_32_32_0
  let v659 := k0_pay47 v625 v635 v641
  let v673 := k0_pay48 v660
  let v675 : Vec F S1x32x32x32 .f32 := View.ld x1 r0_32_32_32
  let v690 : Vec F S1x32x32x32 .f32 := View.ld x1 r0_32_32_64
  let v709 : Vec F S1x32x32x32 .f32 := View.ld x1 r0_32_64_0
  let v708 := k0_pay49 v673 v675 v690
  let v724 : Vec F S1x32x32x32 .f32 := View.ld x1 r0_32_64_32
  let v739 : Vec F S1x32x32x32 .f32 := View.ld x1 r0_32_64_64
  let v723 := k0_pay50 v709
  let v738 := k0_pay51 v724
  let v746 := k0_pay52 v739
  let v762 : Vec F S1x32x32x32 .f32 := View.ld x1 r0_64_0_0
  let v777 : Vec F S1x32x32x32 .f32 := View.ld x1 r0_64_0_32
  let v761 := k0_pay53 v659 v708 v723 v738 v746
  let v776 := k0_pay54 v762
  let v784 := k0_pay55 v777
  let v785 := k0_pay56 (F := F)
  let v792 : Vec F S1x32x32x32 .f32 := View.ld x1 r0_64_0_64
  let v811 : Vec F S1x32x32x32 .f32 := View.ld x1 r0_64_32_0
  let v810 := k0_pay57 v776 v784 v785 v792
  let v822 := k0_pay58 v811
  let v823 := k0_pay59 (F := F)
  let v826 : Vec F S1x32x32x32 .f32 := View.ld x1 r0_64_32_32
  let v841 : Vec F S1x32x32x32 .f32 := View.ld x1 r0_64_32_64
  let v859 := k0_pay60 v822 v823 v826 v841
  let v860 : Vec F S1x32x32x32 .f32 := View.ld x1 r0_64_64_0
  let v875 : Vec F S1x32x32x32 .f32 := View.ld x1 r0_64_64_32
  let v890 : Vec F S1x32x32x32 .f32 := View.ld x1 r0_64_64_64
  let v874 := k0_pay61 v860
  let v889 := k0_pay62 v875
  let v896 := k0_pay63 v890
  k0_pay1 v610 v761 v810 v859 v874 v889 v896

end Cert.KernelIdeal.Body

end
-- ==== Proof.FrameI.lean ====
/-
  The frame of the program: it runs to its end, faults nowhere, and leaves its two argument arrays as they were.

  @main is two reshapes, one region over a grid of 64 points, and 144 later host lines. At a point the region's body
  reads the point's two input blocks (a whole 96 x 96 x 96 volume each) and overwrites the point's two output blocks
  (3 x 3 x 3 each) with a function of the inputs alone; it keeps nothing between points. So after the body each
  input's staging buffer holds its block, each output's the body's value of the input block, and the class's
  invariant passes through untouched. The later host lines write only their own result buffers, none of which is an
  array of the region or an argument.
-/
import proofs.«152811_j61263413510186_2_alg».proof.Proof.Gen.KernelIdeal.Launch
import proofs.«152811_j61263413510186_2_alg».proof.Proof.Gen.KernelIdeal.Skeleton
import proofs.«152811_j61263413510186_2_alg».proof.Proof.Gen.KernelIdeal.Points
import proofs.«152811_j61263413510186_2_alg».proof.Proof.BodyI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOpss : List (List (HloOp τ sig (Elt F))) := [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- @main is the reshapes, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- Every later line touches unscoped TensorCore buffers only. -/
theorem tail_sub_all : (tailOpss (F := F)).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩
theorem tail_fresh_all : (tailOpss (F := F)).Forall fun ops => ops.Forall fun op => op.fresh = ∅ := by
  simp only [List.Forall]
  exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩

theorem sfx_sub : ∀ ops ∈ (tailOpss (F := F)), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub_all) ops hops)) op hop)
theorem sfx_fresh : ∀ ops ∈ (tailOpss (F := F)), ∀ op ∈ ops, op.fresh = ∅ := by
  intro ops hops op hop
  exact (List.forall_iff_forall_mem.mp ((List.forall_iff_forall_mem.mp tail_fresh_all) ops hops)) op hop

/-- No later line writes a buffer numbered below six: the arguments and the region's four arrays are the first six. -/
theorem hostOps1_keeps (b : Ref sig .tc) (hb : b = main_arg0 ∨ b = main_arg1 ∨ b = main_v0 ∨ b = main_v1 ∨ b = main_v2_0 ∨ b = main_v2_1) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_1_keeps (b : Ref sig .tc) (hb : b = main_arg0 ∨ b = main_arg1 ∨ b = main_v0 ∨ b = main_v1 ∨ b = main_v2_0 ∨ b = main_v2_1) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_2_keeps (b : Ref sig .tc) (hb : b = main_arg0 ∨ b = main_arg1 ∨ b = main_v0 ∨ b = main_v1 ∨ b = main_v2_0 ∨ b = main_v2_1) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_3_keeps (b : Ref sig .tc) (hb : b = main_arg0 ∨ b = main_arg1 ∨ b = main_v0 ∨ b = main_v1 ∨ b = main_v2_0 ∨ b = main_v2_1) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_4_keeps (b : Ref sig .tc) (hb : b = main_arg0 ∨ b = main_arg1 ∨ b = main_v0 ∨ b = main_v1 ∨ b = main_v2_0 ∨ b = main_v2_1) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_5_keeps (b : Ref sig .tc) (hb : b = main_arg0 ∨ b = main_arg1 ∨ b = main_v0 ∨ b = main_v1 ∨ b = main_v2_0 ∨ b = main_v2_1) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_6_keeps (b : Ref sig .tc) (hb : b = main_arg0 ∨ b = main_arg1 ∨ b = main_v0 ∨ b = main_v1 ∨ b = main_v2_0 ∨ b = main_v2_1) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_7_keeps (b : Ref sig .tc) (hb : b = main_arg0 ∨ b = main_arg1 ∨ b = main_v0 ∨ b = main_v1 ∨ b = main_v2_0 ∨ b = main_v2_1) :
    (hostOps1_7 : List (HloOp τ sig (Elt F))).Forall fun op => Proc.devRef .tc b ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_8_keeps (b : Ref sig .tc) (hb : b = main_arg0 ∨ b = main_arg1 ∨ b = main_v0 ∨ b = main_v1 ∨ b = main_v2_0 ∨ b = main_v2_1) :
    (hostOps1_8 : List (HloOp τ sig (Elt F))).Forall fun op => Proc.devRef .tc b ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_9_keeps (b : Ref sig .tc) (hb : b = main_arg0 ∨ b = main_arg1 ∨ b = main_v0 ∨ b = main_v1 ∨ b = main_v2_0 ∨ b = main_v2_1) :
    (hostOps1_9 : List (HloOp τ sig (Elt F))).Forall fun op => Proc.devRef .tc b ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_10_keeps (b : Ref sig .tc) (hb : b = main_arg0 ∨ b = main_arg1 ∨ b = main_v0 ∨ b = main_v1 ∨ b = main_v2_0 ∨ b = main_v2_1) :
    (hostOps1_10 : List (HloOp τ sig (Elt F))).Forall fun op => Proc.devRef .tc b ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_11_keeps (b : Ref sig .tc) (hb : b = main_arg0 ∨ b = main_arg1 ∨ b = main_v0 ∨ b = main_v1 ∨ b = main_v2_0 ∨ b = main_v2_1) :
    (hostOps1_11 : List (HloOp τ sig (Elt F))).Forall fun op => Proc.devRef .tc b ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)
theorem hostOps1_12_keeps (b : Ref sig .tc) (hb : b = main_arg0 ∨ b = main_arg1 ∨ b = main_v0 ∨ b = main_v1 ∨ b = main_v2_0 ∨ b = main_v2_1) :
    (hostOps1_12 : List (HloOp τ sig (Elt F))).Forall fun op => Proc.devRef .tc b ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl | rfl <;> (repeat' apply And.intro) <;> exact StableHlo.devRef_ne_of_ne (by decide)

theorem tail_keeps_all (b : Ref sig .tc) (hb : b = main_arg0 ∨ b = main_arg1 ∨ b = main_v0 ∨ b = main_v1 ∨ b = main_v2_0 ∨ b = main_v2_1) :
    (tailOpss (F := F)).Forall fun ops => ops.Forall fun op => Proc.devRef .tc b ∉ op.writes := by
  simp only [List.Forall]
  exact ⟨hostOps1_keeps b hb, hostOps1_1_keeps b hb, hostOps1_2_keeps b hb, hostOps1_3_keeps b hb, hostOps1_4_keeps b hb, hostOps1_5_keeps b hb, hostOps1_6_keeps b hb, hostOps1_7_keeps b hb, hostOps1_8_keeps b hb, hostOps1_9_keeps b hb, hostOps1_10_keeps b hb, hostOps1_11_keeps b hb, hostOps1_12_keeps b hb⟩

theorem sfx_keeps : ∀ ops ∈ (tailOpss (F := F)), ∀ op ∈ ops,
    ∀ w, Proc.devRef .tc (Pipeline.arrRef spec0 w) ∉ op.writes := by
  intro ops hops op hop w
  refine (List.forall_iff_forall_mem.mp ((List.forall_iff_forall_mem.mp (tail_keeps_all (Pipeline.arrRef spec0 w) ?_)) ops hops)) op hop
  fin_cases w
  · exact Or.inr (Or.inr (Or.inl rfl))
  · exact Or.inr (Or.inr (Or.inr (Or.inl rfl)))
  · exact Or.inr (Or.inr (Or.inr (Or.inr (Or.inl rfl))))
  · exact Or.inr (Or.inr (Or.inr (Or.inr (Or.inr rfl))))

/-- The flattened tail writes no such buffer either. -/
theorem tail_flat_keeps (b : Ref sig .tc) (hb : b = main_arg0 ∨ b = main_arg1 ∨ b = main_v0 ∨ b = main_v1 ∨ b = main_v2_0 ∨ b = main_v2_1) :
    ∀ op ∈ (tailOpss (F := F)).flatten, Proc.devRef .tc b ∉ op.writes := by
  intro op hop
  obtain ⟨ops, hops, hop'⟩ := List.mem_flatten.mp hop
  exact (List.forall_iff_forall_mem.mp ((List.forall_iff_forall_mem.mp (tail_keeps_all b hb)) ops hops)) op hop'

/-- The reshapes before the region write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor do the later lines: each argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _ (tail_flat_keeps main_arg0 (Or.inl rfl)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (tail_flat_keeps main_arg1 (Or.inr (Or.inl rfl))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run that ends with every array of the region as the proof data compute and every
    other unscoped buffer as the later lines leave it: the arguments are among the latter. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

/-! ## What the body leaves in each output block's buffer -/

/-- An output's staging buffer after the body: the body's one store of the whole block. -/
def out0_2 (x0 : Vec F S1x96x96x96 .f32) : Vec F S1x3x3x3 .f32 := View.canon [⟨rOut, body2 x0⟩]
def out0_3 (x1 : Vec F S1x96x96x96 .f32) : Vec F S1x3x3x3 .f32 := View.canon [⟨rOut, body3 x1⟩]

/-- The one store covers the block. -/
theorem cover_out (p0 : Vec F S1x3x3x3 .f32) (y : S1x3x3x3.Idx) :
    ∃ pc ∈ ([⟨rOut, p0⟩] : List (View.Piece (Elt F) S1x3x3x3 .f32)), y ∈ pc.1.set :=
  View.cover_of_tiled [⟨rOut, p0⟩] S1x3x3x3.size (by rfl) y

/-! ## The body's triple -/

set_option maxHeartbeats 4000000 in
/-- From the four staging memrefs held whole — the inputs' at `x0`, `x1`, the outputs' at anything — the body runs to
    its return with the inputs' as they were and each output's at the body's value of its input. -/
theorem sound_kernel (c : Dev nD) (E : Set ℕ) (i : grid0.Coords)
    (arg1 : Memref sig .tc .vmem S1x96x96x96 .f32) (harg1 : arg1.IsWhole) (arg2 : Memref sig .tc .vmem S1x96x96x96 .f32) (harg2 : arg2.IsWhole)
    (arg3 : Memref sig .tc .vmem S1x3x3x3 .f32) (harg3 : arg3.IsWhole) (arg4 : Memref sig .tc .vmem S1x3x3x3 .f32) (harg4 : arg4.IsWhole)
    (x0 x1 : Vec F S1x96x96x96 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__pool_kernel i arg1 harg1 arg2 harg2 arg3 harg3 arg4 harg4) K := by
  unfold owns
  iintro ⟨⟨%f0, %hf0, H0⟩, ⟨%f1, %hf1, H1⟩, ⟨%d2, %f2, -, H2⟩, ⟨%d3, %f3, -, H3⟩, Hk⟩
  subst hf0
  subst hf1
  sl_exec_parts!
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  iexists _; isplitr
  swap; · iexact H3
  ipureintro
  exact View.read_writes_eq_canon _ _ _ (cover_out _)

/-! ## The pipeline's proof data -/

/-- The proof data on core `c`: the arrays as the region finds them; after the body at point `t` each input's buffer at
    its block and each output's at the body's value of the matching input block; the class's invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    proof data compute and every other unscoped buffer as the later lines leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: the program runs and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.HF

end
-- ==== Proof.PoolOps.lean ====
/-
  The first fourteen host lines after the region, read: they view each output array of the region as [2, 32, 3, 3, 3]
  (the array of region means) and take, for each of the two, the sum over the 27 regions divided by 27, kept as
  [2, 32, 1, 1, 1] (the array of volume means).
-/
import proofs.«152811_j61263413510186_2_alg».proof.Proof.Gen.KernelIdeal.Launch
import Idealize.ShloMosaic.Lib.StableHlo.Run
import Idealize.ShloMosaic.PureOps.Ideal

noncomputable section

namespace Cert.PoolOps

open Idealize.ShloMosaic Idealize.ShloMosaic.TcCoe Idealize.SL.Sem Idealize.ShloMosaic.StableHlo
open Cert.KernelIdeal Cert.KernelIdeal.Gen

/-- The first fourteen later lines. -/
abbrev poolOps : List (HloOp τ sig (Elt Ideal)) := (hostOps1 (F := Ideal)).take 14

/-- An output array of the region viewed as [2, 32, 3, 3, 3]. -/
def regions (o : (⟨S64x3x3x3, .f32⟩ : BufTy).Contents (Elt Ideal)) : (⟨S2x32x3x3x3, .f32⟩ : BufTy).Contents (Elt Ideal) :=
  shapeCast S2x32x3x3x3 o shapeCasts_S64x3x3x3_S2x32x3x3x3

/-- The mean over the 27 regions as the lines spell it. -/
def mean27 (y : (⟨S2x32x3x3x3, .f32⟩ : BufTy).Contents (Elt Ideal)) : (⟨S2x32x1x1x1, .f32⟩ : BufTy).Contents (Elt Ideal) :=
  Host.divf (F := Ideal) (broadcastInDim S2x32x1x1x1 ![0, 1] bcast_S2x32_S2x32x1x1x1_0_1 (Host.reduceAdd (F := Ideal) y (constant (F := Ideal) S_ .f32 0x00000000#32) reducesTo_S2x32x3x3x3_S2x32_d2_3_4 h_S_))
    (broadcastInDim S2x32x1x1x1 ![] bcast_S_S2x32x1x1x1 (constant (F := Ideal) S_ .f32 0x41D80000#32))

set_option maxHeartbeats 2000000 in
theorem pool_v3 (W : Valuation τ sig (Elt Ideal)) :
    StableHlo.after poolOps W (Proc.devRef .tc main_v3) = regions (W (Proc.devRef .tc main_v2_0)) := by
  simp only [poolOps, hostOps1, List.take]
  after_results_simp
  rfl
set_option maxHeartbeats 2000000 in
theorem pool_v4 (W : Valuation τ sig (Elt Ideal)) :
    StableHlo.after poolOps W (Proc.devRef .tc main_v4) = regions (W (Proc.devRef .tc main_v2_1)) := by
  simp only [poolOps, hostOps1, List.take]
  after_results_simp
  rfl
set_option maxHeartbeats 2000000 in
theorem pool_v8 (W : Valuation τ sig (Elt Ideal)) :
    StableHlo.after poolOps W (Proc.devRef .tc main_v8) = mean27 (regions (W (Proc.devRef .tc main_v2_0))) := by
  simp only [poolOps, hostOps1, List.take]
  after_results_simp
  rfl
set_option maxHeartbeats 2000000 in
theorem pool_v12 (W : Valuation τ sig (Elt Ideal)) :
    StableHlo.after poolOps W (Proc.devRef .tc main_v12) = mean27 (regions (W (Proc.devRef .tc main_v2_1))) := by
  simp only [poolOps, hostOps1, List.take]
  after_results_simp
  rfl

end Cert.PoolOps

end
-- ==== Proof.Tail.lean ====
/-
  The later host lines of the kernel's program against the reference's.

  Once its four pooled arrays are made — the two arrays of region means and the two arrays of volume means — the kernel's
  program performs, operation for operation, the lines the reference performs on its own four pooled arrays: flatten the
  regions, the pairwise cosine matrices with clamped norms, the squared differences, their means, and the mean of the three
  terms. So if the four arrays agree, the two scalar results agree: the composed term of the kernel's lines over the four
  arrays is, read operation by operation, the composed term of the reference's stages.
-/
import proofs.«152811_j61263413510186_2_alg».proof.Proof.Gen.KernelIdeal.Launch
import proofs.«152811_j61263413510186_2_alg».proof.Proof.PoolOps
import proofs.«152811_j61263413510186_2_alg».proof.Proof.Gen.ReferenceIdeal.Read
import Idealize.ShloMosaic.Lib.StableHlo.Run
import Idealize.ShloMosaic.PureOps.Ideal

noncomputable section

namespace Cert.Tail

open Idealize.ShloMosaic Idealize.ShloMosaic.TcCoe Idealize.SL.Sem Idealize.ShloMosaic.StableHlo
open Cert.KernelIdeal Cert.KernelIdeal.Gen
open Cert.ReferenceIdeal.Read Cert.PoolOps

/-- The contents after two stretches of host lines run one after the other are those after the second, started from
    those after the first. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The later lines after the first fourteen (which make the four pooled arrays). -/
abbrev restOps : List (HloOp τ sig (Elt Ideal)) :=
  (hostOps1 (F := Ideal)).drop 14 ++ hostOps1_1 (F := Ideal) ++ hostOps1_2 (F := Ideal) ++ hostOps1_3 (F := Ideal) ++ hostOps1_4 (F := Ideal) ++ hostOps1_5 (F := Ideal) ++ hostOps1_6 (F := Ideal) ++ hostOps1_7 (F := Ideal) ++ hostOps1_8 (F := Ideal) ++ hostOps1_9 (F := Ideal) ++ hostOps1_10 (F := Ideal) ++ hostOps1_11 (F := Ideal) ++ hostOps1_12 (F := Ideal)

/-- All the later lines are those two stretches. -/
theorem flatten_eq : List.flatten [hostOps1 (F := Ideal), hostOps1_1 (F := Ideal), hostOps1_2 (F := Ideal), hostOps1_3 (F := Ideal), hostOps1_4 (F := Ideal), hostOps1_5 (F := Ideal), hostOps1_6 (F := Ideal), hostOps1_7 (F := Ideal), hostOps1_8 (F := Ideal), hostOps1_9 (F := Ideal), hostOps1_10 (F := Ideal), hostOps1_11 (F := Ideal), hostOps1_12 (F := Ideal)] = poolOps ++ restOps := by
  simp only [poolOps, restOps, List.flatten_cons, List.flatten_nil, List.append_nil, ← List.append_assoc, List.take_append_drop]

set_option maxHeartbeats 8000000 in
set_option maxRecDepth 65536 in
/-- From contents whose four pooled arrays are the reference's four pooled stages, the remaining lines end with the
    reference's result. -/
theorem rest_eq (W : Valuation τ sig (Elt Ideal))
    (x0 x1 : (⟨Cert.ReferenceIdeal.S2x32x96x96x96, .f32⟩ : BufTy).Contents (Elt Ideal))
    (h8 : W (Proc.devRef .tc main_v8) = val_main_v3 (F := Ideal) x0)
    (h12 : W (Proc.devRef .tc main_v12) = val_main_v7 (F := Ideal) x1)
    (h3 : W (Proc.devRef .tc main_v3) = val_main_v11 (F := Ideal) x0)
    (h4 : W (Proc.devRef .tc main_v4) = val_main_v15 (F := Ideal) x1) :
    StableHlo.after restOps W (Proc.devRef .tc main_v111) = val_main_v114 (F := Ideal) x0 x1 := by
  simp only [restOps, hostOps1, hostOps1_1, hostOps1_2, hostOps1_3, hostOps1_4, hostOps1_5, hostOps1_6, hostOps1_7, hostOps1_8, hostOps1_9, hostOps1_10, hostOps1_11, hostOps1_12, List.drop, List.append_assoc, List.cons_append, List.nil_append, List.append_nil]
  after_results_simp
  rw [h8, h12, h3, h4]
  simp only [val_main_v114, val_main_cst_19, val_main_v113, val_main_v112, val_main_v111, val_main_cst_18, val_main_v110, val_main_cst_17, val_main_v109, val_main_v108, val_main_v107, val_main_v106, val_main_v105, val_main_cst_16, val_main_v104, val_main_v103, val_main_v102, val_main_v101, val_main_v100, val_main_v99, val_main_call5_v1, val_main_call5_cst, val_main_call5_v0, val_main_v98, val_main_v97, val_main_v96, val_main_v95, val_main_v94, val_main_v93, val_main_v92, val_main_v91, val_main_cst_15, val_main_v90, val_main_v89, val_main_v88, val_main_v87, val_main_v86, val_main_v85, val_main_call4_v1, val_main_call4_cst, val_main_call4_v0, val_main_v84, val_main_v83, val_main_v82, val_main_v81, val_main_v80, val_main_v79, val_main_cst_14, val_main_v78, val_main_cst_13, val_main_v77, val_main_v76, val_main_v75, val_main_v74, val_main_v73, val_main_cst_12, val_main_v72, val_main_v71, val_main_v70, val_main_v69, val_main_v68, val_main_v67, val_main_call3_v1, val_main_call3_cst, val_main_call3_v0, val_main_v66, val_main_v65, val_main_v64, val_main_v63, val_main_v62, val_main_v61, val_main_v60, val_main_v59, val_main_cst_11, val_main_v58, val_main_v57, val_main_v56, val_main_v55, val_main_v54, val_main_v53, val_main_call2_v1, val_main_call2_cst, val_main_call2_v0, val_main_v52, val_main_v51, val_main_v50, val_main_v49, val_main_v48, val_main_v47, val_main_cst_10, val_main_v46, val_main_cst_9, val_main_v45, val_main_v44, val_main_v43, val_main_v42, val_main_v41, val_main_cst_8, val_main_v40, val_main_v39, val_main_v38, val_main_v37, val_main_v36, val_main_v35, val_main_call1_v1, val_main_call1_cst, val_main_call1_v0, val_main_v34, val_main_v33, val_main_v32, val_main_v31, val_main_v30, val_main_v29, val_main_v28, val_main_v27, val_main_cst_7, val_main_v26, val_main_v25, val_main_v24, val_main_v23, val_main_v22, val_main_v21, val_main_call0_v1, val_main_call0_cst, val_main_call0_v0, val_main_v20, val_main_v19, val_main_v18, val_main_v17, val_main_v16]
  rfl

end Cert.Tail

end
-- ==== Proof.Spec.lean ====
/-
  The arithmetic both programs compute, stated once over plain finite index types.

  A volume of 96 x 96 x 96 numbers is cut into 3 x 3 x 3 regions of 32 x 32 x 32. The kernel averages a region one axis
  at a time: the innermost axis first, each sum divided by 32 before the next axis is summed (`nestedMean`). The
  reference sums the 32768 numbers of the region at once and divides by 32768 (`flatMean`). The whole volume's mean
  is, in the reference, the sum of all 884736 numbers divided by 884736 (`volMean`); the kernel's program takes the
  sum of the 27 region means divided by 27 (`meanOfMeans`). Divisions are the idealized float division, sums start
  from the idealized zero word, constants are their f32 words.
-/
import Idealize.ShloMosaic.PureOps.Ideal
import Idealize.ShloMosaic.Lib.ValueIdx

noncomputable section

namespace Cert.Pool

open Idealize.ShloMosaic

/-- Position `i` inside region `d` along one axis of length 96. -/
def at32 (d : Fin 3) (i : Fin 32) : Fin 96 := ⟨32 * d.val + i.val, by omega⟩

theorem at32_val (d : Fin 3) (i : Fin 32) : (at32 d i).val = 32 * d.val + i.val := rfl

/-- The f32 words of the constants the programs divide by, and of zero, at the idealized reading. -/
abbrev c32 : EReal := Ideal.ofBits .f32 0x42000000#32
abbrev c27 : EReal := Ideal.ofBits .f32 0x41D80000#32
abbrev c32768 : EReal := Ideal.ofBits .f32 0x47000000#32
abbrev c884736 : EReal := Ideal.ofBits .f32 0x49580000#32
abbrev c0 : EReal := Ideal.ofBits .f32 0x00000000#32

/-- A region's mean as the kernel takes it: innermost axis first, dividing by 32 after each axis. -/
def nestedMean (X : Fin 32 → Fin 32 → Fin 32 → EReal) : EReal :=
  Ideal.div (∑ i : Fin 32, Ideal.div (∑ j : Fin 32, Ideal.div (∑ k : Fin 32, X i j k) c32) c32) c32

/-- A region's mean as the reference takes it: one sum from zero, one division. -/
def flatMean (X : Fin 32 → Fin 32 → Fin 32 → EReal) : EReal :=
  Ideal.div (c0 + ∑ i : Fin 32, ∑ j : Fin 32, ∑ k : Fin 32, X i j k) c32768

/-- The whole volume's mean as the reference takes it. -/
def volMean (Y : Fin 96 → Fin 96 → Fin 96 → EReal) : EReal :=
  Ideal.div (c0 + ∑ i : Fin 96, ∑ j : Fin 96, ∑ k : Fin 96, Y i j k) c884736

/-- The mean of 27 numbers as the kernel's program takes it. -/
def meanOfMeans (Z : Fin 3 → Fin 3 → Fin 3 → EReal) : EReal :=
  Ideal.div (c0 + ∑ d : Fin 3, ∑ h : Fin 3, ∑ w : Fin 3, Z d h w) c27

/-- The region `(d, h, w)` of a volume. -/
def region (Y : Fin 96 → Fin 96 → Fin 96 → EReal) (d h w : Fin 3) : Fin 32 → Fin 32 → Fin 32 → EReal :=
  fun i j k => Y (at32 d i) (at32 h j) (at32 w k)

end Cert.Pool

end
-- ==== Proof.LibAxisSums.lean ====
/-
  Sums over several axes of an array read at an index, and indices of eight-axis arrays.

  A sum over some axes of an array, read at the coordinates on the kept axes, is the iterated sum over the coordinates
  on the dropped axes: the indices that drop to a given index of the kept axes are exactly those that agree with it on
  every kept axis, and they are in bijection with the tuples of dropped coordinates. Stated here for the axes 3, 5 and 7
  of an eight-axis array and for the axes 2, 3 and 4 of a five-axis array, at any extents. With them, an eight-axis
  index built from its coordinates and its row-major position as one sum of products.
-/
import Idealize.ShloMosaic.PureOps.Ideal.Laws
import Idealize.ShloMosaic.Lib.ValueIdx

noncomputable section

namespace Cert.LibAxisSums

open Idealize.ShloMosaic Idealize.ShloMosaic.ValueIdx

/-- An eight-axis index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3
    | ⟨4, _⟩ => a4 | ⟨5, _⟩ => a5 | ⟨6, _⟩ => a6 | ⟨7, _⟩ => a7

/-- Every eight-axis index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

/-- The row-major position of an eight-axis index as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- The sum over the axes 3, 5 and 7 of an eight-axis array, read at the five kept coordinates: the initial value plus
    the triple sum over the three dropped coordinates. -/
theorem hostReduceAdd_357 {n0 n1 n2 n3 n4 n5 n6 n7 : Nat}
    (h : (⟨8, ![n0, n1, n2, n3, n4, n5, n6, n7]⟩ : Shape).ReducesTo [3, 5, 7] ⟨5, ![n0, n1, n2, n4, n6]⟩)
    (X : (⟨8, ![n0, n1, n2, n3, n4, n5, n6, n7]⟩ : Shape).Idx → EReal) (init : EReal)
    (a0 : Fin n0) (a1 : Fin n1) (a2 : Fin n2) (a4 : Fin n4) (a6 : Fin n6) :
    Ideal.hostReduceAdd h X init (ix5 a0 a1 a2 a4 a6)
      = init + ∑ i : Fin n3, ∑ j : Fin n5, ∑ k : Fin n7, X (ix8 a0 a1 a2 i a4 j a6 k) := by
  unfold Ideal.hostReduceAdd
  congr 1
  -- an index that drops to the given five coordinates is determined by its three dropped coordinates
  have key : ∀ a : (⟨8, ![n0, n1, n2, n3, n4, n5, n6, n7]⟩ : Shape).Idx, h.drop a = ix5 a0 a1 a2 a4 a6 →
      ix8 a0 a1 a2 (a 3) a4 (a 5) a6 (a 7) = a := by
    intro a hd
    funext g
    match g with
    | ⟨0, _⟩ => exact (Fin.ext (congrArg (fun f => (f (0 : Fin 5)).val) hd)).symm
    | ⟨1, _⟩ => exact (Fin.ext (congrArg (fun f => (f (1 : Fin 5)).val) hd)).symm
    | ⟨2, _⟩ => exact (Fin.ext (congrArg (fun f => (f (2 : Fin 5)).val) hd)).symm
    | ⟨3, _⟩ => rfl
    | ⟨4, _⟩ => exact (Fin.ext (congrArg (fun f => (f (3 : Fin 5)).val) hd)).symm
    | ⟨5, _⟩ => rfl
    | ⟨6, _⟩ => exact (Fin.ext (congrArg (fun f => (f (4 : Fin 5)).val) hd)).symm
    | ⟨7, _⟩ => rfl
  refine (Finset.sum_nbij' (t := (Finset.univ : Finset (Fin n3 × Fin n5 × Fin n7)))
    (g := fun p => X (ix8 a0 a1 a2 p.1 a4 p.2.1 a6 p.2.2))
    (fun idx => (idx 3, idx 5, idx 7)) (fun p => ix8 a0 a1 a2 p.1 a4 p.2.1 a6 p.2.2) ?_ ?_ ?_ ?_ ?_).trans ?_
  · intro a _; exact Finset.mem_univ _
  · intro p _
    refine Finset.mem_filter.2 ⟨Finset.mem_univ _, ?_⟩
    funext b
    match b with
    | ⟨0, _⟩ => exact Fin.ext rfl
    | ⟨1, _⟩ => exact Fin.ext rfl
    | ⟨2, _⟩ => exact Fin.ext rfl
    | ⟨3, _⟩ => exact Fin.ext rfl
    | ⟨4, _⟩ => exact Fin.ext rfl
  · intro a ha; exact key a (Finset.mem_filter.1 ha).2
  · intro p _; rfl
  · intro a ha; exact congrArg X (key a (Finset.mem_filter.1 ha).2).symm
  · rw [Fintype.sum_prod_type]
    refine Finset.sum_congr rfl fun i _ => ?_
    rw [Fintype.sum_prod_type]

/-- The sum over the axes 2, 3 and 4 of a five-axis array, read at the two kept coordinates: the initial value plus the
    triple sum over the three dropped coordinates. -/
theorem hostReduceAdd_234 {n0 n1 n2 n3 n4 : Nat}
    (h : (⟨5, ![n0, n1, n2, n3, n4]⟩ : Shape).ReducesTo [2, 3, 4] ⟨2, ![n0, n1]⟩)
    (X : (⟨5, ![n0, n1, n2, n3, n4]⟩ : Shape).Idx → EReal) (init : EReal) (a0 : Fin n0) (a1 : Fin n1) :
    Ideal.hostReduceAdd h X init (ix2 a0 a1)
      = init + ∑ i : Fin n2, ∑ j : Fin n3, ∑ k : Fin n4, X (ix5 a0 a1 i j k) := by
  unfold Ideal.hostReduceAdd
  congr 1
  -- an index that drops to the given pair is determined by its three dropped coordinates
  have key : ∀ a : (⟨5, ![n0, n1, n2, n3, n4]⟩ : Shape).Idx, h.drop a = ix2 a0 a1 →
      ix5 a0 a1 (a 2) (a 3) (a 4) = a := by
    intro a hd
    funext g
    match g with
    | ⟨0, _⟩ => exact (Fin.ext (congrArg (fun f => (f (0 : Fin 2)).val) hd)).symm
    | ⟨1, _⟩ => exact (Fin.ext (congrArg (fun f => (f (1 : Fin 2)).val) hd)).symm
    | ⟨2, _⟩ => rfl
    | ⟨3, _⟩ => rfl
    | ⟨4, _⟩ => rfl
  refine (Finset.sum_nbij' (t := (Finset.univ : Finset (Fin n2 × Fin n3 × Fin n4)))
    (g := fun p => X (ix5 a0 a1 p.1 p.2.1 p.2.2))
    (fun idx => (idx 2, idx 3, idx 4)) (fun p => ix5 a0 a1 p.1 p.2.1 p.2.2) ?_ ?_ ?_ ?_ ?_).trans ?_
  · intro a _; exact Finset.mem_univ _
  · intro p _
    refine Finset.mem_filter.2 ⟨Finset.mem_univ _, ?_⟩
    funext b
    match b with
    | ⟨0, _⟩ => exact Fin.ext rfl
    | ⟨1, _⟩ => exact Fin.ext rfl
  · intro a ha; exact key a (Finset.mem_filter.1 ha).2
  · intro p _; rfl
  · intro a ha; exact congrArg X (key a (Finset.mem_filter.1 ha).2).symm
  · rw [Fintype.sum_prod_type]
    refine Finset.sum_congr rfl fun i _ => ?_
    rw [Fintype.sum_prod_type]

end Cert.LibAxisSums

end
-- ==== Proof.RefPool.lean ====
/-
  The reference's region means and whole-volume means read at an index.

  The reference reshapes the [2, 32, 96, 96, 96] argument to eight axes — each spatial axis of length 96 split into a
  region number and a position inside the region — and sums over the three position axes at once. A sum over the axes
  3, 5 and 7 of an eight-axis array, read at the five kept coordinates, is the triple sum over the three dropped
  coordinates: the indices that drop to a given five-axis index are exactly those that agree with it on the five kept
  axes, and they are in bijection with the triples of dropped coordinates. The reshape keeps the row-major position,
  which is linear arithmetic in the coordinates.
-/
import proofs.«152811_j61263413510186_2_alg».proof.Proof.Gen.ReferenceIdeal.Read
import proofs.«152811_j61263413510186_2_alg».proof.Proof.Spec
import proofs.«152811_j61263413510186_2_alg».proof.Proof.LibAxisSums
import Idealize.ShloMosaic.Lib.IdealHost

noncomputable section

namespace Cert.RefPool

open Cert.ReferenceIdeal Cert.ReferenceIdeal.Gen Cert.ReferenceIdeal.Read Idealize.ShloMosaic Idealize.ShloMosaic.ValueIdx Cert.Pool Cert.LibAxisSums

/-- The reshape that splits each axis of length 96 into three regions of 32, read at an eight-axis index: the
    position on a split axis is 32 times the region number plus the position inside the region. -/
theorem split_apply {α : Type} (x : S2x32x96x96x96.Idx → α) (b : Fin 2) (c : Fin 32) (d : Fin 3) (i : Fin 32)
    (h : Fin 3) (j : Fin 32) (w : Fin 3) (k : Fin 32) :
    shapeCast S2x32x3x32x3x32x3x32 x shapeCasts_S2x32x96x96x96_S2x32x3x32x3x32x3x32 (ix8 b c d i h j w k)
      = x (ix5 b c (at32 d i) (at32 h j) (at32 w k)) := by
  refine shapeCast_apply x _ _ _ ?_
  rw [Shape.rowMajor_val_five, rowMajor_val_eight]
  show (((b.val * 32 + c.val) * 96 + (32 * d.val + i.val)) * 96 + (32 * h.val + j.val)) * 96 + (32 * w.val + k.val)
    = (((((((b.val * 32 + c.val) * 3 + d.val) * 32 + i.val) * 3 + h.val) * 32 + j.val) * 3 + w.val) * 32 + k.val)
  omega

/-- The reshape that only inserts unit axes, read at an eight-axis index. -/
theorem unit_apply {α : Type} (x : S2x32x96x96x96.Idx → α) (b : Fin 2) (c : Fin 32) (i j k : Fin 96) :
    shapeCast S2x32x1x96x1x96x1x96 x shapeCasts_S2x32x96x96x96_S2x32x1x96x1x96x1x96
        (ix8 b c (0 : Fin 1) i (0 : Fin 1) j (0 : Fin 1) k)
      = x (ix5 b c i j k) := by
  refine shapeCast_apply x _ _ _ ?_
  rw [Shape.rowMajor_val_five, rowMajor_val_eight]
  show (((b.val * 32 + c.val) * 96 + i.val) * 96 + j.val) * 96 + k.val
    = (((((((b.val * 32 + c.val) * 1 + 0) * 96 + i.val) * 1 + 0) * 96 + j.val) * 1 + 0) * 96 + k.val)
  omega

/-- The reference's sums over the 32 x 32 x 32 positions of a region, read at the region's index. -/
theorem v9_apply (x : (⟨S2x32x96x96x96, .f32⟩ : BufTy).Contents (Elt Ideal)) (b : Fin 2) (c : Fin 32) (d h w : Fin 3) :
    val_main_v9 (F := Ideal) x (ix5 b c d h w)
      = c0 + ∑ i : Fin 32, ∑ j : Fin 32, ∑ k : Fin 32, x (ix5 b c (at32 d i) (at32 h j) (at32 w k)) := by
  unfold val_main_v9 val_main_v8
  rw [hostReduceAdd_apply]
  refine (hostReduceAdd_357 _ _ _ b c d h w).trans ?_
  congr 1
  refine Finset.sum_congr rfl fun i _ => Finset.sum_congr rfl fun j _ => Finset.sum_congr rfl fun k _ => ?_
  exact split_apply x b c d i h j w k

/-- The same sums for the second argument's stages. -/
theorem v13_apply (x : (⟨S2x32x96x96x96, .f32⟩ : BufTy).Contents (Elt Ideal)) (b : Fin 2) (c : Fin 32) (d h w : Fin 3) :
    val_main_v13 (F := Ideal) x (ix5 b c d h w)
      = c0 + ∑ i : Fin 32, ∑ j : Fin 32, ∑ k : Fin 32, x (ix5 b c (at32 d i) (at32 h j) (at32 w k)) :=
  v9_apply x b c d h w

/-- The reference's region mean: the sum over the region from zero, divided by 32768. -/
theorem v11_apply (x : (⟨S2x32x96x96x96, .f32⟩ : BufTy).Contents (Elt Ideal)) (b : Fin 2) (c : Fin 32) (d h w : Fin 3) :
    val_main_v11 (F := Ideal) x (ix5 b c d h w) = flatMean (region (fun i j k => x (ix5 b c i j k)) d h w) := by
  rw [val_main_v11_apply, v9_apply, val_main_v10_apply]
  rfl

theorem v15_apply (x : (⟨S2x32x96x96x96, .f32⟩ : BufTy).Contents (Elt Ideal)) (b : Fin 2) (c : Fin 32) (d h w : Fin 3) :
    val_main_v15 (F := Ideal) x (ix5 b c d h w) = flatMean (region (fun i j k => x (ix5 b c i j k)) d h w) := by
  rw [val_main_v15_apply, v13_apply, val_main_v14_apply]
  rfl

/-- The reference's sum over the whole 96 x 96 x 96 volume, read at the one index of its unit axes. -/
theorem v1_apply (x : (⟨S2x32x96x96x96, .f32⟩ : BufTy).Contents (Elt Ideal)) (b : Fin 2) (c : Fin 32) :
    val_main_v1 (F := Ideal) x (ix5 b c 0 0 0)
      = c0 + ∑ i : Fin 96, ∑ j : Fin 96, ∑ k : Fin 96, x (ix5 b c i j k) := by
  unfold val_main_v1 val_main_v0
  rw [hostReduceAdd_apply]
  refine (hostReduceAdd_357 _ _ _ b c (0 : Fin 1) (0 : Fin 1) (0 : Fin 1)).trans ?_
  congr 1
  refine Finset.sum_congr rfl fun i _ => Finset.sum_congr rfl fun j _ => Finset.sum_congr rfl fun k _ => ?_
  exact unit_apply x b c i j k

theorem v5_apply (x : (⟨S2x32x96x96x96, .f32⟩ : BufTy).Contents (Elt Ideal)) (b : Fin 2) (c : Fin 32) :
    val_main_v5 (F := Ideal) x (ix5 b c 0 0 0)
      = c0 + ∑ i : Fin 96, ∑ j : Fin 96, ∑ k : Fin 96, x (ix5 b c i j k) :=
  v1_apply x b c

/-- The reference's whole-volume mean: the sum over the volume from zero, divided by 884736. -/
theorem v3_apply (x : (⟨S2x32x96x96x96, .f32⟩ : BufTy).Contents (Elt Ideal)) (b : Fin 2) (c : Fin 32) :
    val_main_v3 (F := Ideal) x (ix5 b c 0 0 0) = volMean (fun i j k => x (ix5 b c i j k)) := by
  rw [val_main_v3_apply, v1_apply, val_main_v2_apply]
  rfl

theorem v7_apply (x : (⟨S2x32x96x96x96, .f32⟩ : BufTy).Contents (Elt Ideal)) (b : Fin 2) (c : Fin 32) :
    val_main_v7 (F := Ideal) x (ix5 b c 0 0 0) = volMean (fun i j k => x (ix5 b c i j k)) := by
  rw [val_main_v7_apply, v5_apply, val_main_v6_apply]
  rfl

end Cert.RefPool

end
-- ==== Proof.KMean.lean ====
/-
  The kernel program's mean of the 27 region means, read at an index.

  The program sums a [2, 32, 3, 3, 3] array over its three trailing axes, broadcasts the [2, 32] result to
  [2, 32, 1, 1, 1] and divides by 27. A sum over the axes 2, 3 and 4 of a five-axis array, read at the two kept
  coordinates, is the triple sum over the three dropped coordinates: the indices that drop to a given pair are exactly
  those that agree with it on the two kept axes, and they are in bijection with the triples of dropped coordinates.
-/
import proofs.«152811_j61263413510186_2_alg».proof.Proof.Gen.KernelIdeal
import proofs.«152811_j61263413510186_2_alg».proof.Proof.Spec
import proofs.«152811_j61263413510186_2_alg».proof.Proof.LibAxisSums
import Idealize.ShloMosaic.Lib.IdealHost
import Idealize.ShloMosaic.Lib.Pipeline.Value

noncomputable section

namespace Cert.KMean

open Cert.KernelIdeal Cert.KernelIdeal.Gen Idealize.ShloMosaic Idealize.ShloMosaic.ValueIdx Cert.Pool Cert.LibAxisSums

/-- The program's mean of the 27 region means of one (batch, channel) pair: their sum from zero, divided by 27. -/
theorem kmean_apply (y : (⟨S2x32x3x3x3, .f32⟩ : BufTy).Contents (Elt Ideal)) (b : Fin 2) (c : Fin 32) :
    Host.divf (F := Ideal)
        (broadcastInDim S2x32x1x1x1 ![0, 1] bcast_S2x32_S2x32x1x1x1_0_1
          (Host.reduceAdd (F := Ideal) y (constant (F := Ideal) S_ .f32 0x00000000#32)
            reducesTo_S2x32x3x3x3_S2x32_d2_3_4 h_S_))
        (broadcastInDim S2x32x1x1x1 ![] bcast_S_S2x32x1x1x1 (constant (F := Ideal) S_ .f32 0x41D80000#32))
        (ix5 b c 0 0 0)
      = meanOfMeans (fun d h w => y (ix5 b c d h w)) := by
  rw [hostDivf_apply,
    broadcastInDim_apply ![0, 1] bcast_S2x32_S2x32x1x1x1_0_1 _ (ix5 b c 0 0 0) (ix2 b c)
      (fun a => match a with | ⟨0, _⟩ => rfl | ⟨1, _⟩ => rfl),
    broadcastInDim_scalar_apply, hostReduceAdd_apply, hostReduceAdd_234]
  rfl

end Cert.KMean

end
-- ==== Proof.PoolMath.lean ====
/-
  The real-number arithmetic that joins the two programs.

  When every entry of a region is a real number, dividing by 32 after each of the three axis sums is the same as
  dividing the whole sum by 32768 = 32 * 32 * 32; and when every entry of the volume is a real number, the mean of the
  27 region means is the mean of the whole volume, because the 96 positions of an axis are exactly the 3 * 32
  positions (region, offset) and 27 * 32768 = 884736. The hypothesis that the entries are real is needed: on the
  extended reals an infinite entry would make the two sides differ.
-/
import proofs.«152811_j61263413510186_2_alg».proof.Proof.Spec
import Mathlib.Algebra.BigOperators.Fin
import Mathlib.Tactic.Ring
import Mathlib.Tactic.NormNum

noncomputable section

namespace Cert.Pool

open Idealize.ShloMosaic

/-! ### The constants as real numbers -/

theorem c0_eq : c0 = 0 := by
  simp [Ideal.ofBits, Ideal.ieee]

theorem c32_eq : c32 = ((32 : ℝ) : EReal) := by
  simp [Ideal.ofBits, Ideal.ieee, -EReal.coe_mul]; norm_num

theorem c27_eq : c27 = ((27 : ℝ) : EReal) := by
  simp [Ideal.ofBits, Ideal.ieee, -EReal.coe_mul]; norm_num

theorem c32768_eq : c32768 = ((32768 : ℝ) : EReal) := by
  simp [Ideal.ofBits, Ideal.ieee, -EReal.coe_mul]; norm_num

theorem c884736_eq : c884736 = ((884736 : ℝ) : EReal) := by
  simp [Ideal.ofBits, Ideal.ieee, -EReal.coe_mul]; norm_num

/-! ### Coercion of a finite sum of reals -/

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### One region: nested division equals one division -/

theorem nested_eq_flat (X : Fin 32 → Fin 32 → Fin 32 → EReal) (hX : ∀ i j k, ∃ r : ℝ, X i j k = (r : EReal)) :
    nestedMean X = flatMean X := by
  choose r hr using hX
  have hXr : X = fun i j k => ((r i j k : ℝ) : EReal) := by
    funext i j k; exact hr i j k
  subst hXr
  unfold nestedMean flatMean
  rw [c0_eq, c32_eq, c32768_eq]
  simp only [Ideal.div_coe (show (32 : ℝ) ≠ 0 by norm_num), Ideal.div_coe (show (32768 : ℝ) ≠ 0 by norm_num),
    ← coe_sum, ← EReal.coe_mul, zero_add]
  congr 1
  simp only [← Finset.sum_mul]
  ring

/-! ### An axis of length 96 is three blocks of length 32 -/

/-- The pairs (region, offset) are exactly the positions along an axis of length 96. -/
def blockEquiv : Fin 3 × Fin 32 ≃ Fin 96 where
  toFun p := at32 p.1 p.2
  invFun a := (⟨a.val / 32, by omega⟩, ⟨a.val % 32, by omega⟩)
  left_inv := by
    rintro ⟨d, i⟩
    ext
    · simp only [at32_val]; omega
    · simp only [at32_val]; omega
  right_inv := by
    intro a
    ext
    simp only [at32_val]
    omega

/-- A sum over an axis of length 96, taken block by block. -/
theorem sum_fin96 (f : Fin 96 → ℝ) : ∑ a : Fin 96, f a = ∑ d : Fin 3, ∑ i : Fin 32, f (at32 d i) := by
  rw [← Equiv.sum_comp blockEquiv f, Fintype.sum_prod_type]
  rfl

/-- A triple sum over the volume, each axis taken block by block. -/
theorem sum3_fin96 (f : Fin 96 → Fin 96 → Fin 96 → ℝ) :
    ∑ a : Fin 96, ∑ b : Fin 96, ∑ c : Fin 96, f a b c
      = ∑ d : Fin 3, ∑ i : Fin 32, ∑ h : Fin 3, ∑ j : Fin 32, ∑ w : Fin 3, ∑ k : Fin 32,
          f (at32 d i) (at32 h j) (at32 w k) := by
  rw [sum_fin96]
  refine Finset.sum_congr rfl fun d _ => Finset.sum_congr rfl fun i _ => ?_
  rw [sum_fin96]
  refine Finset.sum_congr rfl fun h _ => Finset.sum_congr rfl fun j _ => ?_
  rw [sum_fin96]

/-- Bring the three region indices in front of the three offsets. -/
theorem sum_reorder (g : Fin 3 → Fin 32 → Fin 3 → Fin 32 → Fin 3 → Fin 32 → ℝ) :
    (∑ d : Fin 3, ∑ i : Fin 32, ∑ h : Fin 3, ∑ j : Fin 32, ∑ w : Fin 3, ∑ k : Fin 32, g d i h j w k)
      = ∑ d : Fin 3, ∑ h : Fin 3, ∑ w : Fin 3, ∑ i : Fin 32, ∑ j : Fin 32, ∑ k : Fin 32, g d i h j w k := by
  refine Finset.sum_congr rfl fun d _ => ?_
  rw [Finset.sum_comm]
  refine Finset.sum_congr rfl fun h _ => ?_
  have : ∀ i : Fin 32, (∑ j : Fin 32, ∑ w : Fin 3, ∑ k : Fin 32, g d i h j w k)
      = ∑ w : Fin 3, ∑ j : Fin 32, ∑ k : Fin 32, g d i h j w k := fun i => Finset.sum_comm
  simp only [this]
  rw [Finset.sum_comm]

/-! ### The whole volume: the mean of the region means -/

theorem meanOfMeans_flat (Y : Fin 96 → Fin 96 → Fin 96 → EReal) (hY : ∀ i j k, ∃ r : ℝ, Y i j k = (r : EReal)) :
    meanOfMeans (fun d h w => flatMean (region Y d h w)) = volMean Y := by
  choose s hs using hY
  have hYs : Y = fun i j k => ((s i j k : ℝ) : EReal) := by
    funext i j k; exact hs i j k
  subst hYs
  unfold meanOfMeans flatMean volMean region
  rw [c0_eq, c27_eq, c32768_eq, c884736_eq]
  simp only [Ideal.div_coe (show (27 : ℝ) ≠ 0 by norm_num), Ideal.div_coe (show (32768 : ℝ) ≠ 0 by norm_num),
    Ideal.div_coe (show (884736 : ℝ) ≠ 0 by norm_num), ← coe_sum, ← EReal.coe_mul, zero_add]
  congr 1
  -- over the reals: regroup the three axes block by block, then pull the common factor out of the sums
  rw [sum3_fin96, sum_reorder (fun d i h j w k => s (at32 d i) (at32 h j) (at32 w k))]
  simp only [← Finset.sum_mul]
  ring

end Cert.Pool

end
-- ==== Proof.Leaves.lean ====
/-
  Joining the leaves: the kernel's pooled arrays are the reference's pooled stages.

  Each (batch, channel) pair owns one 96 x 96 x 96 volume of the argument. The kernel's body, fed that volume, leaves at
  region (d, h, w) the region's mean taken one axis at a time; the reference's stage holds the same region's mean taken
  by one sum and one division. Every entry being a real number, the two means agree, so the two [2, 32, 3, 3, 3] arrays
  are equal. The kernel's program then takes the mean of a pair's 27 region means; applied to the reference's region
  means this is the reference's mean of the whole volume, because the 27 regions tile the volume and 27 * 32768 =
  884736.
-/
import proofs.«152811_j61263413510186_2_alg».proof.Proof.RefPool
import proofs.«152811_j61263413510186_2_alg».proof.Proof.KMean
import proofs.«152811_j61263413510186_2_alg».proof.Proof.PoolMath
import proofs.«152811_j61263413510186_2_alg».proof.Proof.PoolOps

noncomputable section

namespace Cert.Leaves

open Idealize.ShloMosaic Idealize.ShloMosaic.ValueIdx Cert.Pool

/-- The volume (b, ch) of the argument as one 96 x 96 x 96 block with a unit leading axis. -/
def vol (x : (⟨Cert.ReferenceIdeal.S2x32x96x96x96, .f32⟩ : BufTy).Contents (Elt Ideal)) (b : Fin 2) (ch : Fin 32) :
    Vec Ideal Cert.KernelIdeal.S1x96x96x96 .f32 :=
  fun y => x (ix5 b ch (y 1) (y 2) (y 3))

/-- An entry of the block is the argument's entry at the same three positions. -/
theorem vol_apply (x : (⟨Cert.ReferenceIdeal.S2x32x96x96x96, .f32⟩ : BufTy).Contents (Elt Ideal)) (b : Fin 2) (ch : Fin 32)
    (p q r : Fin 96) : vol x b ch (ix4 (0 : Fin 1) p q r) = x (ix5 b ch p q r) := rfl

/-- Every index of a [2, 32, 3, 3, 3] array is given by its five coordinates. -/
theorem exists_ix5 (i : (⟨5, ![2, 32, 3, 3, 3]⟩ : Shape).Idx) :
    ∃ (b : Fin 2) (ch : Fin 32) (d h w : Fin 3), i = ix5 b ch d h w :=
  ⟨_, _, _, _, _, eq_ix5 i⟩

/-- Every index of a [2, 32, 1, 1, 1] array is given by its two leading coordinates. -/
theorem exists_ix5_unit (i : (⟨5, ![2, 32, 1, 1, 1]⟩ : Shape).Idx) :
    ∃ (b : Fin 2) (c : Fin 32), i = ix5 b c (0 : Fin 1) (0 : Fin 1) (0 : Fin 1) := by
  refine ⟨i 0, i 1, funext fun g => ?_⟩
  match g with
  | ⟨0, _⟩ => rfl
  | ⟨1, _⟩ => rfl
  | ⟨2, _⟩ => exact Fin.eq_zero (i 2 : Fin 1)
  | ⟨3, _⟩ => exact Fin.eq_zero (i 3 : Fin 1)
  | ⟨4, _⟩ => exact Fin.eq_zero (i 4 : Fin 1)

/-- An array that holds, at (b, ch, d, h, w), the axis-by-axis mean of region (d, h, w) of volume (b, ch), is the
    reference's array of region means. -/
theorem pooled_eq_flat (x : (⟨Cert.ReferenceIdeal.S2x32x96x96x96, .f32⟩ : BufTy).Contents (Elt Ideal))
    (hx : ∀ i, ∃ r : ℝ, x i = (r : EReal))
    (A : (⟨Cert.KernelIdeal.S2x32x3x3x3, .f32⟩ : BufTy).Contents (Elt Ideal))
    (body : Vec Ideal Cert.KernelIdeal.S1x96x96x96 .f32 → FVec Ideal Cert.KernelIdeal.S1x3x3x3 .f32)
    (hbody : ∀ (X : Vec Ideal Cert.KernelIdeal.S1x96x96x96 .f32) (d h w : Fin 3),
      body X (ix4 0 d h w) = nestedMean (fun i j k => X (ix4 0 (at32 d i) (at32 h j) (at32 w k))))
    (hA : ∀ (b : Fin 2) (ch : Fin 32) (d h w : Fin 3), A (ix5 b ch d h w) = body (vol x b ch) (ix4 0 d h w))
    (b : Fin 2) (ch : Fin 32) (d h w : Fin 3) :
    A (ix5 b ch d h w) = flatMean (region (fun i j k => x (ix5 b ch i j k)) d h w) := by
  refine (hA b ch d h w).trans ?_
  refine (hbody _ d h w).trans ?_
  exact nested_eq_flat _ (fun i j k => hx (ix5 b ch (at32 d i) (at32 h j) (at32 w k)))

theorem pooled_eq_v11 (x : (⟨Cert.ReferenceIdeal.S2x32x96x96x96, .f32⟩ : BufTy).Contents (Elt Ideal))
    (hx : ∀ i, ∃ r : ℝ, x i = (r : EReal))
    (A : (⟨Cert.KernelIdeal.S2x32x3x3x3, .f32⟩ : BufTy).Contents (Elt Ideal))
    (body : Vec Ideal Cert.KernelIdeal.S1x96x96x96 .f32 → FVec Ideal Cert.KernelIdeal.S1x3x3x3 .f32)
    (hbody : ∀ (X : Vec Ideal Cert.KernelIdeal.S1x96x96x96 .f32) (d h w : Fin 3),
      body X (ix4 0 d h w) = nestedMean (fun i j k => X (ix4 0 (at32 d i) (at32 h j) (at32 w k))))
    (hA : ∀ (b : Fin 2) (ch : Fin 32) (d h w : Fin 3), A (ix5 b ch d h w) = body (vol x b ch) (ix4 0 d h w)) :
    A = Cert.ReferenceIdeal.Read.val_main_v11 (F := Ideal) x := by
  funext i
  obtain ⟨b, ch, d, h, w, rfl⟩ := exists_ix5 i
  refine (pooled_eq_flat x hx A body hbody hA b ch d h w).trans ?_
  exact (Cert.RefPool.v11_apply x b ch d h w).symm

theorem pooled_eq_v15 (x : (⟨Cert.ReferenceIdeal.S2x32x96x96x96, .f32⟩ : BufTy).Contents (Elt Ideal))
    (hx : ∀ i, ∃ r : ℝ, x i = (r : EReal))
    (A : (⟨Cert.KernelIdeal.S2x32x3x3x3, .f32⟩ : BufTy).Contents (Elt Ideal))
    (body : Vec Ideal Cert.KernelIdeal.S1x96x96x96 .f32 → FVec Ideal Cert.KernelIdeal.S1x3x3x3 .f32)
    (hbody : ∀ (X : Vec Ideal Cert.KernelIdeal.S1x96x96x96 .f32) (d h w : Fin 3),
      body X (ix4 0 d h w) = nestedMean (fun i j k => X (ix4 0 (at32 d i) (at32 h j) (at32 w k))))
    (hA : ∀ (b : Fin 2) (ch : Fin 32) (d h w : Fin 3), A (ix5 b ch d h w) = body (vol x b ch) (ix4 0 d h w)) :
    A = Cert.ReferenceIdeal.Read.val_main_v15 (F := Ideal) x := by
  funext i
  obtain ⟨b, ch, d, h, w, rfl⟩ := exists_ix5 i
  refine (pooled_eq_flat x hx A body hbody hA b ch d h w).trans ?_
  exact (Cert.RefPool.v15_apply x b ch d h w).symm

/-- The mean of a pair's 27 flat region means is the mean of the pair's whole volume. -/
theorem mean27_flat (x : (⟨Cert.ReferenceIdeal.S2x32x96x96x96, .f32⟩ : BufTy).Contents (Elt Ideal))
    (hx : ∀ i, ∃ r : ℝ, x i = (r : EReal))
    (y : (⟨Cert.KernelIdeal.S2x32x3x3x3, .f32⟩ : BufTy).Contents (Elt Ideal))
    (hy : ∀ (b : Fin 2) (c : Fin 32) (d h w : Fin 3),
      y (ix5 b c d h w) = flatMean (region (fun i j k => x (ix5 b c i j k)) d h w))
    (b : Fin 2) (c : Fin 32) :
    Cert.PoolOps.mean27 y (ix5 b c 0 0 0) = volMean (fun i j k => x (ix5 b c i j k)) := by
  refine (Cert.KMean.kmean_apply y b c).trans ?_
  have e : (fun d h w => y (ix5 b c d h w))
      = fun d h w => flatMean (region (fun i j k => x (ix5 b c i j k)) d h w) := by
    funext d h w; exact hy b c d h w
  refine (congrArg meanOfMeans e).trans ?_
  exact meanOfMeans_flat _ (fun i j k => hx (ix5 b c i j k))

theorem kmean_eq_v3 (x : (⟨Cert.ReferenceIdeal.S2x32x96x96x96, .f32⟩ : BufTy).Contents (Elt Ideal))
    (hx : ∀ i, ∃ r : ℝ, x i = (r : EReal)) :
    Cert.PoolOps.mean27 (Cert.ReferenceIdeal.Read.val_main_v11 (F := Ideal) x) = Cert.ReferenceIdeal.Read.val_main_v3 (F := Ideal) x := by
  funext i
  obtain ⟨b, c, rfl⟩ := exists_ix5_unit i
  refine (mean27_flat x hx _ (Cert.RefPool.v11_apply x) b c).trans ?_
  exact (Cert.RefPool.v3_apply x b c).symm

theorem kmean_eq_v7 (x : (⟨Cert.ReferenceIdeal.S2x32x96x96x96, .f32⟩ : BufTy).Contents (Elt Ideal))
    (hx : ∀ i, ∃ r : ℝ, x i = (r : EReal)) :
    Cert.PoolOps.mean27 (Cert.ReferenceIdeal.Read.val_main_v15 (F := Ideal) x) = Cert.ReferenceIdeal.Read.val_main_v7 (F := Ideal) x := by
  funext i
  obtain ⟨b, c, rfl⟩ := exists_ix5_unit i
  refine (mean27_flat x hx _ (Cert.RefPool.v15_apply x) b c).trans ?_
  exact (Cert.RefPool.v7_apply x b c).symm

end Cert.Leaves

end
-- ==== Proof.ArrI.lean ====
/-
  The kernel's two output arrays after the run, read at an index.

  The region runs over 64 points. At point t it reads volume t (96 x 96 x 96) of each input array and overwrites block
  t (3 x 3 x 3) of each output array with the body's value of that volume. The output blocks tile their arrays — the
  block of point t is exactly the indices whose leading coordinate is t — so each output array ends as one function of
  the matching input array: entry (n, d, h, w) is the body's value at (0, d, h, w) of volume n. The input arrays are the
  arguments reshaped from [2, 32, …] to [64, …], and the outputs are reshaped back, so volume 32 b + ch is the volume
  of batch b and channel ch: a reshape keeps the row-major position, which is linear arithmetic in the coordinates.
-/
import proofs.«152811_j61263413510186_2_alg».proof.Proof.FrameI
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Body Cert.KernelIdeal.HF Idealize.ShloMosaic Idealize.ShloMosaic.TcCoe Idealize.ShloMosaic.ValueIdx Idealize.SL.Sem

variable {F : FTy → Type} [FloatOps F] (m : (ℓ : Loc nD τ sig) → Buf (Elt F) ℓ)

/-- The four zero offsets of a whole block, as the constant function. -/
theorem zeros4 : (![0, 0, 0, 0] : Fin 4 → Nat) = fun _ => 0 := funext fun a => by fin_cases a <;> rfl

/-- The first output array as one function of the first input array: entry (n, d, h, w) is the body's value at
    (0, d, h, w) of the input's volume number n. -/
def G2 (A : S64x96x96x96.Idx → Elt F .f32) : S64x3x3x3.Idx → Elt F .f32 :=
  fun i => body2 (F := F) (fun y : S1x96x96x96.Idx => A (ix4 (i 0) (y 1) (y 2) (y 3))) (ix4 0 (i 1) (i 2) (i 3))

/-- The body's value of a block is the array function's value, when the block is the input's volume number `i 0` and the
    position in the output block is `i`'s last three coordinates. -/
theorem body2_at (A : S64x96x96x96.Idx → Elt F .f32) (x : Vec F S1x96x96x96 .f32) (j : S1x3x3x3.Idx) (i : S64x3x3x3.Idx)
    (hx : ∀ y : S1x96x96x96.Idx, x y = A (ix4 (i 0) (y 1) (y 2) (y 3)))
    (h1 : (i 1).val = (j 1).val) (h2 : (i 2).val = (j 2).val) (h3 : (i 3).val = (j 3).val) :
    body2 x j = G2 A i := by
  unfold G2
  have ex : x = fun y : S1x96x96x96.Idx => A (ix4 (i 0) (y 1) (y 2) (y 3)) := funext hx
  have ej : j = ix4 0 (i 1) (i 2) (i 3) := by
    funext a; apply Fin.ext
    match a with
    | ⟨0, _⟩ => have hj : (j 0).val < 1 := (j 0).isLt; show (j 0).val = 0; omega
    | ⟨1, _⟩ => exact h1.symm
    | ⟨2, _⟩ => exact h2.symm
    | ⟨3, _⟩ => exact h3.symm
  subst ex
  exact congrArg (body2 (F := F) _) ej

/-- At point `t` of the grid every window's block index is (t, 0, 0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- What point `t` writes back to the first output array is block `t` of the array function of the first input array. -/
theorem flushed2_eq (c : Dev nD) (t : Fin cfg0.N) :
    (dats m 0 c).flushed 2 t = ((cfg0.win 2).blk t).view.read (Elt F) (G2 (V m c main_v0)) := by
  show (cfg0.win 2).cut (grid0.coords t) ((dats m 0 c).after 2 t) = _
  rw [after0_2]
  unfold out0_2
  rw [View.canon_unit_zero zeros4]
  funext j
  show body2 (iblk m c 0 t) j = G2 (V m c main_v0) (((cfg0.win 2).blk t).view.emb j)
  obtain ⟨e00, e01, e02, e03, e10, e11, e12, e13, e20, e21, e22, e23, e30, e31, e32, e33⟩ := idx_facts t
  refine body2_at _ _ _ _ (fun y => ?_) ?_ ?_ ?_
  · show V m c main_v0 (((cfg0.win 0).blk t).view.emb y) = _
    refine congrArg (V m c main_v0) (funext fun a => Fin.ext ?_)
    match a with
    | ⟨0, _⟩ =>
      show win0_0.index t (0 : Fin 4) * 1 + 1 * (y 0).val = win0_2.index t (0 : Fin 4) * 1 + 1 * (j 0).val
      have hy : (y 0).val < 1 := (y 0).isLt
      have hj : (j 0).val < 1 := (j 0).isLt
      omega
    | ⟨1, _⟩ => show win0_0.index t (1 : Fin 4) * 96 + 1 * (y 1).val = (y 1).val; omega
    | ⟨2, _⟩ => show win0_0.index t (2 : Fin 4) * 96 + 1 * (y 2).val = (y 2).val; omega
    | ⟨3, _⟩ => show win0_0.index t (3 : Fin 4) * 96 + 1 * (y 3).val = (y 3).val; omega
  · show win0_2.index t (1 : Fin 4) * 3 + 1 * (j 1).val = (j 1).val; omega
  · show win0_2.index t (2 : Fin 4) * 3 + 1 * (j 2).val = (j 2).val; omega
  · show win0_2.index t (3 : Fin 4) * 3 + 1 * (j 3).val = (j 3).val; omega

/-- An index of the first output array is in point `t`'s block iff each coordinate is in the block's range on its axis. -/
theorem mem_blk2 (t : Fin cfg0.N) (i : S64x3x3x3.Idx) :
    i ∈ ((cfg0.win 2).blk t).view.set ↔ ∀ a : Fin 4, win0_2.index t a * S1x3x3x3.size a ≤ (i a).val ∧ (i a).val < win0_2.index t a * S1x3x3x3.size a + S1x3x3x3.size a := by
  show i ∈ ((View.whole main_v2_0).slice (win0_2.rect t)).set ↔ _
  rw [View.set_slice_whole, Rect.mem_set_unit]
  exact Iff.rfl

/-- Every index of the first output array is in the block of the point numbered by its leading coordinate. -/
theorem cover2 (i : S64x3x3x3.Idx) : ∃ t : Fin cfg0.N, (cfg0.win 2).flush t = true ∧ i ∈ ((cfg0.win 2).blk t).view.set := by
  have hi0 : (i 0).val < 64 := (i 0).isLt
  have hi1 : (i 1).val < 3 := (i 1).isLt
  have hi2 : (i 2).val < 3 := (i 2).isLt
  have hi3 : (i 3).val < 3 := (i 3).isLt
  have hN : (i 0).val < cfg0.N := by rw [show cfg0.N = 64 from N_0]; exact hi0
  obtain ⟨e00, e01, e02, e03, e10, e11, e12, e13, e20, e21, e22, e23, e30, e31, e32, e33⟩ := idx_facts ⟨(i 0).val, hN⟩
  have e20' : win0_2.index ⟨(i 0).val, hN⟩ (0 : Fin 4) = (i 0).val := e20
  refine ⟨⟨(i 0).val, hN⟩, flush0_2 _, ?_⟩
  rw [mem_blk2]
  intro a
  match a with
  | ⟨0, _⟩ => show win0_2.index ⟨(i 0).val, hN⟩ (0 : Fin 4) * 1 ≤ (i 0).val ∧ (i 0).val < win0_2.index ⟨(i 0).val, hN⟩ (0 : Fin 4) * 1 + 1; omega
  | ⟨1, _⟩ => show win0_2.index ⟨(i 0).val, hN⟩ (1 : Fin 4) * 3 ≤ (i 1).val ∧ (i 1).val < win0_2.index ⟨(i 0).val, hN⟩ (1 : Fin 4) * 3 + 3; omega
  | ⟨2, _⟩ => show win0_2.index ⟨(i 0).val, hN⟩ (2 : Fin 4) * 3 ≤ (i 2).val ∧ (i 2).val < win0_2.index ⟨(i 0).val, hN⟩ (2 : Fin 4) * 3 + 3; omega
  | ⟨3, _⟩ => show win0_2.index ⟨(i 0).val, hN⟩ (3 : Fin 4) * 3 ≤ (i 3).val ∧ (i 3).val < win0_2.index ⟨(i 0).val, hN⟩ (3 : Fin 4) * 3 + 3; omega

/-- The first output array after the run is the array function of the first input array as the region finds it. -/
theorem final2 (c : Dev nD) : (dats m 0 c).arrAt 2 cfg0.N = G2 (V m c main_v0) :=
  (dats m 0 c).arrAt_eq_of_cover 2 (G2 (V m c main_v0)) (fun t _ => flushed2_eq m c t) cover2

/-- The first input array as the region finds it: the first argument, reshaped. -/
theorem V_main_v0 (c : Dev nD) : (V m c main_v0 : S64x96x96x96.Idx → Elt F .f32)
    = shapeCast S64x96x96x96 (m ((c : Thread nD τ).loc main_arg0)) shapeCasts_S2x32x96x96x96_S64x96x96x96 := by
  dsimp only [V, V0]
  simp only [hostOps0, List.flatten_cons, List.flatten_nil, List.append_nil, List.cons_append, List.nil_append]
  after_results
  rfl

/-- The reshape of an argument to 64 volumes, read at an index: volume `32 b + ch` is the volume of batch `b` and
    channel `ch` (a reshape keeps the row-major position). -/
theorem fold_apply {α : Type} (x : S2x32x96x96x96.Idx → α) (b : Fin 2) (ch : Fin 32) (p q r : Fin 96) (n : Fin 64)
    (hn : n.val = 32 * b.val + ch.val) :
    shapeCast S64x96x96x96 x shapeCasts_S2x32x96x96x96_S64x96x96x96 (ix4 n p q r) = x (ix5 b ch p q r) := by
  refine shapeCast_apply x _ _ _ ?_
  rw [Shape.rowMajor_val_five, Shape.rowMajor_val_four]
  show (((b.val * 32 + ch.val) * 96 + p.val) * 96 + q.val) * 96 + r.val = ((n.val * 96 + p.val) * 96 + q.val) * 96 + r.val
  omega

/-- The reshape of an output array of 64 blocks to batches and channels, read at an index. -/
theorem unfold_apply {α : Type} (y : S64x3x3x3.Idx → α) (b : Fin 2) (ch : Fin 32) (d h w : Fin 3) (n : Fin 64)
    (hn : n.val = 32 * b.val + ch.val) :
    shapeCast S2x32x3x3x3 y shapeCasts_S64x3x3x3_S2x32x3x3x3 (ix5 b ch d h w) = y (ix4 n d h w) := by
  refine shapeCast_apply y _ _ _ ?_
  rw [Shape.rowMajor_val_five, Shape.rowMajor_val_four]
  show ((n.val * 3 + d.val) * 3 + h.val) * 3 + w.val = (((b.val * 32 + ch.val) * 3 + d.val) * 3 + h.val) * 3 + w.val
  omega

/-- Entry (b, ch, d, h, w) of the first output array, viewed by batch and channel, is the body's value at (0, d, h, w) of
    the volume (b, ch) of the first argument. -/
theorem pooled2_apply (c : Dev nD) (b : Fin 2) (ch : Fin 32) (d h w : Fin 3) :
    (shapeCast S2x32x3x3x3 ((dats m 0 c).arrAt 2 cfg0.N) shapeCasts_S64x3x3x3_S2x32x3x3x3 : FVec F S2x32x3x3x3 .f32) (ix5 b ch d h w)
      = body2 (F := F) (fun y : S1x96x96x96.Idx => m ((c : Thread nD τ).loc main_arg0) (ix5 b ch (y 1) (y 2) (y 3))) (ix4 0 d h w) := by
  have hb : b.val < 2 := b.isLt
  have hch : ch.val < 32 := ch.isLt
  have hn : 32 * b.val + ch.val < 64 := by omega
  rw [final2, unfold_apply _ b ch d h w ⟨32 * b.val + ch.val, hn⟩ rfl, V_main_v0]
  show body2 (F := F) (fun y : S1x96x96x96.Idx => shapeCast S64x96x96x96 (m ((c : Thread nD τ).loc main_arg0)) shapeCasts_S2x32x96x96x96_S64x96x96x96
      (ix4 (⟨32 * b.val + ch.val, hn⟩ : Fin 64) (y 1) (y 2) (y 3))) (ix4 0 d h w) = _
  refine congrArg (fun x => body2 (F := F) x (ix4 0 d h w)) (funext fun y => ?_)
  exact fold_apply _ b ch (y 1) (y 2) (y 3) ⟨32 * b.val + ch.val, hn⟩ rfl

/-! ## The second output array, likewise from the second input array -/

/-- The second output array as one function of the second input array. -/
def G3 (A : S64x96x96x96.Idx → Elt F .f32) : S64x3x3x3.Idx → Elt F .f32 :=
  fun i => body3 (F := F) (fun y : S1x96x96x96.Idx => A (ix4 (i 0) (y 1) (y 2) (y 3))) (ix4 0 (i 1) (i 2) (i 3))

theorem body3_at (A : S64x96x96x96.Idx → Elt F .f32) (x : Vec F S1x96x96x96 .f32) (j : S1x3x3x3.Idx) (i : S64x3x3x3.Idx)
    (hx : ∀ y : S1x96x96x96.Idx, x y = A (ix4 (i 0) (y 1) (y 2) (y 3)))
    (h1 : (i 1).val = (j 1).val) (h2 : (i 2).val = (j 2).val) (h3 : (i 3).val = (j 3).val) :
    body3 x j = G3 A i := by
  unfold G3
  have ex : x = fun y : S1x96x96x96.Idx => A (ix4 (i 0) (y 1) (y 2) (y 3)) := funext hx
  have ej : j = ix4 0 (i 1) (i 2) (i 3) := by
    funext a; apply Fin.ext
    match a with
    | ⟨0, _⟩ => have hj : (j 0).val < 1 := (j 0).isLt; show (j 0).val = 0; omega
    | ⟨1, _⟩ => exact h1.symm
    | ⟨2, _⟩ => exact h2.symm
    | ⟨3, _⟩ => exact h3.symm
  subst ex
  exact congrArg (body3 (F := F) _) ej

theorem flushed3_eq (c : Dev nD) (t : Fin cfg0.N) :
    (dats m 0 c).flushed 3 t = ((cfg0.win 3).blk t).view.read (Elt F) (G3 (V m c main_v1)) := by
  show (cfg0.win 3).cut (grid0.coords t) ((dats m 0 c).after 3 t) = _
  rw [after0_3]
  unfold out0_3
  rw [View.canon_unit_zero zeros4]
  funext j
  show body3 (iblk m c 1 t) j = G3 (V m c main_v1) (((cfg0.win 3).blk t).view.emb j)
  obtain ⟨e00, e01, e02, e03, e10, e11, e12, e13, e20, e21, e22, e23, e30, e31, e32, e33⟩ := idx_facts t
  refine body3_at _ _ _ _ (fun y => ?_) ?_ ?_ ?_
  · show V m c main_v1 (((cfg0.win 1).blk t).view.emb y) = _
    refine congrArg (V m c main_v1) (funext fun a => Fin.ext ?_)
    match a with
    | ⟨0, _⟩ =>
      show win0_1.index t (0 : Fin 4) * 1 + 1 * (y 0).val = win0_3.index t (0 : Fin 4) * 1 + 1 * (j 0).val
      have hy : (y 0).val < 1 := (y 0).isLt
      have hj : (j 0).val < 1 := (j 0).isLt
      omega
    | ⟨1, _⟩ => show win0_1.index t (1 : Fin 4) * 96 + 1 * (y 1).val = (y 1).val; omega
    | ⟨2, _⟩ => show win0_1.index t (2 : Fin 4) * 96 + 1 * (y 2).val = (y 2).val; omega
    | ⟨3, _⟩ => show win0_1.index t (3 : Fin 4) * 96 + 1 * (y 3).val = (y 3).val; omega
  · show win0_3.index t (1 : Fin 4) * 3 + 1 * (j 1).val = (j 1).val; omega
  · show win0_3.index t (2 : Fin 4) * 3 + 1 * (j 2).val = (j 2).val; omega
  · show win0_3.index t (3 : Fin 4) * 3 + 1 * (j 3).val = (j 3).val; omega

theorem mem_blk3 (t : Fin cfg0.N) (i : S64x3x3x3.Idx) :
    i ∈ ((cfg0.win 3).blk t).view.set ↔ ∀ a : Fin 4, win0_3.index t a * S1x3x3x3.size a ≤ (i a).val ∧ (i a).val < win0_3.index t a * S1x3x3x3.size a + S1x3x3x3.size a := by
  show i ∈ ((View.whole main_v2_1).slice (win0_3.rect t)).set ↔ _
  rw [View.set_slice_whole, Rect.mem_set_unit]
  exact Iff.rfl

theorem cover3 (i : S64x3x3x3.Idx) : ∃ t : Fin cfg0.N, (cfg0.win 3).flush t = true ∧ i ∈ ((cfg0.win 3).blk t).view.set := by
  have hi0 : (i 0).val < 64 := (i 0).isLt
  have hi1 : (i 1).val < 3 := (i 1).isLt
  have hi2 : (i 2).val < 3 := (i 2).isLt
  have hi3 : (i 3).val < 3 := (i 3).isLt
  have hN : (i 0).val < cfg0.N := by rw [show cfg0.N = 64 from N_0]; exact hi0
  obtain ⟨e00, e01, e02, e03, e10, e11, e12, e13, e20, e21, e22, e23, e30, e31, e32, e33⟩ := idx_facts ⟨(i 0).val, hN⟩
  have e30' : win0_3.index ⟨(i 0).val, hN⟩ (0 : Fin 4) = (i 0).val := e30
  refine ⟨⟨(i 0).val, hN⟩, flush0_3 _, ?_⟩
  rw [mem_blk3]
  intro a
  match a with
  | ⟨0, _⟩ => show win0_3.index ⟨(i 0).val, hN⟩ (0 : Fin 4) * 1 ≤ (i 0).val ∧ (i 0).val < win0_3.index ⟨(i 0).val, hN⟩ (0 : Fin 4) * 1 + 1; omega
  | ⟨1, _⟩ => show win0_3.index ⟨(i 0).val, hN⟩ (1 : Fin 4) * 3 ≤ (i 1).val ∧ (i 1).val < win0_3.index ⟨(i 0).val, hN⟩ (1 : Fin 4) * 3 + 3; omega
  | ⟨2, _⟩ => show win0_3.index ⟨(i 0).val, hN⟩ (2 : Fin 4) * 3 ≤ (i 2).val ∧ (i 2).val < win0_3.index ⟨(i 0).val, hN⟩ (2 : Fin 4) * 3 + 3; omega
  | ⟨3, _⟩ => show win0_3.index ⟨(i 0).val, hN⟩ (3 : Fin 4) * 3 ≤ (i 3).val ∧ (i 3).val < win0_3.index ⟨(i 0).val, hN⟩ (3 : Fin 4) * 3 + 3; omega

theorem final3 (c : Dev nD) : (dats m 0 c).arrAt 3 cfg0.N = G3 (V m c main_v1) :=
  (dats m 0 c).arrAt_eq_of_cover 3 (G3 (V m c main_v1)) (fun t _ => flushed3_eq m c t) cover3

theorem V_main_v1 (c : Dev nD) : (V m c main_v1 : S64x96x96x96.Idx → Elt F .f32)
    = shapeCast S64x96x96x96 (m ((c : Thread nD τ).loc main_arg1)) shapeCasts_S2x32x96x96x96_S64x96x96x96 := by
  dsimp only [V, V0]
  simp only [hostOps0, List.flatten_cons, List.flatten_nil, List.append_nil, List.cons_append, List.nil_append]
  after_results
  rfl

/-- Entry (b, ch, d, h, w) of the second output array, viewed by batch and channel, is the body's value at (0, d, h, w) of
    the volume (b, ch) of the second argument. -/
theorem pooled3_apply (c : Dev nD) (b : Fin 2) (ch : Fin 32) (d h w : Fin 3) :
    (shapeCast S2x32x3x3x3 ((dats m 0 c).arrAt 3 cfg0.N) shapeCasts_S64x3x3x3_S2x32x3x3x3 : FVec F S2x32x3x3x3 .f32) (ix5 b ch d h w)
      = body3 (F := F) (fun y : S1x96x96x96.Idx => m ((c : Thread nD τ).loc main_arg1) (ix5 b ch (y 1) (y 2) (y 3))) (ix4 0 d h w) := by
  have hb : b.val < 2 := b.isLt
  have hch : ch.val < 32 := ch.isLt
  have hn : 32 * b.val + ch.val < 64 := by omega
  rw [final3, unfold_apply _ b ch d h w ⟨32 * b.val + ch.val, hn⟩ rfl, V_main_v1]
  show body3 (F := F) (fun y : S1x96x96x96.Idx => shapeCast S64x96x96x96 (m ((c : Thread nD τ).loc main_arg1)) shapeCasts_S2x32x96x96x96_S64x96x96x96
      (ix4 (⟨32 * b.val + ch.val, hn⟩ : Fin 64) (y 1) (y 2) (y 3))) (ix4 0 d h w) = _
  refine congrArg (fun x => body3 (F := F) x (ix4 0 d h w)) (funext fun y => ?_)
  exact fold_apply _ b ch (y 1) (y 2) (y 3) ⟨32 * b.val + ch.val, hn⟩ rfl

end Cert.KernelIdeal.Arr

end
-- ==== Proof.PoolClean.lean ====
/-
  What the kernel body stores into an output block, read at one index, at the ideal instance.

  The body cuts its 96 x 96 x 96 input block into 27 corners of 32 x 32 x 32. Of each corner it takes the mean one axis
  at a time: the sums along the last axis, each divided by 32; of those the sums along the middle axis, each divided
  by 32; of those the sum along the first axis, divided by 32. The 27 numbers are laid three to a row, three rows to a
  table, three tables to a block with a leading unit axis. First the body is restated in that regular form (the same
  operations in the same order); then each layer of the stacking is read at an index, each of the three sums is read
  as a sum over 32 coordinates, and a corner's entry (i, j, k) is the block's entry at the region's offset plus
  (i, j, k). Together: the stored block at (0, d, h, w) is the nested mean of region (d, h, w).
-/
import proofs.«152811_j61263413510186_2_alg».proof.Proof.BodyI
import proofs.«152811_j61263413510186_2_alg».proof.Proof.Spec
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Pool

section Regular
variable {F : FTy → Type} [FloatOps F]

/-- The innermost stage: a corner's sums along its last axis, each divided by 32, kept as a column. -/
def meanW (v : Vec F S1x32x32x32 .f32) : FVec F S32x32x1 .f32 :=
  divf (shapeCast S32x32x1 (multiReduction .add [2] S32x32 (shapeCast S32x32x32 v shapeCasts_S1x32x32x32_S32x32x32)
      0x00000000#32 reduces_S32x32x32_S32x32 (.inl rfl) rfl) shapeCasts_S32x32_S32x32x1)
    (broadcast S32x32x1 (Scalar.ofBits .f32 0x42000000#32))

/-- The middle stage: sums along the middle axis, each divided by 32. -/
def meanH (m : FVec F S32x32x1 .f32) : FVec F S32x1x1 .f32 :=
  divf (shapeCast S32x1x1 (multiReduction .add [1] S32x1 m 0x00000000#32 reduces_S32x32x1_S32x1 (.inl rfl) rfl)
      shapeCasts_S32x1_S32x1x1)
    (broadcast S32x1x1 (Scalar.ofBits .f32 0x42000000#32))

/-- The outer stage: the sum along the first axis, divided by 32. -/
def meanD (m : FVec F S32x1x1 .f32) : FVec F S1x1x1 .f32 :=
  divf (shapeCast S1x1x1 (multiReduction .add [0] S1x1 m 0x00000000#32 reduces_S32x1x1_S1x1 (.inl rfl) rfl)
      shapeCasts_S1x1_S1x1x1)
    (broadcast S1x1x1 (Scalar.ofBits .f32 0x42000000#32))

/-- One corner's mean, axis by axis. -/
def regMean (v : Vec F S1x32x32x32 .f32) : F .f32 :=
  extractAt ![0, 0, 0] (meanD (meanH (meanW v))) inpos_S1x1x1_p0_0_0

/-- Three numbers laid along one axis. -/
def row3 (a b c : F .f32) : FVec F S3 .f32 :=
  concatenate S3 0 [⟨S1, broadcast S1 a⟩, ⟨S1, broadcast S1 b⟩, ⟨S1, broadcast S1 c⟩] concatenates_S1_S1_S1_S3_d0

/-- Three rows stacked into a 3 x 3 table. -/
def mat3 (r0 r1 r2 : FVec F S3 .f32) : FVec F S3x3 .f32 :=
  concatenate S3x3 0 [⟨S1x3, shapeCast S1x3 r0 shapeCasts_S3_S1x3⟩, ⟨S1x3, shapeCast S1x3 r1 shapeCasts_S3_S1x3⟩,
    ⟨S1x3, shapeCast S1x3 r2 shapeCasts_S3_S1x3⟩] concatenates_S1x3_S1x3_S1x3_S3x3_d0

/-- Three tables stacked into a 3 x 3 x 3 block, with a leading unit axis. -/
def cube3 (m0 m1 m2 : FVec F S3x3 .f32) : FVec F S1x3x3x3 .f32 :=
  shapeCast S1x3x3x3 (concatenate S3x3x3 0 [⟨S1x3x3, shapeCast S1x3x3 m0 shapeCasts_S3x3_S1x3x3⟩,
    ⟨S1x3x3, shapeCast S1x3x3 m1 shapeCasts_S3x3_S1x3x3⟩, ⟨S1x3x3, shapeCast S1x3x3 m2 shapeCasts_S3x3_S1x3x3⟩]
    concatenates_S1x3x3_S1x3x3_S1x3x3_S3x3x3_d0) shapeCasts_S3x3x3_S1x3x3x3

/-- The 27 corner means of a block, stacked by (d, h, w). -/
def pool (x : Vec F S1x96x96x96 .f32) : FVec F S1x3x3x3 .f32 :=
  cube3
    (mat3 (row3 (regMean (View.ld x r0_0_0_0)) (regMean (View.ld x r0_0_0_32)) (regMean (View.ld x r0_0_0_64)))
          (row3 (regMean (View.ld x r0_0_32_0)) (regMean (View.ld x r0_0_32_32)) (regMean (View.ld x r0_0_32_64)))
          (row3 (regMean (View.ld x r0_0_64_0)) (regMean (View.ld x r0_0_64_32)) (regMean (View.ld x r0_0_64_64))))
    (mat3 (row3 (regMean (View.ld x r0_32_0_0)) (regMean (View.ld x r0_32_0_32)) (regMean (View.ld x r0_32_0_64)))
          (row3 (regMean (View.ld x r0_32_32_0)) (regMean (View.ld x r0_32_32_32)) (regMean (View.ld x r0_32_32_64)))
          (row3 (regMean (View.ld x r0_32_64_0)) (regMean (View.ld x r0_32_64_32)) (regMean (View.ld x r0_32_64_64))))
    (mat3 (row3 (regMean (View.ld x r0_64_0_0)) (regMean (View.ld x r0_64_0_32)) (regMean (View.ld x r0_64_0_64)))
          (row3 (regMean (View.ld x r0_64_32_0)) (regMean (View.ld x r0_64_32_32)) (regMean (View.ld x r0_64_32_64)))
          (row3 (regMean (View.ld x r0_64_64_0)) (regMean (View.ld x r0_64_64_32)) (regMean (View.ld x r0_64_64_64))))

/-! ## The body is the regular form -/

/-- The body's chain of operations is the regular form: the same operations in the same order. -/
theorem body2_eq_pool (x : Vec F S1x96x96x96 .f32) : body2 (F := F) x = pool x := rfl

theorem body3_eq_pool (x : Vec F S1x96x96x96 .f32) : body3 (F := F) x = pool x := rfl

/-! ## The stacking read at an index (any float instance) -/

/-- Three numbers laid along an axis: position w holds the w-th. -/
theorem row3_apply (f : Fin 3 → F .f32) (w : Fin 3) : row3 (f 0) (f 1) (f 2) (ix1 w) = f w := by
  unfold row3
  match w with
  | ⟨0, _⟩ =>
    exact concatenate_apply_piece (0 : Fin S3.rank) [⟨S1, broadcast S1 (f 0)⟩, ⟨S1, broadcast S1 (f 1)⟩, ⟨S1, broadcast S1 (f 2)⟩]
      concatenates_S1_S1_S1_S3_d0 _ 0 (show (0 : Nat) < 3 by omega) S1 (broadcast S1 (f 0)) rfl rfl 0 rfl
      (ix1 (0 : Fin 1)) (fun b hb => absurd (Subsingleton.elim (α := Fin 1) _ _) hb) rfl
  | ⟨1, _⟩ =>
    exact concatenate_apply_piece (0 : Fin S3.rank) [⟨S1, broadcast S1 (f 0)⟩, ⟨S1, broadcast S1 (f 1)⟩, ⟨S1, broadcast S1 (f 2)⟩]
      concatenates_S1_S1_S1_S3_d0 _ 1 (show (1 : Nat) < 3 by omega) S1 (broadcast S1 (f 1)) rfl rfl 1 rfl
      (ix1 (0 : Fin 1)) (fun b hb => absurd (Subsingleton.elim (α := Fin 1) _ _) hb) rfl
  | ⟨2, _⟩ =>
    exact concatenate_apply_piece (0 : Fin S3.rank) [⟨S1, broadcast S1 (f 0)⟩, ⟨S1, broadcast S1 (f 1)⟩, ⟨S1, broadcast S1 (f 2)⟩]
      concatenates_S1_S1_S1_S3_d0 _ 2 (show (2 : Nat) < 3 by omega) S1 (broadcast S1 (f 2)) rfl rfl 2 rfl
      (ix1 (0 : Fin 1)) (fun b hb => absurd (Subsingleton.elim (α := Fin 1) _ _) hb) rfl

/-- Three rows stacked: row h, position w, is the h-th row's w-th entry. -/
theorem mat3_apply (g : Fin 3 → FVec F S3 .f32) (h w : Fin 3) : mat3 (g 0) (g 1) (g 2) (ix2 h w) = g h (ix1 w) := by
  unfold mat3
  have hi : ∀ (k : Fin 3) (b : Fin S1x3.rank), b.cast (rfl : S1x3.rank = S3x3.rank) ≠ (0 : Fin S3x3.rank) →
      ((ix2 (0 : Fin 1) w : S1x3.Idx) b).val = ((ix2 k w : S3x3.Idx) (b.cast rfl)).val := fun k b hb =>
    match b, hb with
    | ⟨0, _⟩, hb => absurd rfl hb
    | ⟨1, _⟩, _ => rfl
  match h with
  | ⟨0, _⟩ =>
    exact (concatenate_apply_piece (0 : Fin S3x3.rank) [⟨S1x3, shapeCast S1x3 (g 0) shapeCasts_S3_S1x3⟩,
      ⟨S1x3, shapeCast S1x3 (g 1) shapeCasts_S3_S1x3⟩, ⟨S1x3, shapeCast S1x3 (g 2) shapeCasts_S3_S1x3⟩]
      concatenates_S1x3_S1x3_S1x3_S3x3_d0 _ 0 (show (0 : Nat) < 3 by omega) S1x3 (shapeCast S1x3 (g 0) shapeCasts_S3_S1x3) rfl rfl 0 rfl
      (ix2 (0 : Fin 1) w) (hi 0) rfl).trans (shapeCast_a_1a_apply (g 0) shapeCasts_S3_S1x3 0 w)
  | ⟨1, _⟩ =>
    exact (concatenate_apply_piece (0 : Fin S3x3.rank) [⟨S1x3, shapeCast S1x3 (g 0) shapeCasts_S3_S1x3⟩,
      ⟨S1x3, shapeCast S1x3 (g 1) shapeCasts_S3_S1x3⟩, ⟨S1x3, shapeCast S1x3 (g 2) shapeCasts_S3_S1x3⟩]
      concatenates_S1x3_S1x3_S1x3_S3x3_d0 _ 1 (show (1 : Nat) < 3 by omega) S1x3 (shapeCast S1x3 (g 1) shapeCasts_S3_S1x3) rfl rfl 1 rfl
      (ix2 (0 : Fin 1) w) (hi 1) rfl).trans (shapeCast_a_1a_apply (g 1) shapeCasts_S3_S1x3 0 w)
  | ⟨2, _⟩ =>
    exact (concatenate_apply_piece (0 : Fin S3x3.rank) [⟨S1x3, shapeCast S1x3 (g 0) shapeCasts_S3_S1x3⟩,
      ⟨S1x3, shapeCast S1x3 (g 1) shapeCasts_S3_S1x3⟩, ⟨S1x3, shapeCast S1x3 (g 2) shapeCasts_S3_S1x3⟩]
      concatenates_S1x3_S1x3_S1x3_S3x3_d0 _ 2 (show (2 : Nat) < 3 by omega) S1x3 (shapeCast S1x3 (g 2) shapeCasts_S3_S1x3) rfl rfl 2 rfl
      (ix2 (0 : Fin 1) w) (hi 2) rfl).trans (shapeCast_a_1a_apply (g 2) shapeCasts_S3_S1x3 0 w)

/-- Three tables stacked under a leading unit axis: entry (0, d, h, w) is the d-th table's (h, w) entry. -/
theorem cube3_apply (G : Fin 3 → FVec F S3x3 .f32) (d h w : Fin 3) :
    cube3 (G 0) (G 1) (G 2) (ix4 (0 : Fin 1) d h w) = G d (ix2 h w) := by
  unfold cube3
  refine (shapeCast_abc_1abc_apply _ shapeCasts_S3x3x3_S1x3x3x3 0 d h w).trans ?_
  have hi : ∀ (k : Fin 3) (b : Fin S1x3x3.rank), b.cast (rfl : S1x3x3.rank = S3x3x3.rank) ≠ (0 : Fin S3x3x3.rank) →
      ((ix3 (0 : Fin 1) h w : S1x3x3.Idx) b).val = ((ix3 k h w : S3x3x3.Idx) (b.cast rfl)).val := fun k b hb =>
    match b, hb with
    | ⟨0, _⟩, hb => absurd rfl hb
    | ⟨1, _⟩, _ => rfl
    | ⟨2, _⟩, _ => rfl
  match d with
  | ⟨0, _⟩ =>
    exact (concatenate_apply_piece (0 : Fin S3x3x3.rank) [⟨S1x3x3, shapeCast S1x3x3 (G 0) shapeCasts_S3x3_S1x3x3⟩,
      ⟨S1x3x3, shapeCast S1x3x3 (G 1) shapeCasts_S3x3_S1x3x3⟩, ⟨S1x3x3, shapeCast S1x3x3 (G 2) shapeCasts_S3x3_S1x3x3⟩]
      concatenates_S1x3x3_S1x3x3_S1x3x3_S3x3x3_d0 _ 0 (show (0 : Nat) < 3 by omega) S1x3x3 (shapeCast S1x3x3 (G 0) shapeCasts_S3x3_S1x3x3)
      rfl rfl 0 rfl (ix3 (0 : Fin 1) h w) (hi 0) rfl).trans (shapeCast_ab_1ab_apply (G 0) shapeCasts_S3x3_S1x3x3 0 h w)
  | ⟨1, _⟩ =>
    exact (concatenate_apply_piece (0 : Fin S3x3x3.rank) [⟨S1x3x3, shapeCast S1x3x3 (G 0) shapeCasts_S3x3_S1x3x3⟩,
      ⟨S1x3x3, shapeCast S1x3x3 (G 1) shapeCasts_S3x3_S1x3x3⟩, ⟨S1x3x3, shapeCast S1x3x3 (G 2) shapeCasts_S3x3_S1x3x3⟩]
      concatenates_S1x3x3_S1x3x3_S1x3x3_S3x3x3_d0 _ 1 (show (1 : Nat) < 3 by omega) S1x3x3 (shapeCast S1x3x3 (G 1) shapeCasts_S3x3_S1x3x3)
      rfl rfl 1 rfl (ix3 (0 : Fin 1) h w) (hi 1) rfl).trans (shapeCast_ab_1ab_apply (G 1) shapeCasts_S3x3_S1x3x3 0 h w)
  | ⟨2, _⟩ =>
    exact (concatenate_apply_piece (0 : Fin S3x3x3.rank) [⟨S1x3x3, shapeCast S1x3x3 (G 0) shapeCasts_S3x3_S1x3x3⟩,
      ⟨S1x3x3, shapeCast S1x3x3 (G 1) shapeCasts_S3x3_S1x3x3⟩, ⟨S1x3x3, shapeCast S1x3x3 (G 2) shapeCasts_S3x3_S1x3x3⟩]
      concatenates_S1x3x3_S1x3x3_S1x3x3_S3x3x3_d0 _ 2 (show (2 : Nat) < 3 by omega) S1x3x3 (shapeCast S1x3x3 (G 2) shapeCasts_S3x3_S1x3x3)
      rfl rfl 2 rfl (ix3 (0 : Fin 1) h w) (hi 2) rfl).trans (shapeCast_ab_1ab_apply (G 2) shapeCasts_S3x3_S1x3x3 0 h w)

end Regular

/-! ## One corner's mean at the ideal instance -/

section AtIdeal

/-- A [32, 32] array viewed [32, 32, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- An [a, 1] array viewed [a, 1, 1] reads, at (i, u, u'), the operand at (i, u). -/
theorem shapeCast_a1_a11_apply {α : Type} {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i u) :=
  shapeCast_apply x h _ _ (by
    have hu : u'.val = 0 := by omega
    rw [Shape.rowMajor_val_three, Shape.rowMajor_val_two]
    show i.val * 1 + u.val = (i.val * 1 + u.val) * 1 + u'.val
    omega)

/-- A [1, 1] array viewed [1, 1, 1]: its one entry. -/
theorem shapeCast_11_111_apply {α : Type} (x : (⟨2, ![1, 1]⟩ : Shape).Idx → α)
    (h : (⟨2, ![1, 1]⟩ : Shape).ShapeCasts ⟨3, ![1, 1, 1]⟩) (u u' u'' : Fin 1) :
    shapeCast ⟨3, ![1, 1, 1]⟩ x h (ix3 u u' u'') = x (ix2 u u') :=
  shapeCast_apply x h _ _ (by
    have hu : u''.val = 0 := by omega
    rw [Shape.rowMajor_val_three, Shape.rowMajor_val_two]
    show u.val * 1 + u'.val = (u.val * 1 + u'.val) * 1 + u''.val
    omega)

/-- The source index above (i, j) with k on the last axis. -/
theorem lift_last (h : S32x32x32.Reduces [2] S32x32) (i j k : Fin 32) : h.lift (ix2 i j) k = ix3 i j k := by
  funext c; apply Fin.ext
  match c with
  | ⟨0, _⟩ => rfl
  | ⟨1, _⟩ => rfl
  | ⟨2, _⟩ => rfl

/-- The source index above (i, u) with j on the middle axis. -/
theorem lift_mid (h : S32x32x1.Reduces [1] S32x1) (i : Fin 32) (u : Fin 1) (j : Fin 32) : h.lift (ix2 i u) j = ix3 i j u := by
  funext c; apply Fin.ext
  match c with
  | ⟨0, _⟩ => rfl
  | ⟨1, _⟩ => rfl
  | ⟨2, _⟩ => rfl

/-- The source index above (u, u') with i on the first axis. -/
theorem lift_first (h : S32x1x1.Reduces [0] S1x1) (u u' : Fin 1) (i : Fin 32) : h.lift (ix2 u u') i = ix3 i u u' := by
  funext c; apply Fin.ext
  match c with
  | ⟨0, _⟩ => rfl
  | ⟨1, _⟩ => rfl
  | ⟨2, _⟩ => rfl

/-- The sum from the zero word over the last axis is the plain sum over that axis's 32 coordinates. -/
theorem sum_last (src : FVec Ideal S32x32x32 .f32) (hφ : FKind.Formats .f32)
    (hacc : (0x00000000#32 : BitVec 32) = FKind.add.neutral .f32 hφ) (i j : Fin 32) :
    multiReduction (F := Ideal) .add [2] S32x32 src 0x00000000#32 reduces_S32x32x32_S32x32 hφ hacc (ix2 i j)
      = ∑ k : Fin 32, src (ix3 i j k) :=
  (Ideal.multiReduction_add_single src 0x00000000#32 reduces_S32x32x32_S32x32 hφ hacc (ix2 i j)).trans
    (Finset.sum_congr rfl fun k _ => congrArg src (lift_last reduces_S32x32x32_S32x32 i j k))

/-- The same over the middle axis. -/
theorem sum_mid (src : FVec Ideal S32x32x1 .f32) (hφ : FKind.Formats .f32)
    (hacc : (0x00000000#32 : BitVec 32) = FKind.add.neutral .f32 hφ) (i : Fin 32) (u : Fin 1) :
    multiReduction (F := Ideal) .add [1] S32x1 src 0x00000000#32 reduces_S32x32x1_S32x1 hφ hacc (ix2 i u)
      = ∑ j : Fin 32, src (ix3 i j u) :=
  (Ideal.multiReduction_add_single src 0x00000000#32 reduces_S32x32x1_S32x1 hφ hacc (ix2 i u)).trans
    (Finset.sum_congr rfl fun j _ => congrArg src (lift_mid reduces_S32x32x1_S32x1 i u j))

/-- The same over the first axis. -/
theorem sum_first (src : FVec Ideal S32x1x1 .f32) (hφ : FKind.Formats .f32)
    (hacc : (0x00000000#32 : BitVec 32) = FKind.add.neutral .f32 hφ) (u u' : Fin 1) :
    multiReduction (F := Ideal) .add [0] S1x1 src 0x00000000#32 reduces_S32x1x1_S1x1 hφ hacc (ix2 u u')
      = ∑ i : Fin 32, src (ix3 i u u') :=
  (Ideal.multiReduction_add_single src 0x00000000#32 reduces_S32x1x1_S1x1 hφ hacc (ix2 u u')).trans
    (Finset.sum_congr rfl fun i _ => congrArg src (lift_first reduces_S32x1x1_S1x1 u u' i))

/-- The innermost stage at (i, j): the corner's row (i, j, ·) summed, over 32. -/
theorem meanW_apply (v : Vec Ideal S1x32x32x32 .f32) (i j : Fin 32) (u : Fin 1) :
    meanW (F := Ideal) v (ix3 i j u) = Ideal.div (∑ k : Fin 32, v (ix4 (0 : Fin 1) i j k)) c32 := by
  unfold meanW
  refine congrArg (fun t => Ideal.div t c32) ?_
  refine (shapeCast_ab_ab1_apply _ shapeCasts_S32x32_S32x32x1 i j u).trans ?_
  refine (sum_last _ _ _ i j).trans ?_
  exact Finset.sum_congr rfl fun k _ => shapeCast_1abc_abc_apply v shapeCasts_S1x32x32x32_S32x32x32 i j k

/-- The middle stage at i. -/
theorem meanH_apply (m : FVec Ideal S32x32x1 .f32) (i : Fin 32) (u u' : Fin 1) :
    meanH (F := Ideal) m (ix3 i u u') = Ideal.div (∑ j : Fin 32, m (ix3 i j u)) c32 := by
  unfold meanH
  refine congrArg (fun t => Ideal.div t c32) ?_
  refine (shapeCast_a1_a11_apply _ shapeCasts_S32x1_S32x1x1 i u u').trans ?_
  exact sum_mid _ _ _ i u

/-- The outer stage. -/
theorem meanD_apply (m : FVec Ideal S32x1x1 .f32) (u u' u'' : Fin 1) :
    meanD (F := Ideal) m (ix3 u u' u'') = Ideal.div (∑ i : Fin 32, m (ix3 i u u')) c32 := by
  unfold meanD
  refine congrArg (fun t => Ideal.div t c32) ?_
  refine (shapeCast_11_111_apply _ shapeCasts_S1x1_S1x1x1 u u' u'').trans ?_
  exact sum_first _ _ _ u u'

/-- One corner's mean is the nested mean of its entries. -/
theorem regMean_eq (v : Vec Ideal S1x32x32x32 .f32) :
    regMean (F := Ideal) v = nestedMean (fun i j k => v (ix4 (0 : Fin 1) i j k)) := by
  unfold regMean nestedMean
  have e : (fun a => (⟨(![0, 0, 0] : Fin 3 → Nat) a, inpos_S1x1x1_p0_0_0 a⟩ : Fin (S1x1x1.size a)))
      = (ix3 (0 : Fin 1) (0 : Fin 1) (0 : Fin 1) : S1x1x1.Idx) := by
    funext a; apply Fin.ext
    match a with
    | ⟨0, _⟩ => rfl
    | ⟨1, _⟩ => rfl
    | ⟨2, _⟩ => rfl
  show meanD (F := Ideal) (meanH (meanW v)) _ = _
  rw [e]
  refine (meanD_apply _ 0 0 0).trans ?_
  refine congrArg (fun t => Ideal.div t c32) (Finset.sum_congr rfl fun i _ => ?_)
  refine (meanH_apply _ i 0 0).trans ?_
  refine congrArg (fun t => Ideal.div t c32) (Finset.sum_congr rfl fun j _ => ?_)
  exact meanW_apply v i j 0

end AtIdeal

/-! ## The 27 corners by their region coordinates -/

section Corners
variable {F : FTy → Type} [FloatOps F]

/-- The corner of region (d, h, w): 32 consecutive coordinates from 32 d, 32 h, 32 w. -/
abbrev cornerRect (d h w : Fin 3) : Rect S1x96x96x96 :=
  Rect.unit (s := S1x96x96x96) ![0, 32 * d.val, 32 * h.val, 32 * w.val] S1x32x32x32.size (fun a => by
    have := d.isLt; have := h.isLt; have := w.isLt
    match a with
    | ⟨0, _⟩ => show 0 + 1 ≤ 1; omega
    | ⟨1, _⟩ => show 32 * d.val + 32 ≤ 96; omega
    | ⟨2, _⟩ => show 32 * h.val + 32 ≤ 96; omega
    | ⟨3, _⟩ => show 32 * w.val + 32 ≤ 96; omega)

/-- The mean of region (d, h, w) as the body computes it. -/
def poolF (x : Vec F S1x96x96x96 .f32) (d h w : Fin 3) : F .f32 := regMean (View.ld x (cornerRect d h w))

/-- The row of region means (d, h, ·), the table (d, ·, ·). -/
def poolRow (x : Vec F S1x96x96x96 .f32) (d h : Fin 3) : FVec F S3 .f32 := row3 (poolF x d h 0) (poolF x d h 1) (poolF x d h 2)
def poolMat (x : Vec F S1x96x96x96 .f32) (d : Fin 3) : FVec F S3x3 .f32 := mat3 (poolRow x d 0) (poolRow x d 1) (poolRow x d 2)

/-- The stacked block is the stack of the three tables. -/
theorem pool_eq (x : Vec F S1x96x96x96 .f32) : pool x = cube3 (poolMat x 0) (poolMat x 1) (poolMat x 2) := rfl

/-- The stacked block at (0, d, h, w) is the mean of region (d, h, w). -/
theorem pool_at (x : Vec F S1x96x96x96 .f32) (d h w : Fin 3) : pool x (ix4 (0 : Fin 1) d h w) = poolF x d h w :=
  (congrFun (pool_eq x) _).trans <| (cube3_apply (poolMat x) d h w).trans <|
    (mat3_apply (poolRow x d) h w).trans (row3_apply (poolF x d h) w)

end Corners

/-- A corner read at (0, i, j, k) is the block at the region's offsets plus (i, j, k). -/
theorem ld_corner (x : Vec Ideal S1x96x96x96 .f32) (d h w : Fin 3) (i j k : Fin 32) :
    View.ld x (cornerRect d h w) (ix4 (0 : Fin 1) i j k) = x (ix4 (0 : Fin 1) (at32 d i) (at32 h j) (at32 w k)) := by
  show x _ = x _
  congr 1
  funext a; apply Fin.ext
  match a with
  | ⟨0, _⟩ => show 0 + 1 * 0 = 0; omega
  | ⟨1, _⟩ => show 32 * d.val + 1 * i.val = 32 * d.val + i.val; omega
  | ⟨2, _⟩ => show 32 * h.val + 1 * j.val = 32 * h.val + j.val; omega
  | ⟨3, _⟩ => show 32 * w.val + 1 * k.val = 32 * w.val + k.val; omega

/-- The body's region mean is the nested mean of the region's entries. -/
theorem poolF_eq (x : Vec Ideal S1x96x96x96 .f32) (d h w : Fin 3) :
    poolF (F := Ideal) x d h w = nestedMean (fun i j k => x (ix4 (0 : Fin 1) (at32 d i) (at32 h j) (at32 w k))) := by
  unfold poolF
  refine (regMean_eq _).trans ?_
  exact congrArg nestedMean (funext fun i => funext fun j => funext fun k => ld_corner x d h w i j k)

/-- What the body stores into its first output block, read at (0, d, h, w). -/
theorem body2_apply (x : Vec Ideal S1x96x96x96 .f32) (d h w : Fin 3) :
    body2 (F := Ideal) x (ix4 0 d h w) = nestedMean (fun i j k => x (ix4 0 (at32 d i) (at32 h j) (at32 w k))) :=
  (congrFun (body2_eq_pool x) _).trans ((pool_at x d h w).trans (poolF_eq x d h w))

/-- What the body stores into its second output block, read at (0, d, h, w). -/
theorem body3_apply (x : Vec Ideal S1x96x96x96 .f32) (d h w : Fin 3) :
    body3 (F := Ideal) x (ix4 0 d h w) = nestedMean (fun i j k => x (ix4 0 (at32 d i) (at32 h j) (at32 w k))) :=
  (congrFun (body3_eq_pool x) _).trans ((pool_at x d h w).trans (poolF_eq x d h w))

end Cert.KernelIdeal.Body

end
-- ==== Proof.Finite.lean ====
/-
  The precondition, decoded.

  The precondition evaluates, for each of the two argument arrays, "the absolute value of every entry is below
  plus infinity", joins all entries by logical and, and joins the two results by logical and; it is assumed to be
  true. Read back: each entry x has max x (-x) < +infinity on the extended reals, so x is neither +infinity
  nor -infinity, and is therefore a real number.
-/
import proofs.«152811_j61263413510186_2_alg».proof.Defs
import proofs.«152811_j61263413510186_2_alg».proof.Proof.Gen.Pre_finite_inputs
import Idealize.ShloMosaic.Lib.ReduceAll
import Idealize.ShloMosaic.Lib.ValueIdx

noncomputable section

namespace Cert.Finite

open Idealize.ShloMosaic Idealize.SL.Sem Cert.Pre_finite_inputs

/-- The word of plus infinity reads as the top of the extended reals. -/
theorem ofBits_inf : Ideal.ofBits .f32 0x7F800000#32 = (⊤ : EReal) := by
  simp [Ideal.ofBits, Ideal.ieee]

/-- An extended real whose absolute value is strictly below the top is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

instance : Subsingleton S_.Idx := ⟨fun a b => funext fun d => d.elim0⟩

theorem real_of_pre [Cert.Pre_finite_inputs.Facts] (x0 x1 : FVec Ideal S2x32x96x96x96 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn, andi] at h0
  obtain ⟨ha, hb⟩ := IntOp.andi_eq_one.1 h0
  refine ⟨fun i => ?_, fun i => ?_⟩
  · have e := Host.reduce_andi_all _ _ _ _ _ ha i
    have e' : Ideal.cmp .olt (max (x0 i) (-(x0 i))) (Ideal.ofBits .f32 0x7F800000#32) = 1#1 := e
    rw [ofBits_inf] at e'
    exact real_of_abs_lt_top _ e'
  · have e := Host.reduce_andi_all _ _ _ _ _ hb i
    have e' : Ideal.cmp .olt (max (x1 i) (-(x1 i))) (Ideal.ofBits .f32 0x7F800000#32) = 1#1 := e
    rw [ofBits_inf] at e'
    exact real_of_abs_lt_top _ e'

/-- The decoding, at a memory of which the certificate's precondition holds. -/
theorem real_of_Pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_pre _ _ (hpre c)

end Cert.Finite

end
-- ==== Proof.ValueI.lean ====
/-
  The kernel program's result, named: it is the reference's last stage of the two argument arrays.

  After the region each output array holds, at (32·b + ch, d, h, w), the body's mean of region (d, h, w) of volume
  (b, ch) of the matching argument: a nested mean, which on finite entries is the reference's flat mean. Viewed
  [2, 32, 3, 3, 3] the output arrays are therefore the reference's arrays of region means, and their means over the 27
  regions are the reference's arrays of volume means. From four equal pooled arrays the remaining host lines are the
  reference's own.
-/
import proofs.«152811_j61263413510186_2_alg».proof.Proof.FrameI
import proofs.«152811_j61263413510186_2_alg».proof.Proof.Tail
import proofs.«152811_j61263413510186_2_alg».proof.Proof.PoolOps
import proofs.«152811_j61263413510186_2_alg».proof.Proof.Leaves
import proofs.«152811_j61263413510186_2_alg».proof.Proof.ArrI
import proofs.«152811_j61263413510186_2_alg».proof.Proof.PoolClean
import proofs.«152811_j61263413510186_2_alg».proof.Proof.Finite

noncomputable section

namespace Cert.KernelIdeal.ValueH

open Cert.KernelIdeal Cert.KernelIdeal.Gen Cert.KernelIdeal.Body Cert.KernelIdeal.HF
open Idealize.ShloMosaic Idealize.ShloMosaic.TcCoe Idealize.ShloMosaic.ValueIdx Idealize.SL.Sem
open Cert.ReferenceIdeal.Read

variable (m : (ℓ : Loc nD τ sig) → Buf (Elt Ideal) ℓ)

/-- The first output array, viewed [2, 32, 3, 3, 3], is the reference's array of region means of the first argument. -/
theorem regions2 (c : Dev nD) (hx : ∀ i, ∃ r : ℝ, m ((c.tc : Thread nD τ).loc main_arg0) i = (r : EReal)) :
    Cert.PoolOps.regions ((dats m 0 c).arrAt 2 cfg0.N) = val_main_v11 (F := Ideal) (m ((c.tc : Thread nD τ).loc main_arg0)) :=
  Cert.Leaves.pooled_eq_v11 (m ((c.tc : Thread nD τ).loc main_arg0)) hx _ (body2 (F := Ideal)) body2_apply
    (Cert.KernelIdeal.Arr.pooled2_apply m c)

/-- The second, of the second argument. -/
theorem regions3 (c : Dev nD) (hx : ∀ i, ∃ r : ℝ, m ((c.tc : Thread nD τ).loc main_arg1) i = (r : EReal)) :
    Cert.PoolOps.regions ((dats m 0 c).arrAt 3 cfg0.N) = val_main_v15 (F := Ideal) (m ((c.tc : Thread nD τ).loc main_arg1)) :=
  Cert.Leaves.pooled_eq_v15 (m ((c.tc : Thread nD τ).loc main_arg1)) hx _ (body3 (F := Ideal)) body3_apply
    (Cert.KernelIdeal.Arr.pooled3_apply m c)

/-- What the later host lines leave in the result buffer. -/
theorem tail_value (hpre : Cert.Pre_KernelIdeal m) (c : Dev nD) :
    Pipeline.afterTail₀ cfgs (dats m) 0 (V0 m) tailOpss c main_v111
      = val_main_v114 (F := Ideal) (m ((c.tc : Thread nD τ).loc main_arg0)) (m ((c.tc : Thread nD τ).loc main_arg1)) := by
  obtain ⟨hx0, hx1⟩ := Cert.Finite.real_of_Pre m hpre c
  unfold Pipeline.afterTail₀
  rw [show (tailOpss (F := Ideal)).flatten = Cert.PoolOps.poolOps ++ Cert.Tail.restOps from Cert.Tail.flatten_eq, Cert.Tail.after_append]
  have a2 := Pipeline.withArrays_arr spec0 launch0.win.arr_inj c (V0 m c) (fun w => (dats m 0 c).arrAt w cfg0.N) 2
  have a3 := Pipeline.withArrays_arr spec0 launch0.win.arr_inj c (V0 m c) (fun w => (dats m 0 c).arrAt w cfg0.N) 3
  refine Cert.Tail.rest_eq _ _ _ ?_ ?_ ?_ ?_
  · rw [Cert.PoolOps.pool_v8]
    refine (congrArg Cert.PoolOps.mean27 ((congrArg Cert.PoolOps.regions a2).trans (regions2 m c hx0))).trans ?_
    exact Cert.Leaves.kmean_eq_v3 _ hx0
  · rw [Cert.PoolOps.pool_v12]
    refine (congrArg Cert.PoolOps.mean27 ((congrArg Cert.PoolOps.regions a3).trans (regions3 m c hx1))).trans ?_
    exact Cert.Leaves.kmean_eq_v7 _ hx1
  · rw [Cert.PoolOps.pool_v3]
    exact (congrArg Cert.PoolOps.regions a2).trans (regions2 m c hx0)
  · rw [Cert.PoolOps.pool_v4]
    exact (congrArg Cert.PoolOps.regions a3).trans (regions3 m c hx1)

end Cert.KernelIdeal.ValueH

end
-- ==== Proof.lean ====
/-
  The certificate: three frames, the (empty) idealization ledger, and the equality of the two idealized programs.

  The kernel pools each 96³ volume of its two arguments into 3 x 3 x 3 region means inside one region of 64 grid points,
  one volume per point, and its later host lines take the volume means as the means of the 27 region means; the
  reference takes both kinds of means directly, as one sum and one division each. On finite inputs the two agree entry
  by entry, and from the four pooled arrays on the two programs perform the same operations. Both word-level and
  idealized kernel programs run to the end with their arguments unchanged because the region's body writes only its two
  output blocks and the host lines only their own results; the reference is straight-line host code.
-/
import proofs.«152811_j61263413510186_2_alg».proof.Defs
import proofs.«152811_j61263413510186_2_alg».proof.Proof.Gen.Kernel
import proofs.«152811_j61263413510186_2_alg».proof.Proof.Gen.KernelIdeal
import proofs.«152811_j61263413510186_2_alg».proof.Proof.Gen.ReferenceIdeal
import proofs.«152811_j61263413510186_2_alg».proof.Proof.Gen.Pre_finite_inputs
import proofs.«152811_j61263413510186_2_alg».proof.Proof.Gen.ReferenceIdeal.Run
import proofs.«152811_j61263413510186_2_alg».proof.Proof.Gen.ReferenceIdeal.Read
import proofs.«152811_j61263413510186_2_alg».proof.Proof.FrameK
import proofs.«152811_j61263413510186_2_alg».proof.Proof.FrameI
import proofs.«152811_j61263413510186_2_alg».proof.Proof.ValueI
import Idealize.ShloMosaic.Adequacy
import Idealize.ShloMosaic.Init

noncomputable section

namespace Cert.Proof

open Idealize.ShloMosaic Idealize.SL.Sem

theorem frame_k : Cert.frame_Kernel := fun m ρ _ => Cert.Kernel.HF.frame (F := Bits) m ρ

theorem frame_ki : Cert.frame_KernelIdeal := fun m ρ _ => Cert.KernelIdeal.HF.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the argument arrays in their result buffers. -/
theorem algebraic : Cert.algebraic_KernelIdeal_ReferenceIdeal := by
  intro m ρ m' ρ' hpre hagree
  refine ⟨fun c => Cert.ReferenceIdeal.Read.val_main_v114 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.HF.run_main (F := Ideal) m ρ)
    · exact ((h c).2 Cert.KernelIdeal.main_v111 (Pipeline.mem_restRefs_of Cert.KernelIdeal.main_v111 (by decide) (by decide))).trans
        (Cert.KernelIdeal.ValueH.tail_value m hpre c)
    · exact ((h c).2 Cert.KernelIdeal.main_arg0 (Pipeline.mem_restRefs_of Cert.KernelIdeal.main_arg0 (by decide) (by decide))).trans
        (Cert.KernelIdeal.HF.W_main_arg0 m (Cert.KernelIdeal.HF.dats m) c)
    · exact ((h c).2 Cert.KernelIdeal.main_arg1 (Pipeline.mem_restRefs_of Cert.KernelIdeal.main_arg1 (by decide) (by decide))).trans
        (Cert.KernelIdeal.HF.W_main_arg1 m (Cert.KernelIdeal.HF.dats m) c)
  · refine (θ_run Cert.ReferenceIdeal.defs _ _).mono (fun _ h c => ⟨?_, (h c).2⟩) (Cert.ReferenceIdeal.Value.run (F := Ideal) m' ρ')
    rw [(h c).1, Cert.ReferenceIdeal.Read.val_main_v114_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
